-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S1200000 : Shape := ⟨1, ![1200000]⟩
abbrev S512x64 : Shape := ⟨2, ![512, 64]⟩
abbrev S64 : Shape := ⟨1, ![64]⟩
abbrev S448x47 : Shape := ⟨2, ![448, 47]⟩
abbrev S47 : Shape := ⟨1, ![47]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S1200000 : S_.BroadcastsInDim S1200000 (![] : Fin 0 → Fin S1200000.rank)
  reducesTo_S1200000_S_d0 : S1200000.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S448x47 : S_.BroadcastsInDim S448x47 (![] : Fin 0 → Fin S448x47.rank)
  reducesTo_S448x47_S_d0_1 : S448x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg8 : FVec F S64 .f32) (main_arg9 : FVec F S448x47 .f32) (main_arg10 : FVec F S47 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S448x47 .f32 := Host.absf main_arg9
  let main_cst_8 : FVec F S_ .f32 := constant S_ .f32 0x7F800000#32
  let main_v25 : FVec F S448x47 .f32 := broadcastInDim S448x47 ![] bcast_S_S448x47 main_cst_8
  let main_v26 : IVec S448x47 1 := cmpf .olt main_v24 main_v25
  let main_c_9 : IVec S_ 1 := constantI S_ 1 1#1
  let main_v27 : IVec S_ 1 := (fun x v => Host.reduce IntOp.andi x v reducesTo_S448x47_S_d0_1 h_S_) main_v26 main_c_9
  let main_v28 : IVec S_ 1 := andi main_v23 main_v27
  let main_v29 : FVec F S47 .f32 := Host.absf main_arg10
  let main_cst_10 : FVec F S_ .f32 := constant S_ .f32 0x7F800000#32
  let main_v30 : FVec F S47 .f32 := broadcastInDim S47 ![] bcast_S_S47 main_cst_10
  let main_v31 : IVec S47 1 := cmpf .olt main_v29 main_v30
  let main_c_11 : IVec S_ 1 := constantI S_ 1 1#1
  let main_v32 : IVec S_ 1 := (fun x v => Host.reduce IntOp.andi x v reducesTo_S47_S_d0 h_S_) main_v31 main_c_11
  let main_v33 : IVec S_ 1 := andi main_v28 main_v32
  main_v33

def fn {F : FTy → Type} [FloatOps F] (main_arg0 : FVec F S50000x512 .f32) (main_arg1 : IVec S800000 32) (main_arg2 : IVec S800000 32) (main_arg3 : FVec F S800000 .f32) (main_arg4 : IVec S1200000 32) (main_arg5 : IVec S1200000 32) (main_arg6 : FVec F S1200000 .f32) (main_arg7 : FVec F S512x64 .f32) (main_arg8 : FVec F S64 .f32) (main_arg9 : FVec F S448x47 .f32) (main_arg10 : FVec F S47 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S1200000 .f32 := Host.absf main_arg6
  let main_cst_2 : FVec F S_ .f32 := constant S_ .f32 0x7F800000#32
  let main_v10 : FVec F S1200000 .f32 := broadcastInDim S1200000 ![] bcast_S_S1200000 main_cst_2
  let main_v11 : IVec S1200000 1 := cmpf .olt main_v9 main_v10
  let main_c_3 : IVec S_ 1 := constantI S_ 1 1#1
  let main_v12 : IVec S_ 1 := (fun x v => Host.reduce IntOp.andi x v reducesTo_S1200000_S_d0 h_S_) main_v11 main_c_3
  let main_v13 : IVec S_ 1 := andi main_v8 main_v12
  let main_v14 : FVec F S512x64 .f32 := Host.absf main_arg7
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg8 main_arg9 main_arg10 main_v13 main_v16
-- ==== Kernel.lean ====
abbrev S50000x512 : Shape := ⟨2, ![50000, 512]⟩
abbrev S800000 : Shape := ⟨1, ![800000]⟩
abbrev S1200000 : Shape := ⟨1, ![1200000]⟩
abbrev S512x64 : Shape := ⟨2, ![512, 64]⟩
abbrev S64 : Shape := ⟨1, ![64]⟩
abbrev S448x47 : Shape := ⟨2, ![448, 47]⟩
abbrev S47 : Shape := ⟨1, ![47]⟩
abbrev S50000x64 : Shape := ⟨2, ![50000, 64]⟩
abbrev S2000x512 : Shape := ⟨2, ![2000, 512]⟩
abbrev S2000x64 : Shape := ⟨2, ![2000, 64]⟩
abbrev S1x64 : Shape := ⟨2, ![1, 64]⟩
abbrev S800000x1 : Shape := ⟨2, ![800000, 1]⟩
abbrev S_ : Shape := ⟨0, ![]⟩
abbrev S800000x64 : Shape := ⟨2, ![800000, 64]⟩
abbrev S1200000x1 : Shape := ⟨2, ![1200000, 1]⟩
abbrev S1200000x64 : Shape := ⟨2, ![1200000, 64]⟩
abbrev S50000x128 : Shape := ⟨2, ![50000, 128]⟩
abbrev S2000x128 : Shape := ⟨2, ![2000, 128]⟩
abbrev S800000x128 : Shape := ⟨2, ![800000, 128]⟩
abbrev S1200000x128 : Shape := ⟨2, ![1200000, 128]⟩
abbrev S50000x256 : Shape := ⟨2, ![50000, 256]⟩
abbrev S2000x256 : Shape := ⟨2, ![2000, 256]⟩
abbrev S50000x47 : Shape := ⟨2, ![50000, 47]⟩
abbrev S2000x47 : Shape := ⟨2, ![2000, 47]⟩
abbrev S64x47 : Shape := ⟨2, ![64, 47]⟩
abbrev S128x47 : Shape := ⟨2, ![128, 47]⟩
abbrev S256x47 : Shape := ⟨2, ![256, 47]⟩
abbrev S1x47 : Shape := ⟨2, ![1, 47]⟩

abbrev nBuf : Space → Nat
  | .hbm => 79
  | .vmem => 28
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S1200000, .i32⟩
  | .hbm, ⟨5, _⟩ => ⟨S1200000, .i32⟩
  | .hbm, ⟨6, _⟩ => ⟨S1200000, .f32⟩
  | .hbm, ⟨7, _⟩ => ⟨S512x64, .f32⟩
  | .hbm, ⟨8, _⟩ => ⟨S64, .f32⟩
  | .hbm, ⟨9, _⟩ => ⟨S448x47, .f32⟩
  | .hbm, ⟨10, _⟩ => ⟨S47, .f32⟩
  | .hbm, ⟨11, _⟩ => ⟨S50000x64, .f32⟩
  | .hbm, ⟨12, _⟩ => ⟨S800000x1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S800000x64, .f32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | .hbm, ⟨28, _⟩ => ⟨S1200000x1, .f32⟩
  | .hbm, ⟨29, _⟩ => ⟨S_, .i32⟩
  | .hbm, ⟨30, _⟩ => ⟨S1200000, .i32⟩
  | .hbm, ⟨31, _⟩ => ⟨S1200000, .i1⟩
  | .hbm, ⟨32, _⟩ => ⟨S_, .i32⟩
  | .hbm, ⟨33, _⟩ => ⟨S1200000, .i32⟩
  | .hbm, ⟨34, _⟩ => ⟨S1200000, .i32⟩
  | .hbm, ⟨35, _⟩ => ⟨S1200000, .i32⟩
  | .hbm, ⟨36, _⟩ => ⟨S1200000x1, .i32⟩
  | .hbm, ⟨37, _⟩ => ⟨S1200000x64, .f32⟩
  | .hbm, ⟨38, _⟩ => ⟨S1200000x64, .f32⟩
  | .hbm, ⟨39, _⟩ => ⟨S1200000x64, .f32⟩
  | .hbm, ⟨40, _⟩ => ⟨S_, .f32⟩
  | .hbm, ⟨41, _⟩ => ⟨S50000x64, .f32⟩
  | .hbm, ⟨42, _⟩ => ⟨S1200000x1, .i32⟩
  | .hbm, ⟨43, _⟩ => ⟨S50000x64, .f32⟩
  | .hbm, ⟨44, _⟩ => ⟨S50000x128, .f32⟩
  | .hbm, ⟨45, _⟩ => ⟨S800000x1, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S800000x128, .f32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S1200000x1, .f32⟩
  | .hbm, ⟨62, _⟩ => ⟨S_, .i32⟩
  | .hbm, ⟨63, _⟩ => ⟨S1200000, .i32⟩
  | .hbm, ⟨64, _⟩ => ⟨S1200000, .i1⟩
  | .hbm, ⟨65, _⟩ => ⟨S_, .i32⟩
  | .hbm, ⟨66, _⟩ => ⟨S1200000, .i32⟩
  | .hbm, ⟨67, _⟩ => ⟨S1200000, .i32⟩
  | .hbm, ⟨68, _⟩ => ⟨S1200000, .i32⟩
  | .hbm, ⟨69, _⟩ => ⟨S1200000x1, .i32⟩
  | .hbm, ⟨70, _⟩ => ⟨S1200000x128, .f32⟩
  | .hbm, ⟨71, _⟩ => ⟨S1200000x128, .f32⟩
  | .hbm, ⟨72, _⟩ => ⟨S1200000x128, .f32⟩
  | .hbm, ⟨73, _⟩ => ⟨S_, .f32⟩
  | .hbm, ⟨74, _⟩ => ⟨S50000x128, .f32⟩
  | .hbm, ⟨75, _⟩ => ⟨S1200000x1, .i32⟩
  | .hbm, ⟨76, _⟩ => ⟨S50000x128, .f32⟩
  | .hbm, ⟨77, _⟩ => ⟨S50000x256, .f32⟩
  | .hbm, ⟨78, _⟩ => ⟨S50000x47, .f32⟩
  | .local _ .vmem, ⟨0, _⟩ => ⟨S2000x512, .f32⟩
  | .local _ .vmem, ⟨1, _⟩ => ⟨S2000x512, .f32⟩
  | .local _ .vmem, ⟨2, _⟩ => ⟨S512x64, .f32⟩
  | .local _ .vmem, ⟨3, _⟩ => ⟨S64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x256, .f32⟩
  | .local _ .vmem, ⟨17, _⟩ => ⟨S2000x256, .f32⟩
  | .local _ .vmem, ⟨18, _⟩ => ⟨S2000x64, .f32⟩
  | .local _ .vmem, ⟨19, _⟩ => ⟨S2000x64, .f32⟩
  | .local _ .vmem, ⟨20, _⟩ => ⟨S2000x128, .f32⟩
  | .local _ .vmem, ⟨21, _⟩ => ⟨S2000x128, .f32⟩
  | .local _ .vmem, ⟨22, _⟩ => ⟨S2000x256, .f32⟩
  | .local _ .vmem, ⟨23, _⟩ => ⟨S2000x256, .f32⟩
  | .local _ .vmem, ⟨24, _⟩ => ⟨S448x47, .f32⟩
  | .local _ .vmem, ⟨25, _⟩ => ⟨S47, .f32⟩
  | .local _ .vmem, ⟨26, _⟩ => ⟨S2000x47, .f32⟩
  | .local _ .vmem, ⟨27, _⟩ => ⟨S2000x47, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_7 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem4_0 : DmaSem sig := 25
abbrev cc3_sem5_0 : DmaSem sig := 26
abbrev cc3_sem5_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S448x47 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S47 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x47 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S64_S64_0 : ∀ a, (![0] : Fin 1 → Nat) a + S64.size a ≤ S64.size a
  h_S64 : 0 < S64.numel
  shapeCasts_S64_S1x64 : S64.ShapeCasts S1x64
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  shapeCasts_S2000x64_S2000x64 : S2000x64.ShapeCasts S2000x64
  inb_S2000x128_S2000x64_0_0 : ∀ a, (![0, 0] : Fin 2 → Nat) a + S2000x64.size a ≤ S2000x128.size a
  inb_S2000x128_S2000x64_0_64 : ∀ a, (![0, 64] : Fin 2 → Nat) a + S2000x64.size a ≤ S2000x128.size a
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S1200000x1_S1200000x128_0_1 : S1200000x1.BroadcastsInDim S1200000x128 (![0, 1] : Fin 2 → Fin S1200000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x256_S2000x128_0_0 : ∀ a, (![0, 0] : Fin 2 → Nat) a + S2000x128.size a ≤ S2000x256.size a
  inb_S2000x256_S2000x128_0_128 : ∀ a, (![0, 128] : Fin 2 → Nat) a + S2000x128.size a ≤ S2000x256.size a
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S448x47_S448x47_0_0 : ∀ a, (![0, 0] : Fin 2 → Nat) a + S448x47.size a ≤ S448x47.size a
  h_S448x47 : 0 < S448x47.numel
  slices_S448x47_o0_0_S64x47 : S448x47.Slices ![0, 0] S64x47
  slices_S448x47_o64_0_S128x47 : S448x47.Slices ![64, 0] S128x47
  slices_S448x47_o192_0_S256x47 : S448x47.Slices ![192, 0] S256x47
  inb_S47_S47_0 : ∀ a, (![0] : Fin 1 → Nat) a + S47.size a ≤ S47.size a
  h_S47 : 0 < S47.numel
  shapeCasts_S47_S1x47 : S47.ShapeCasts S1x47
  shapeCasts_S1x47_S1x47 : S1x47.ShapeCasts S1x47
  broadcasts_S1x47_S2000x47 : S1x47.Broadcasts S2000x47
  inb_S2000x47_S2000x47_0_0 : ∀ a, (![0, 0] : Fin 2 → Nat) a + S2000x47.size a ≤ S2000x47.size a
  h_S2000x47 : 0 < S2000x47.numel
  dot_S2000x512_S512x64_S2000x64_1_0_0_1_n_n_wf : DotDims.WF S2000x512 S512x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  gather_S50000x64_S1200000x1_S1200000x64_1_0_n_n_0_1_164_wf : GatherDims.WF S50000x64 S1200000x1 S1200000x64 [1] [0] [] [0] [] 1 ![1, 64]
  scatter_S50000x64_S1200000x1_S1200000x64_1_0_0_1_wf : ScatterDims.WF S50000x64 S1200000x1 S1200000x64 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x128_S1200000x1_S1200000x128_1_0_n_n_0_1_1128_wf : GatherDims.WF S50000x128 S1200000x1 S1200000x128 [1] [0] [] [0] [] 1 ![1, 128]
  scatter_S50000x128_S1200000x1_S1200000x128_1_0_0_1_wf : ScatterDims.WF S50000x128 S1200000x1 S1200000x128 [1] [0] [0] 1
  dot_S2000x64_S64x47_S2000x47_1_0_0_1_n_n_wf : DotDims.WF S2000x64 S64x47 S2000x47 [1] [0] [0] [1] [] []
  dot_S2000x128_S128x47_S2000x47_1_0_0_1_n_n_wf : DotDims.WF S2000x128 S128x47 S2000x47 [1] [0] [0] [1] [] []
  dot_S2000x256_S256x47_S2000x47_1_0_0_1_n_n_wf : DotDims.WF S2000x256 S256x47 S2000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S448x47.size a ≤ S448x47.size a
  hwx3_3 : ∀ i : grid3.Coords, EltTy.bits .f32 = 32 ∨ (Rect.block (s := S448x47) S448x47.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S47.size a ≤ S47.size a
  hwx3_4 : ∀ i : grid3.Coords, EltTy.bits .f32 = 32 ∨ (Rect.block (s := S47) S47.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x47.size a ≤ S50000x47.size a
  hwx3_5 : ∀ i : grid3.Coords, EltTy.bits .f32 = 32 ∨ (Rect.block (s := S50000x47) S2000x47.size (cc3_transform_5 i) (hinb3_5 i)).WholeWords (EltTy.packing .f32)

variable [Facts₀]

def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S1200000x1_S1200000x64_1_0_n_n_0_1_164 : GatherDims S50000x64 S1200000x1 S1200000x64 where
  offsetDims := [1]
  collapsedSliceDims := [0]
  operandBatchingDims := []
  startIndicesBatchingDims := []
  startIndexMap := [0]
  indexVectorDim := 1
  sliceSizes := ![1, 64]
  wf := gather_S50000x64_S1200000x1_S1200000x64_1_0_n_n_0_1_164_wf
def scatter_S50000x64_S1200000x1_S1200000x64_1_0_0_1 : ScatterDims S50000x64 S1200000x1 S1200000x64 where
  updateWindowDims := [1]
  insertedWindowDims := [0]
  scatterDimsToOperandDims := [0]
  indexVectorDim := 1
  wf := scatter_S50000x64_S1200000x1_S1200000x64_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S1200000x1_S1200000x128_1_0_n_n_0_1_1128 : GatherDims S50000x128 S1200000x1 S1200000x128 where
  offsetDims := [1]
  collapsedSliceDims := [0]
  operandBatchingDims := []
  startIndicesBatchingDims := []
  startIndexMap := [0]
  indexVectorDim := 1
  sliceSizes := ![1, 128]
  wf := gather_S50000x128_S1200000x1_S1200000x128_1_0_n_n_0_1_1128_wf
def scatter_S50000x128_S1200000x1_S1200000x128_1_0_0_1 : ScatterDims S50000x128 S1200000x1 S1200000x128 where
  updateWindowDims := [1]
  insertedWindowDims := [0]
  scatterDimsToOperandDims := [0]
  indexVectorDim := 1
  wf := scatter_S50000x128_S1200000x1_S1200000x128_1_0_0_1_wf
def dot_S2000x64_S64x47_S2000x47_1_0_0_1_n_n : DotDims S2000x64 S64x47 S2000x47 where
  lhsContracting := [1]
  rhsContracting := [0]
  lhsNonContracting := [0]
  rhsNonContracting := [1]
  lhsBatch := []
  rhsBatch := []
  wf := dot_S2000x64_S64x47_S2000x47_1_0_0_1_n_n_wf
def dot_S2000x128_S128x47_S2000x47_1_0_0_1_n_n : DotDims S2000x128 S128x47 S2000x47 where
  lhsContracting := [1]
  rhsContracting := [0]
  lhsNonContracting := [0]
  rhsNonContracting := [1]
  lhsBatch := []
  rhsBatch := []
  wf := dot_S2000x128_S128x47_S2000x47_1_0_0_1_n_n_wf
def dot_S2000x256_S256x47_S2000x47_1_0_0_1_n_n : DotDims S2000x256 S256x47 S2000x47 where
  lhsContracting := [1]
  rhsContracting := [0]
  lhsNonContracting := [0]
  rhsNonContracting := [1]
  lhsBatch := []
  rhsBatch := []
  wf := dot_S2000x256_S256x47_S2000x47_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v40) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v0) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S2000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S448x47.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S47.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55) S2000x47.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x512 : Shape := ⟨2, ![50000, 512]⟩
abbrev S800000 : Shape := ⟨1, ![800000]⟩
abbrev S1200000 : Shape := ⟨1, ![1200000]⟩
abbrev S512x64 : Shape := ⟨2, ![512, 64]⟩
abbrev S64 : Shape := ⟨1, ![64]⟩
abbrev S448x47 : Shape := ⟨2, ![448, 47]⟩
abbrev S47 : Shape := ⟨1, ![47]⟩
abbrev S50000x64 : Shape := ⟨2, ![50000, 64]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S1200000x1 : Shape := ⟨2, ![1200000, 1]⟩
abbrev S1200000x64 : Shape := ⟨2, ![1200000, 64]⟩
abbrev S50000x128 : Shape := ⟨2, ![50000, 128]⟩
abbrev S800000x128 : Shape := ⟨2, ![800000, 128]⟩
abbrev S1200000x128 : Shape := ⟨2, ![1200000, 128]⟩
abbrev S50000x256 : Shape := ⟨2, ![50000, 256]⟩
abbrev S50000x448 : Shape := ⟨2, ![50000, 448]⟩
abbrev S50000x47 : Shape := ⟨2, ![50000, 47]⟩
abbrev S1x47 : Shape := ⟨2, ![1, 47]⟩

abbrev nBuf : Space → Nat
  | .hbm => 95
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S1200000, .i32⟩
  | .hbm, ⟨5, _⟩ => ⟨S1200000, .i32⟩
  | .hbm, ⟨6, _⟩ => ⟨S1200000, .f32⟩
  | .hbm, ⟨7, _⟩ => ⟨S512x64, .f32⟩
  | .hbm, ⟨8, _⟩ => ⟨S64, .f32⟩
  | .hbm, ⟨9, _⟩ => ⟨S448x47, .f32⟩
  | .hbm, ⟨10, _⟩ => ⟨S47, .f32⟩
  | .hbm, ⟨11, _⟩ => ⟨S50000x64, .f32⟩
  | .hbm, ⟨12, _⟩ => ⟨S1x64, .f32⟩
  | .hbm, ⟨13, _⟩ => ⟨S50000x64, .f32⟩
  | .hbm, ⟨14, _⟩ => ⟨S50000x64, .f32⟩
  | .hbm, ⟨15, _⟩ => ⟨S_, .f32⟩
  | .hbm, ⟨16, _⟩ => ⟨S50000x64, .f32⟩
  | .hbm, ⟨17, _⟩ => ⟨S50000x64, .f32⟩
  | .hbm, ⟨18, _⟩ => ⟨S800000x1, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S800000x64, .f32⟩
  | .hbm, ⟨29, _⟩ => ⟨S800000x64, .f32⟩
  | .hbm, ⟨30, _⟩ => ⟨S_, .f32⟩
  | .hbm, ⟨31, _⟩ => ⟨S50000x64, .f32⟩
  | .hbm, ⟨32, _⟩ => ⟨S800000x1, .i32⟩
  | .hbm, ⟨33, _⟩ => ⟨S50000x64, .f32⟩
  | .hbm, ⟨34, _⟩ => ⟨S1200000x1, .f32⟩
  | .hbm, ⟨35, _⟩ => ⟨S_, .i32⟩
  | .hbm, ⟨36, _⟩ => ⟨S1200000, .i32⟩
  | .hbm, ⟨37, _⟩ => ⟨S1200000, .i1⟩
  | .hbm, ⟨38, _⟩ => ⟨S_, .i32⟩
  | .hbm, ⟨39, _⟩ => ⟨S1200000, .i32⟩
  | .hbm, ⟨40, _⟩ => ⟨S1200000, .i32⟩
  | .hbm, ⟨41, _⟩ => ⟨S1200000, .i32⟩
  | .hbm, ⟨42, _⟩ => ⟨S1200000x1, .i32⟩
  | .hbm, ⟨43, _⟩ => ⟨S1200000x64, .f32⟩
  | .hbm, ⟨44, _⟩ => ⟨S1200000x64, .f32⟩
  | .hbm, ⟨45, _⟩ => ⟨S1200000x64, .f32⟩
  | .hbm, ⟨46, _⟩ => ⟨S_, .f32⟩
  | .hbm, ⟨47, _⟩ => ⟨S50000x64, .f32⟩
  | .hbm, ⟨48, _⟩ => ⟨S1200000x1, .i32⟩
  | .hbm, ⟨49, _⟩ => ⟨S50000x64, .f32⟩
  | .hbm, ⟨50, _⟩ => ⟨S50000x128, .f32⟩
  | .hbm, ⟨51, _⟩ => ⟨S_, .f32⟩
  | .hbm, ⟨52, _⟩ => ⟨S50000x128, .f32⟩
  | .hbm, ⟨53, _⟩ => ⟨S50000x128, .f32⟩
  | .hbm, ⟨54, _⟩ => ⟨S800000x1, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x128, .f32⟩
  | .hbm, ⟨64, _⟩ => ⟨S800000x128, .f32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S1200000x1, .f32⟩
  | .hbm, ⟨71, _⟩ => ⟨S_, .i32⟩
  | .hbm, ⟨72, _⟩ => ⟨S1200000, .i32⟩
  | .hbm, ⟨73, _⟩ => ⟨S1200000, .i1⟩
  | .hbm, ⟨74, _⟩ => ⟨S_, .i32⟩
  | .hbm, ⟨75, _⟩ => ⟨S1200000, .i32⟩
  | .hbm, ⟨76, _⟩ => ⟨S1200000, .i32⟩
  | .hbm, ⟨77, _⟩ => ⟨S1200000, .i32⟩
  | .hbm, ⟨78, _⟩ => ⟨S1200000x1, .i32⟩
  | .hbm, ⟨79, _⟩ => ⟨S1200000x128, .f32⟩
  | .hbm, ⟨80, _⟩ => ⟨S1200000x128, .f32⟩
  | .hbm, ⟨81, _⟩ => ⟨S1200000x128, .f32⟩
  | .hbm, ⟨82, _⟩ => ⟨S_, .f32⟩
  | .hbm, ⟨83, _⟩ => ⟨S50000x128, .f32⟩
  | .hbm, ⟨84, _⟩ => ⟨S1200000x1, .i32⟩
  | .hbm, ⟨85, _⟩ => ⟨S50000x128, .f32⟩
  | .hbm, ⟨86, _⟩ => ⟨S50000x256, .f32⟩
  | .hbm, ⟨87, _⟩ => ⟨S_, .f32⟩
  | .hbm, ⟨88, _⟩ => ⟨S50000x256, .f32⟩
  | .hbm, ⟨89, _⟩ => ⟨S50000x256, .f32⟩
  | .hbm, ⟨90, _⟩ => ⟨S50000x448, .f32⟩
  | .hbm, ⟨91, _⟩ => ⟨S50000x47, .f32⟩
  | .hbm, ⟨92, _⟩ => ⟨S1x47, .f32⟩
  | .hbm, ⟨93, _⟩ => ⟨S50000x47, .f32⟩
  | .hbm, ⟨94, _⟩ => ⟨S50000x47, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call1_cst : Ref sig .tc := ⟨.hbm, 51, rfl⟩
abbrev main_call1_v0 : Ref sig .tc := ⟨.hbm, 52, rfl⟩
abbrev main_v32 : Ref sig .tc := ⟨.hbm, 53, rfl⟩
abbrev main_v33 : Ref sig .tc := ⟨.hbm, 54, rfl⟩
abbrev main_c_4 : Ref sig .tc := ⟨.hbm, 55, rfl⟩
abbrev main_v34 : Ref sig .tc := ⟨.hbm, 56, rfl⟩
abbrev main_v35 : Ref sig .tc := ⟨.hbm, 57, rfl⟩
abbrev main_c_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_7 : Ref sig .tc := ⟨.hbm, 71, rfl⟩
abbrev main_v47 : Ref sig .tc := ⟨.hbm, 72, rfl⟩
abbrev main_v48 : Ref sig .tc := ⟨.hbm, 73, rfl⟩
abbrev main_c_8 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_9 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_call2_cst : Ref sig .tc := ⟨.hbm, 87, rfl⟩
abbrev main_call2_v0 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  concatenates_S50000x64_S50000x64_S50000x128_d1 : Shape.Concatenates [S50000x64, S50000x64] S50000x128 1
  bcast_S_S50000x128 : S_.BroadcastsInDim S50000x128 (![] : Fin 0 → Fin S50000x128.rank)
  bcast_S800000x1_S800000x128_0_1 : S800000x1.BroadcastsInDim S800000x128 (![0, 1] : Fin 2 → Fin S800000x128.rank)
  bcast_S1200000x1_S1200000x128_0_1 : S1200000x1.BroadcastsInDim S1200000x128 (![0, 1] : Fin 2 → Fin S1200000x128.rank)
  concatenates_S50000x128_S50000x128_S50000x256_d1 : Shape.Concatenates [S50000x128, S50000x128] S50000x256 1
  bcast_S_S50000x256 : S_.BroadcastsInDim S50000x256 (![] : Fin 0 → Fin S50000x256.rank)
  concatenates_S50000x64_S50000x128_S50000x256_S50000x448_d1 : Shape.Concatenates [S50000x64, S50000x128, S50000x256] S50000x448 1
  bcast_S47_S1x47_1 : S47.BroadcastsInDim S1x47 (![1] : Fin 1 → Fin S1x47.rank)
  bcast_S1x47_S50000x47_0_1 : S1x47.BroadcastsInDim S50000x47 (![0, 1] : Fin 2 → Fin S50000x47.rank)
  dot_S50000x512_S512x64_S50000x64_1_0_0_1_n_n_wf : DotDims.WF S50000x512 S512x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  gather_S50000x64_S1200000x1_S1200000x64_1_0_n_n_0_1_164_wf : GatherDims.WF S50000x64 S1200000x1 S1200000x64 [1] [0] [] [0] [] 1 ![1, 64]
  scatter_S50000x64_S1200000x1_S1200000x64_1_0_0_1_wf : ScatterDims.WF S50000x64 S1200000x1 S1200000x64 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x128_S1200000x1_S1200000x128_1_0_n_n_0_1_1128_wf : GatherDims.WF S50000x128 S1200000x1 S1200000x128 [1] [0] [] [0] [] 1 ![1, 128]
  scatter_S50000x128_S1200000x1_S1200000x128_1_0_0_1_wf : ScatterDims.WF S50000x128 S1200000x1 S1200000x128 [1] [0] [0] 1
  dot_S50000x448_S448x47_S50000x47_1_0_0_1_n_n_wf : DotDims.WF S50000x448 S448x47 S50000x47 [1] [0] [0] [1] [] []

variable [Facts₀]

def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S1200000x1_S1200000x64_1_0_n_n_0_1_164 : GatherDims S50000x64 S1200000x1 S1200000x64 where
  offsetDims := [1]
  collapsedSliceDims := [0]
  operandBatchingDims := []
  startIndicesBatchingDims := []
  startIndexMap := [0]
  indexVectorDim := 1
  sliceSizes := ![1, 64]
  wf := gather_S50000x64_S1200000x1_S1200000x64_1_0_n_n_0_1_164_wf
def scatter_S50000x64_S1200000x1_S1200000x64_1_0_0_1 : ScatterDims S50000x64 S1200000x1 S1200000x64 where
  updateWindowDims := [1]
  insertedWindowDims := [0]
  scatterDimsToOperandDims := [0]
  indexVectorDim := 1
  wf := scatter_S50000x64_S1200000x1_S1200000x64_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S1200000x1_S1200000x128_1_0_n_n_0_1_1128 : GatherDims S50000x128 S1200000x1 S1200000x128 where
  offsetDims := [1]
  collapsedSliceDims := [0]
  operandBatchingDims := []
  startIndicesBatchingDims := []
  startIndexMap := [0]
  indexVectorDim := 1
  sliceSizes := ![1, 128]
  wf := gather_S50000x128_S1200000x1_S1200000x128_1_0_n_n_0_1_1128_wf
def scatter_S50000x128_S1200000x1_S1200000x128_1_0_0_1 : ScatterDims S50000x128 S1200000x1 S1200000x128 where
  updateWindowDims := [1]
  insertedWindowDims := [0]
  scatterDimsToOperandDims := [0]
  indexVectorDim := 1
  wf := scatter_S50000x128_S1200000x1_S1200000x128_1_0_0_1_wf
def dot_S50000x448_S448x47_S50000x47_1_0_0_1_n_n : DotDims S50000x448 S448x47 S50000x47 where
  lhsContracting := [1]
  rhsContracting := [0]
  lhsNonContracting := [0]
  rhsNonContracting := [1]
  lhsBatch := []
  rhsBatch := []
  wf := dot_S50000x448_S448x47_S50000x47_1_0_0_1_n_n_wf

class Facts : Prop extends Facts₀ where

variable [Facts]
-- ==== Proof.KRun.lean ====
/-
  The idealized kernel's run with its result named.

  Every weakly fair execution of the program terminates, nothing faulting; the argument arrays end as launched
  and the result array ends at the contents the last boundary of the run assigns to it: what the read-out
  region's write-backs leave, the four regions and the host operations between them folded from the launch
  memory. The value of that fold is computed elsewhere; here only the run is stated.
-/
import proofs.«110650_j45028437131743_1_alg».proof.Proof.KernelIdealFrameP

set_option maxRecDepth 16384

noncomputable section

namespace Cert.KernelIdeal.KRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the last boundary's contents and the arguments unchanged. -/
theorem run_result : θ_run defs (onTc (τ := τ) (main (F := F))) ⟨m, fun _ => 0, ρ⟩ (fun r => ∀ c : Dev nD,
      r.2.mem ((c.tc : Thread nD τ).loc main_v55) = W6 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v55 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.KRun

end
-- ==== Proof.LibPlainDot.lean ====
/-
  A plain matrix product read at an index.

  For the dimension numbers of an M×K by K×N product (contract the left operand's columns against the right
  operand's rows, no batch axis), the sum over the contraction index of the products of the operands at the
  dot's operand indices is the textbook sum: entry (r, c) is the sum over k of left (r, k) times right (k, c).
  The same sum reads a vector unit's matmul into a zero accumulator and the host's dot_general at the ideal
  values, so the two are one function of their operands.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The textbook product of an M×K and a K×N array of extended reals. -/
def mm {M K N : Nat} (A : (⟨2, ![M, K]⟩ : Shape).Idx → EReal) (B : (⟨2, ![K, N]⟩ : Shape).Idx → EReal) :
    (⟨2, ![M, N]⟩ : Shape).Idx → EReal :=
  fun j => ∑ k : Fin K, A (ix2 (j 0) k) * B (ix2 k (j 1))

/-- The left operand's index at output index `j` and contraction index `q` is (row of `j`, `q`). -/
theorem lhsIdx_plain {M K N : Nat} (j : (⟨2, ![M, N]⟩ : Shape).Idx) (k : Fin K) :
    (DotDims.plain M K N).lhsIdx j ((contrEquiv1 (DotDims.plain M K N) K rfl rfl).symm k) = ix2 (j 0) k := by
  funext a
  apply Fin.ext
  have hk := contrEquiv1_symm_val (DotDims.plain M K N) K rfl rfl k
  match a with
  | ⟨0, _⟩ => rfl
  | ⟨1, _⟩ => exact ((DotDims.plain M K N).lhsIdx_val_of_single rfl j _).trans hk

/-- The right operand's index there is (`q`, column of `j`). -/
theorem rhsIdx_plain {M K N : Nat} (j : (⟨2, ![M, N]⟩ : Shape).Idx) (k : Fin K) :
    (DotDims.plain M K N).rhsIdx j ((contrEquiv1 (DotDims.plain M K N) K rfl rfl).symm k) = ix2 k (j 1) := by
  funext a
  apply Fin.ext
  have hk := contrEquiv1_symm_val (DotDims.plain M K N) K rfl rfl k
  match a with
  | ⟨0, _⟩ => exact ((DotDims.plain M K N).rhsIdx_val_of_single rfl j _).trans hk
  | ⟨1, _⟩ => rfl

/-- The contraction's sum, re-indexed by the one contracted coordinate. -/
theorem sum_plain {M K N : Nat} (A : (⟨2, ![M, K]⟩ : Shape).Idx → EReal) (B : (⟨2, ![K, N]⟩ : Shape).Idx → EReal)
    (j : (⟨2, ![M, N]⟩ : Shape).Idx) :
    ∑ q : (DotDims.plain M K N).contr.Idx, A ((DotDims.plain M K N).lhsIdx j q) * B ((DotDims.plain M K N).rhsIdx j q)
      = mm A B j := by
  unfold mm
  rw [← Equiv.sum_comp (contrEquiv1 (DotDims.plain M K N) K rfl rfl).symm]
  refine Finset.sum_congr rfl fun k _ => ?_
  rw [lhsIdx_plain, rhsIdx_plain]
  rfl

/-- A vector unit's matmul into the zero accumulator is the textbook product. -/
theorem matmul_zero_eq_mm {M K N : Nat} {φ₁ φ₂ : FTy} (prec : Option ContractPrecision)
    (A : FVec Ideal ⟨2, ![M, K]⟩ φ₁) (B : FVec Ideal ⟨2, ![K, N]⟩ φ₂) :
    FloatOps.matmul (DotDims.plain M K N) prec A B (constant ⟨2, ![M, N]⟩ .f32 0x00000000#32) = mm A B := by
  funext j
  rw [Ideal.matmul_constant_zero_apply]
  exact sum_plain A B j

/-- The host's dot_general is the textbook product, whatever the schedule. -/
theorem dotGeneral_eq_mm {M K N : Nat} {φ₁ φ₂ : FTy} (prec : Option ContractPrecision) (sched : HostSchedule)
    (A : FVec Ideal ⟨2, ![M, K]⟩ φ₁) (B : FVec Ideal ⟨2, ![K, N]⟩ φ₂) :
    FloatOps.dotGeneral (DotDims.plain M K N) prec sched A B = mm A B := by
  funext j
  rw [Ideal.dotGeneral_apply]
  exact sum_plain A B j

end Idealize.ShloMosaic.PlainDot

end
-- ==== Proof.Spec.lean ====
/-
  The layers of the network, as functions of whole arrays of extended reals, index by index.

  A row layer  x ↦ max (x·w + b, 0);  two arrays of equal width set side by side with every entry rectified;
  and the read-out  (h0 | h1 | h2)·w + b  written as the sum of the three products of the pieces with the
  matching rows of w.  Nothing here mentions a program: these are the formulas both programs are read against.
-/
import proofs.«110650_j45028437131743_1_alg».proof.Proof.LibPlainDot
import Idealize.ShloMosaic.Lib.ValueIdx
import Idealize.ShloMosaic.PureOps.Ideal.Laws

noncomputable section

open scoped BigOperators

namespace Cert.Spec

open Idealize.ShloMosaic Idealize.ShloMosaic.ValueIdx Idealize.ShloMosaic.PlainDot

/-- An M×N array of extended reals. -/
abbrev Arr (M N : ℕ) : Type := (⟨2, ![M, N]⟩ : Shape).Idx → EReal
/-- A vector of N extended reals. -/
abbrev Row (N : ℕ) : Type := (⟨1, ![N]⟩ : Shape).Idx → EReal

/-- The extended real the f32 word of zero denotes (kept as the word: both programs carry the same one). -/
def zw : EReal := Ideal.ofBits .f32 0x00000000#32

/-- The rectified affine row layer: entry (r, c) is max (Σₖ x (r, k) · w (k, c) + b c, 0). -/
def affRelu {M K N : ℕ} (x : Arr M K) (w : Arr K N) (b : Row N) : Arr M N :=
  fun j => max (mm x w j + b (ix1 (j 1))) zw

/-- Two arrays of width w side by side, every entry rectified: column c < w reads max (a (r, c), 0), a column
    c ≥ w reads max (b (r, c − w), 0). -/
def reluCat {M w W : ℕ} (hW : W = w + w) (a b : Arr M w) : Arr M W :=
  fun j =>
    if h : (j 1).val < w then max (a (ix2 (j 0) ⟨(j 1).val, h⟩)) zw
    else max (b (ix2 (j 0) ⟨(j 1).val - w, by have h1 : (j 1).val < W := (j 1).isLt; omega⟩)) zw

/-- Rows lo, …, lo + K1 − 1 of a K×N array. -/
def rowsFrom {K N : ℕ} (K1 lo : ℕ) (h : lo + K1 ≤ K) (w : Arr K N) : Arr K1 N :=
  fun i => w (ix2 ⟨lo + (i 0).val, by have h1 : (i 0).val < K1 := (i 0).isLt; omega⟩ (i 1))

/-- The read-out over three pieces: h0·w[0:K0] + h1·w[K0:K0+K1] + h2·w[K0+K1:] + b, entry by entry, the three
    products added in this order and the bias last. -/
def readout {M K0 K1 K2 K N : ℕ} (hK : K = K0 + K1 + K2) (h0 : Arr M K0) (h1 : Arr M K1) (h2 : Arr M K2)
    (w : Arr K N) (b : Row N) : Arr M N :=
  fun j => mm h0 (rowsFrom K0 0 (by omega) w) j + mm h1 (rowsFrom K1 K0 (by omega) w) j
    + mm h2 (rowsFrom K2 (K0 + K1) (by omega) w) j + b (ix1 (j 1))

end Cert.Spec

end
-- ==== Proof.HostChain.lean ====
/-
  The host's sparse products and the whole network as one function of the argument arrays.

  Between the regions the program multiplies an array h of node rows by a sparse matrix given as edge lists:
  out i = Σ over the edges e with dst e = i of w e · h (src e). The host computes it as it is written here — a
  negative source index wrapped by the number of nodes, the source rows gathered, each scaled by its edge's weight,
  and the scaled rows scatter-added into an array of zeros. Both programs apply exactly these operations, so the
  products are carried as opaque functions of h and the edge lists and never opened.

  The network: h0 = the rectified affine layer of x; twice, the two sparse products of the current array set side
  by side and rectified; the read-out of (h0 | round 1 | round 2).
-/
import proofs.«110650_j45028437131743_1_alg».proof.KernelIdeal
import proofs.«110650_j45028437131743_1_alg».proof.Proof.Spec

noncomputable section

namespace Cert.Chain

open Cert.KernelIdeal Cert.Spec Idealize.ShloMosaic

-- the shape facts the printed records cite (broadcasts broadcast, gathers and scatters are well formed)
variable [Facts₀]
open Facts₀

/-- The first edge list's sparse product of a [50000, 64] array. -/
def spmm1_64 (h : (⟨S50000x64, .f32⟩ : BufTy).Contents (Elt Ideal)) (src dst : (⟨S800000, .i32⟩ : BufTy).Contents (Elt Ideal)) (w : (⟨S800000, .f32⟩ : BufTy).Contents (Elt Ideal)) :
    (⟨S50000x64, .f32⟩ : BufTy).Contents (Elt Ideal) :=
  Host.scatterAdd scatter_S50000x64_S800000x1_S800000x64_1_0_0_1 (broadcastInDim S50000x64 ![] bcast_S_S50000x64 (constant (F := Ideal) S_ .f32 0x00000000#32)) (broadcastInDim S800000x1 ![0] bcast_S800000_S800000x1_0 dst) (mulf (broadcastInDim S800000x64 ![0, 1] bcast_S800000x1_S800000x64_0_1 (broadcastInDim S800000x1 ![0] bcast_S800000_S800000x1_0 w)) (Host.gather gather_S50000x64_S800000x1_S800000x64_1_0_n_n_0_1_164 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))))

/-- The second edge list's sparse product of a [50000, 64] array. -/
def spmm2_64 (h : (⟨S50000x64, .f32⟩ : BufTy).Contents (Elt Ideal)) (src dst : (⟨S1200000, .i32⟩ : BufTy).Contents (Elt Ideal)) (w : (⟨S1200000, .f32⟩ : BufTy).Contents (Elt Ideal)) :
    (⟨S50000x64, .f32⟩ : BufTy).Contents (Elt Ideal) :=
  Host.scatterAdd scatter_S50000x64_S1200000x1_S1200000x64_1_0_0_1 (broadcastInDim S50000x64 ![] bcast_S_S50000x64 (constant (F := Ideal) S_ .f32 0x00000000#32)) (broadcastInDim S1200000x1 ![0] bcast_S1200000_S1200000x1_0 dst) (mulf (broadcastInDim S1200000x64 ![0, 1] bcast_S1200000x1_S1200000x64_0_1 (broadcastInDim S1200000x1 ![0] bcast_S1200000_S1200000x1_0 w)) (Host.gather gather_S50000x64_S1200000x1_S1200000x64_1_0_n_n_0_1_164 h (broadcastInDim S1200000x1 ![0] bcast_S1200000_S1200000x1_0 (select (cmpi .slt src (broadcastInDim S1200000 ![] bcast_S_S1200000 (constantI S_ 32 0#32))) (addi src (broadcastInDim S1200000 ![] bcast_S_S1200000 (constantI S_ 32 50000#32))) src))))

/-- The first edge list's sparse product of a [50000, 128] array. -/
def spmm1_128 (h : (⟨S50000x128, .f32⟩ : BufTy).Contents (Elt Ideal)) (src dst : (⟨S800000, .i32⟩ : BufTy).Contents (Elt Ideal)) (w : (⟨S800000, .f32⟩ : BufTy).Contents (Elt Ideal)) :
    (⟨S50000x128, .f32⟩ : BufTy).Contents (Elt Ideal) :=
  Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 dst) (mulf (broadcastInDim S800000x128 ![0, 1] bcast_S800000x1_S800000x128_0_1 (broadcastInDim S800000x1 ![0] bcast_S800000_S800000x1_0 w)) (Host.gather gather_S50000x128_S800000x1_S800000x128_1_0_n_n_0_1_1128 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))))

/-- The second edge list's sparse product of a [50000, 128] array. -/
def spmm2_128 (h : (⟨S50000x128, .f32⟩ : BufTy).Contents (Elt Ideal)) (src dst : (⟨S1200000, .i32⟩ : BufTy).Contents (Elt Ideal)) (w : (⟨S1200000, .f32⟩ : BufTy).Contents (Elt Ideal)) :
    (⟨S50000x128, .f32⟩ : BufTy).Contents (Elt Ideal) :=
  Host.scatterAdd scatter_S50000x128_S1200000x1_S1200000x128_1_0_0_1 (broadcastInDim S50000x128 ![] bcast_S_S50000x128 (constant (F := Ideal) S_ .f32 0x00000000#32)) (broadcastInDim S1200000x1 ![0] bcast_S1200000_S1200000x1_0 dst) (mulf (broadcastInDim S1200000x128 ![0, 1] bcast_S1200000x1_S1200000x128_0_1 (broadcastInDim S1200000x1 ![0] bcast_S1200000_S1200000x1_0 w)) (Host.gather gather_S50000x128_S1200000x1_S1200000x128_1_0_n_n_0_1_1128 h (broadcastInDim S1200000x1 ![0] bcast_S1200000_S1200000x1_0 (select (cmpi .slt src (broadcastInDim S1200000 ![] bcast_S_S1200000 (constantI S_ 32 0#32))) (addi src (broadcastInDim S1200000 ![] bcast_S_S1200000 (constantI S_ 32 50000#32))) src))))

/-- The whole network, as one function of the eleven argument arrays. -/
def net (x : (⟨S50000x512, .f32⟩ : BufTy).Contents (Elt Ideal)) (src1 dst1 : (⟨S800000, .i32⟩ : BufTy).Contents (Elt Ideal)) (w1 : (⟨S800000, .f32⟩ : BufTy).Contents (Elt Ideal))
    (src2 dst2 : (⟨S1200000, .i32⟩ : BufTy).Contents (Elt Ideal)) (w2 : (⟨S1200000, .f32⟩ : BufTy).Contents (Elt Ideal))
    (We : (⟨S512x64, .f32⟩ : BufTy).Contents (Elt Ideal)) (be : (⟨S64, .f32⟩ : BufTy).Contents (Elt Ideal)) (Wc : (⟨S448x47, .f32⟩ : BufTy).Contents (Elt Ideal)) (bc : (⟨S47, .f32⟩ : BufTy).Contents (Elt Ideal)) :
    (⟨S50000x47, .f32⟩ : BufTy).Contents (Elt Ideal) :=
  let h0 : (⟨S50000x64, .f32⟩ : BufTy).Contents (Elt Ideal) := affRelu x We be
  let r1 : (⟨S50000x128, .f32⟩ : BufTy).Contents (Elt Ideal) := reluCat (w := 64) (W := 128) rfl (spmm1_64 h0 src1 dst1 w1) (spmm2_64 h0 src2 dst2 w2)
  let r2 : (⟨S50000x256, .f32⟩ : BufTy).Contents (Elt Ideal) := reluCat (w := 128) (W := 256) rfl (spmm1_128 r1 src1 dst1 w1) (spmm2_128 r1 src2 dst2 w2)
  readout (K0 := 64) (K1 := 128) (K2 := 256) (K := 448) rfl h0 r1 r2 Wc bc

end Cert.Chain

end
-- ==== Proof.KFold.lean ====
/-
  The result array of the idealized kernel's run, folded back to the argument arrays.

  The run's last boundary holds, at the result array, what the read-out region's write-backs leave. Going back
  through the boundaries — each region's output array is its layer of the arrays the region found, each host
  stretch computes the two sparse products of the array the region before it left, an array nobody writes is
  what it was — that is the whole network applied to the launch contents of the eleven arguments.
  The four regions' layers are taken as hypotheses here (each output array after the run is the layer of the
  arrays at the region's entry, whatever those are); they are proved region by region elsewhere.
-/
import proofs.«110650_j45028437131743_1_alg».proof.Proof.KernelIdealFrameP
import proofs.«110650_j45028437131743_1_alg».proof.Proof.Spec
import proofs.«110650_j45028437131743_1_alg».proof.Proof.HostChain
import Idealize.ShloMosaic.Lib.StableHlo.Run

set_option maxRecDepth 16384

noncomputable section

namespace Cert.KernelIdeal.Fold

open Cert.KernelIdeal Cert.KernelIdeal.Gen Cert.KernelIdeal.GenP Cert.Spec Cert.Chain
open Idealize.ShloMosaic Idealize.ShloMosaic.TcCoe Idealize.SL.Sem Idealize.ShloMosaic.StableHlo
open Idealize.ShloMosaic.Pipeline (Dat)

/-- The contents of the TensorCore's buffers at a region's entry. -/
abbrev Entry : Type := (c : Dev nD) → (b : Ref sig .tc) → Buf (Elt Ideal) ((c : Thread nD τ).loc b)

variable (m : (ℓ : Loc nD τ sig) → Buf (Elt Ideal) ℓ) (ρ : Dev nD → PrngReg) (c : Dev nD)

/-! ## The host stretches, from any contents X at their entry -/

/-- The first stretch leaves at %13 the first edge list's sparse product of region 0's output. -/
theorem stretch1_v13 (X : Valuation τ sig (Elt Ideal)) :
    StableHlo.after (hostOps1 (F := Ideal)) X (Proc.devRef .tc main_v13)
      = spmm1_64 (X (Proc.devRef .tc main_v0)) (X (Proc.devRef .tc main_arg1)) (X (Proc.devRef .tc main_arg2)) (X (Proc.devRef .tc main_arg3)) := by
  after_results_simp <;> rfl
/-- … and at %26 the second edge list's. -/
theorem stretch1_v26 (X : Valuation τ sig (Elt Ideal)) :
    StableHlo.after (hostOps1 (F := Ideal)) X (Proc.devRef .tc main_v26)
      = spmm2_64 (X (Proc.devRef .tc main_v0)) (X (Proc.devRef .tc main_arg4)) (X (Proc.devRef .tc main_arg5)) (X (Proc.devRef .tc main_arg6)) := by
  after_results_simp <;> rfl
/-- The second stretch leaves at %40 and %53 the two sparse products of region 1's output. -/
theorem stretch2_v40 (X : Valuation τ sig (Elt Ideal)) :
    StableHlo.after (hostOps2 (F := Ideal)) X (Proc.devRef .tc main_v40)
      = spmm1_128 (X (Proc.devRef .tc main_v27)) (X (Proc.devRef .tc main_arg1)) (X (Proc.devRef .tc main_arg2)) (X (Proc.devRef .tc main_arg3)) := by
  after_results_simp <;> rfl
theorem stretch2_v53 (X : Valuation τ sig (Elt Ideal)) :
    StableHlo.after (hostOps2 (F := Ideal)) X (Proc.devRef .tc main_v53)
      = spmm2_128 (X (Proc.devRef .tc main_v27)) (X (Proc.devRef .tc main_arg4)) (X (Proc.devRef .tc main_arg5)) (X (Proc.devRef .tc main_arg6)) := by
  after_results_simp <;> rfl

/-! A buffer no operation of a stretch writes is what it was. -/
theorem stretch1_keep_main_v0 (X : Valuation τ sig (Elt Ideal)) :
    StableHlo.after (hostOps1 (F := Ideal)) X (Proc.devRef .tc main_v0) = X (Proc.devRef .tc main_v0) := by
  after_results_simp <;> rfl
theorem stretch1_keep_main_arg1 (X : Valuation τ sig (Elt Ideal)) :
    StableHlo.after (hostOps1 (F := Ideal)) X (Proc.devRef .tc main_arg1) = X (Proc.devRef .tc main_arg1) := by
  after_results_simp <;> rfl
theorem stretch1_keep_main_arg2 (X : Valuation τ sig (Elt Ideal)) :
    StableHlo.after (hostOps1 (F := Ideal)) X (Proc.devRef .tc main_arg2) = X (Proc.devRef .tc main_arg2) := by
  after_results_simp <;> rfl
theorem stretch1_keep_main_arg3 (X : Valuation τ sig (Elt Ideal)) :
    StableHlo.after (hostOps1 (F := Ideal)) X (Proc.devRef .tc main_arg3) = X (Proc.devRef .tc main_arg3) := by
  after_results_simp <;> rfl
theorem stretch1_keep_main_arg4 (X : Valuation τ sig (Elt Ideal)) :
    StableHlo.after (hostOps1 (F := Ideal)) X (Proc.devRef .tc main_arg4) = X (Proc.devRef .tc main_arg4) := by
  after_results_simp <;> rfl
theorem stretch1_keep_main_arg5 (X : Valuation τ sig (Elt Ideal)) :
    StableHlo.after (hostOps1 (F := Ideal)) X (Proc.devRef .tc main_arg5) = X (Proc.devRef .tc main_arg5) := by
  after_results_simp <;> rfl
theorem stretch1_keep_main_arg6 (X : Valuation τ sig (Elt Ideal)) :
    StableHlo.after (hostOps1 (F := Ideal)) X (Proc.devRef .tc main_arg6) = X (Proc.devRef .tc main_arg6) := by
  after_results_simp <;> rfl
theorem stretch1_keep_main_arg9 (X : Valuation τ sig (Elt Ideal)) :
    StableHlo.after (hostOps1 (F := Ideal)) X (Proc.devRef .tc main_arg9) = X (Proc.devRef .tc main_arg9) := by
  after_results_simp <;> rfl
theorem stretch1_keep_main_arg10 (X : Valuation τ sig (Elt Ideal)) :
    StableHlo.after (hostOps1 (F := Ideal)) X (Proc.devRef .tc main_arg10) = X (Proc.devRef .tc main_arg10) := by
  after_results_simp <;> rfl
theorem stretch2_keep_main_v0 (X : Valuation τ sig (Elt Ideal)) :
    StableHlo.after (hostOps2 (F := Ideal)) X (Proc.devRef .tc main_v0) = X (Proc.devRef .tc main_v0) := by
  after_results_simp <;> rfl
theorem stretch2_keep_main_v27 (X : Valuation τ sig (Elt Ideal)) :
    StableHlo.after (hostOps2 (F := Ideal)) X (Proc.devRef .tc main_v27) = X (Proc.devRef .tc main_v27) := by
  after_results_simp <;> rfl
theorem stretch2_keep_main_arg9 (X : Valuation τ sig (Elt Ideal)) :
    StableHlo.after (hostOps2 (F := Ideal)) X (Proc.devRef .tc main_arg9) = X (Proc.devRef .tc main_arg9) := by
  after_results_simp <;> rfl
theorem stretch2_keep_main_arg10 (X : Valuation τ sig (Elt Ideal)) :
    StableHlo.after (hostOps2 (F := Ideal)) X (Proc.devRef .tc main_arg10) = X (Proc.devRef .tc main_arg10) := by
  after_results_simp <;> rfl

/-! ## The fold -/

set_option maxHeartbeats 4000000 in
/-- The result array at the run's last boundary is the network of the launch contents of the arguments. -/
theorem result_eq
    (A0 : ∀ (V : Entry) (c : Dev nD), (dat0 (F := Ideal) V c).arrAt 3 cfg0.N = affRelu (V c main_arg0) (V c main_arg7) (V c main_arg8))
    (A1 : ∀ (V : Entry) (c : Dev nD), (dat1 (F := Ideal) V c).arrAt 2 cfg1.N = reluCat (w := 64) (W := 128) rfl (V c main_v13) (V c main_v26))
    (A2 : ∀ (V : Entry) (c : Dev nD), (dat2 (F := Ideal) V c).arrAt 2 cfg2.N = reluCat (w := 128) (W := 256) rfl (V c main_v40) (V c main_v53))
    (A3 : ∀ (V : Entry) (c : Dev nD), (dat3 (F := Ideal) V c).arrAt 5 cfg3.N
      = readout (K0 := 64) (K1 := 128) (K2 := 256) (K := 448) rfl (V c main_v0) (V c main_v27) (V c main_v54) (V c main_arg9) (V c main_arg10)) :
    W6 m ρ c (Proc.devRef .tc main_v55)
      = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  -- after region 0: its output is the first layer of x; the other arguments are untouched
  have b1_v0 : W1 m ρ c (Proc.devRef .tc main_v0) = (affRelu (m ((c.tc : Thread nD τ).loc main_arg0)) (m ((c.tc : Thread nD τ).loc main_arg7)) (m ((c.tc : Thread nD τ).loc main_arg8))) := (W1_arr m ρ c 3).trans (A0 (V0 m ρ) c)
  have b1_a1 : W1 m ρ c (Proc.devRef .tc main_arg1) = (m ((c.tc : Thread nD τ).loc main_arg1)) := W1_of_ne m ρ c main_arg1 (by decide)
  have b1_a2 : W1 m ρ c (Proc.devRef .tc main_arg2) = (m ((c.tc : Thread nD τ).loc main_arg2)) := W1_of_ne m ρ c main_arg2 (by decide)
  have b1_a3 : W1 m ρ c (Proc.devRef .tc main_arg3) = (m ((c.tc : Thread nD τ).loc main_arg3)) := W1_of_ne m ρ c main_arg3 (by decide)
  have b1_a4 : W1 m ρ c (Proc.devRef .tc main_arg4) = (m ((c.tc : Thread nD τ).loc main_arg4)) := W1_of_ne m ρ c main_arg4 (by decide)
  have b1_a5 : W1 m ρ c (Proc.devRef .tc main_arg5) = (m ((c.tc : Thread nD τ).loc main_arg5)) := W1_of_ne m ρ c main_arg5 (by decide)
  have b1_a6 : W1 m ρ c (Proc.devRef .tc main_arg6) = (m ((c.tc : Thread nD τ).loc main_arg6)) := W1_of_ne m ρ c main_arg6 (by decide)
  have b1_a9 : W1 m ρ c (Proc.devRef .tc main_arg9) = (m ((c.tc : Thread nD τ).loc main_arg9)) := W1_of_ne m ρ c main_arg9 (by decide)
  have b1_a10 : W1 m ρ c (Proc.devRef .tc main_arg10) = (m ((c.tc : Thread nD τ).loc main_arg10)) := W1_of_ne m ρ c main_arg10 (by decide)
  -- after the first host stretch: the two sparse products of that layer
  have b2_v13 : W2 m ρ c (Proc.devRef .tc main_v13) = spmm1_64 (affRelu (m ((c.tc : Thread nD τ).loc main_arg0)) (m ((c.tc : Thread nD τ).loc main_arg7)) (m ((c.tc : Thread nD τ).loc main_arg8))) (m ((c.tc : Thread nD τ).loc main_arg1)) (m ((c.tc : Thread nD τ).loc main_arg2)) (m ((c.tc : Thread nD τ).loc main_arg3)) :=
    (stretch1_v13 (W1 m ρ c)).trans (by rw [b1_v0, b1_a1, b1_a2, b1_a3])
  have b2_v26 : W2 m ρ c (Proc.devRef .tc main_v26) = spmm2_64 (affRelu (m ((c.tc : Thread nD τ).loc main_arg0)) (m ((c.tc : Thread nD τ).loc main_arg7)) (m ((c.tc : Thread nD τ).loc main_arg8))) (m ((c.tc : Thread nD τ).loc main_arg4)) (m ((c.tc : Thread nD τ).loc main_arg5)) (m ((c.tc : Thread nD τ).loc main_arg6)) :=
    (stretch1_v26 (W1 m ρ c)).trans (by rw [b1_v0, b1_a4, b1_a5, b1_a6])
  have b2_v0 : W2 m ρ c (Proc.devRef .tc main_v0) = (affRelu (m ((c.tc : Thread nD τ).loc main_arg0)) (m ((c.tc : Thread nD τ).loc main_arg7)) (m ((c.tc : Thread nD τ).loc main_arg8))) := (stretch1_keep_main_v0 (W1 m ρ c)).trans b1_v0
  have b2_a1 : W2 m ρ c (Proc.devRef .tc main_arg1) = (m ((c.tc : Thread nD τ).loc main_arg1)) := (stretch1_keep_main_arg1 (W1 m ρ c)).trans b1_a1
  have b2_a2 : W2 m ρ c (Proc.devRef .tc main_arg2) = (m ((c.tc : Thread nD τ).loc main_arg2)) := (stretch1_keep_main_arg2 (W1 m ρ c)).trans b1_a2
  have b2_a3 : W2 m ρ c (Proc.devRef .tc main_arg3) = (m ((c.tc : Thread nD τ).loc main_arg3)) := (stretch1_keep_main_arg3 (W1 m ρ c)).trans b1_a3
  have b2_a4 : W2 m ρ c (Proc.devRef .tc main_arg4) = (m ((c.tc : Thread nD τ).loc main_arg4)) := (stretch1_keep_main_arg4 (W1 m ρ c)).trans b1_a4
  have b2_a5 : W2 m ρ c (Proc.devRef .tc main_arg5) = (m ((c.tc : Thread nD τ).loc main_arg5)) := (stretch1_keep_main_arg5 (W1 m ρ c)).trans b1_a5
  have b2_a6 : W2 m ρ c (Proc.devRef .tc main_arg6) = (m ((c.tc : Thread nD τ).loc main_arg6)) := (stretch1_keep_main_arg6 (W1 m ρ c)).trans b1_a6
  have b2_a9 : W2 m ρ c (Proc.devRef .tc main_arg9) = (m ((c.tc : Thread nD τ).loc main_arg9)) := (stretch1_keep_main_arg9 (W1 m ρ c)).trans b1_a9
  have b2_a10 : W2 m ρ c (Proc.devRef .tc main_arg10) = (m ((c.tc : Thread nD τ).loc main_arg10)) := (stretch1_keep_main_arg10 (W1 m ρ c)).trans b1_a10
  -- after region 1: the two products side by side, rectified
  have b3_v27 : W3 m ρ c (Proc.devRef .tc main_v27) = (reluCat (w := 64) (W := 128) rfl (spmm1_64 (affRelu (m ((c.tc : Thread nD τ).loc main_arg0)) (m ((c.tc : Thread nD τ).loc main_arg7)) (m ((c.tc : Thread nD τ).loc main_arg8))) (m ((c.tc : Thread nD τ).loc main_arg1)) (m ((c.tc : Thread nD τ).loc main_arg2)) (m ((c.tc : Thread nD τ).loc main_arg3))) (spmm2_64 (affRelu (m ((c.tc : Thread nD τ).loc main_arg0)) (m ((c.tc : Thread nD τ).loc main_arg7)) (m ((c.tc : Thread nD τ).loc main_arg8))) (m ((c.tc : Thread nD τ).loc main_arg4)) (m ((c.tc : Thread nD τ).loc main_arg5)) (m ((c.tc : Thread nD τ).loc main_arg6)))) :=
    ((W3_arr m ρ c 2).trans (A1 (V2 m ρ) c)).trans (by
      show reluCat (w := 64) (W := 128) rfl (W2 m ρ c (Proc.devRef .tc main_v13)) (W2 m ρ c (Proc.devRef .tc main_v26)) = _
      rw [b2_v13, b2_v26])
  have b3_v0 : W3 m ρ c (Proc.devRef .tc main_v0) = (affRelu (m ((c.tc : Thread nD τ).loc main_arg0)) (m ((c.tc : Thread nD τ).loc main_arg7)) (m ((c.tc : Thread nD τ).loc main_arg8))) := (W3_of_ne m ρ c main_v0 (by decide)).trans b2_v0
  have b3_a1 : W3 m ρ c (Proc.devRef .tc main_arg1) = (m ((c.tc : Thread nD τ).loc main_arg1)) := (W3_of_ne m ρ c main_arg1 (by decide)).trans b2_a1
  have b3_a2 : W3 m ρ c (Proc.devRef .tc main_arg2) = (m ((c.tc : Thread nD τ).loc main_arg2)) := (W3_of_ne m ρ c main_arg2 (by decide)).trans b2_a2
  have b3_a3 : W3 m ρ c (Proc.devRef .tc main_arg3) = (m ((c.tc : Thread nD τ).loc main_arg3)) := (W3_of_ne m ρ c main_arg3 (by decide)).trans b2_a3
  have b3_a4 : W3 m ρ c (Proc.devRef .tc main_arg4) = (m ((c.tc : Thread nD τ).loc main_arg4)) := (W3_of_ne m ρ c main_arg4 (by decide)).trans b2_a4
  have b3_a5 : W3 m ρ c (Proc.devRef .tc main_arg5) = (m ((c.tc : Thread nD τ).loc main_arg5)) := (W3_of_ne m ρ c main_arg5 (by decide)).trans b2_a5
  have b3_a6 : W3 m ρ c (Proc.devRef .tc main_arg6) = (m ((c.tc : Thread nD τ).loc main_arg6)) := (W3_of_ne m ρ c main_arg6 (by decide)).trans b2_a6
  have b3_a9 : W3 m ρ c (Proc.devRef .tc main_arg9) = (m ((c.tc : Thread nD τ).loc main_arg9)) := (W3_of_ne m ρ c main_arg9 (by decide)).trans b2_a9
  have b3_a10 : W3 m ρ c (Proc.devRef .tc main_arg10) = (m ((c.tc : Thread nD τ).loc main_arg10)) := (W3_of_ne m ρ c main_arg10 (by decide)).trans b2_a10
  -- after the second host stretch: the two sparse products of round 1
  have b4_v40 : W4 m ρ c (Proc.devRef .tc main_v40) = spmm1_128 (reluCat (w := 64) (W := 128) rfl (spmm1_64 (affRelu (m ((c.tc : Thread nD τ).loc main_arg0)) (m ((c.tc : Thread nD τ).loc main_arg7)) (m ((c.tc : Thread nD τ).loc main_arg8))) (m ((c.tc : Thread nD τ).loc main_arg1)) (m ((c.tc : Thread nD τ).loc main_arg2)) (m ((c.tc : Thread nD τ).loc main_arg3))) (spmm2_64 (affRelu (m ((c.tc : Thread nD τ).loc main_arg0)) (m ((c.tc : Thread nD τ).loc main_arg7)) (m ((c.tc : Thread nD τ).loc main_arg8))) (m ((c.tc : Thread nD τ).loc main_arg4)) (m ((c.tc : Thread nD τ).loc main_arg5)) (m ((c.tc : Thread nD τ).loc main_arg6)))) (m ((c.tc : Thread nD τ).loc main_arg1)) (m ((c.tc : Thread nD τ).loc main_arg2)) (m ((c.tc : Thread nD τ).loc main_arg3)) :=
    (stretch2_v40 (W3 m ρ c)).trans (by rw [b3_v27, b3_a1, b3_a2, b3_a3])
  have b4_v53 : W4 m ρ c (Proc.devRef .tc main_v53) = spmm2_128 (reluCat (w := 64) (W := 128) rfl (spmm1_64 (affRelu (m ((c.tc : Thread nD τ).loc main_arg0)) (m ((c.tc : Thread nD τ).loc main_arg7)) (m ((c.tc : Thread nD τ).loc main_arg8))) (m ((c.tc : Thread nD τ).loc main_arg1)) (m ((c.tc : Thread nD τ).loc main_arg2)) (m ((c.tc : Thread nD τ).loc main_arg3))) (spmm2_64 (affRelu (m ((c.tc : Thread nD τ).loc main_arg0)) (m ((c.tc : Thread nD τ).loc main_arg7)) (m ((c.tc : Thread nD τ).loc main_arg8))) (m ((c.tc : Thread nD τ).loc main_arg4)) (m ((c.tc : Thread nD τ).loc main_arg5)) (m ((c.tc : Thread nD τ).loc main_arg6)))) (m ((c.tc : Thread nD τ).loc main_arg4)) (m ((c.tc : Thread nD τ).loc main_arg5)) (m ((c.tc : Thread nD τ).loc main_arg6)) :=
    (stretch2_v53 (W3 m ρ c)).trans (by rw [b3_v27, b3_a4, b3_a5, b3_a6])
  have b4_v0 : W4 m ρ c (Proc.devRef .tc main_v0) = (affRelu (m ((c.tc : Thread nD τ).loc main_arg0)) (m ((c.tc : Thread nD τ).loc main_arg7)) (m ((c.tc : Thread nD τ).loc main_arg8))) := (stretch2_keep_main_v0 (W3 m ρ c)).trans b3_v0
  have b4_v27 : W4 m ρ c (Proc.devRef .tc main_v27) = (reluCat (w := 64) (W := 128) rfl (spmm1_64 (affRelu (m ((c.tc : Thread nD τ).loc main_arg0)) (m ((c.tc : Thread nD τ).loc main_arg7)) (m ((c.tc : Thread nD τ).loc main_arg8))) (m ((c.tc : Thread nD τ).loc main_arg1)) (m ((c.tc : Thread nD τ).loc main_arg2)) (m ((c.tc : Thread nD τ).loc main_arg3))) (spmm2_64 (affRelu (m ((c.tc : Thread nD τ).loc main_arg0)) (m ((c.tc : Thread nD τ).loc main_arg7)) (m ((c.tc : Thread nD τ).loc main_arg8))) (m ((c.tc : Thread nD τ).loc main_arg4)) (m ((c.tc : Thread nD τ).loc main_arg5)) (m ((c.tc : Thread nD τ).loc main_arg6)))) := (stretch2_keep_main_v27 (W3 m ρ c)).trans b3_v27
  have b4_a9 : W4 m ρ c (Proc.devRef .tc main_arg9) = (m ((c.tc : Thread nD τ).loc main_arg9)) := (stretch2_keep_main_arg9 (W3 m ρ c)).trans b3_a9
  have b4_a10 : W4 m ρ c (Proc.devRef .tc main_arg10) = (m ((c.tc : Thread nD τ).loc main_arg10)) := (stretch2_keep_main_arg10 (W3 m ρ c)).trans b3_a10
  -- after region 2: round 2
  have b5_v54 : W5 m ρ c (Proc.devRef .tc main_v54) = (reluCat (w := 128) (W := 256) rfl (spmm1_128 (reluCat (w := 64) (W := 128) rfl (spmm1_64 (affRelu (m ((c.tc : Thread nD τ).loc main_arg0)) (m ((c.tc : Thread nD τ).loc main_arg7)) (m ((c.tc : Thread nD τ).loc main_arg8))) (m ((c.tc : Thread nD τ).loc main_arg1)) (m ((c.tc : Thread nD τ).loc main_arg2)) (m ((c.tc : Thread nD τ).loc main_arg3))) (spmm2_64 (affRelu (m ((c.tc : Thread nD τ).loc main_arg0)) (m ((c.tc : Thread nD τ).loc main_arg7)) (m ((c.tc : Thread nD τ).loc main_arg8))) (m ((c.tc : Thread nD τ).loc main_arg4)) (m ((c.tc : Thread nD τ).loc main_arg5)) (m ((c.tc : Thread nD τ).loc main_arg6)))) (m ((c.tc : Thread nD τ).loc main_arg1)) (m ((c.tc : Thread nD τ).loc main_arg2)) (m ((c.tc : Thread nD τ).loc main_arg3))) (spmm2_128 (reluCat (w := 64) (W := 128) rfl (spmm1_64 (affRelu (m ((c.tc : Thread nD τ).loc main_arg0)) (m ((c.tc : Thread nD τ).loc main_arg7)) (m ((c.tc : Thread nD τ).loc main_arg8))) (m ((c.tc : Thread nD τ).loc main_arg1)) (m ((c.tc : Thread nD τ).loc main_arg2)) (m ((c.tc : Thread nD τ).loc main_arg3))) (spmm2_64 (affRelu (m ((c.tc : Thread nD τ).loc main_arg0)) (m ((c.tc : Thread nD τ).loc main_arg7)) (m ((c.tc : Thread nD τ).loc main_arg8))) (m ((c.tc : Thread nD τ).loc main_arg4)) (m ((c.tc : Thread nD τ).loc main_arg5)) (m ((c.tc : Thread nD τ).loc main_arg6)))) (m ((c.tc : Thread nD τ).loc main_arg4)) (m ((c.tc : Thread nD τ).loc main_arg5)) (m ((c.tc : Thread nD τ).loc main_arg6)))) :=
    ((W5_arr m ρ c 2).trans (A2 (V4 m ρ) c)).trans (by
      show reluCat (w := 128) (W := 256) rfl (W4 m ρ c (Proc.devRef .tc main_v40)) (W4 m ρ c (Proc.devRef .tc main_v53)) = _
      rw [b4_v40, b4_v53])
  have b5_v0 : W5 m ρ c (Proc.devRef .tc main_v0) = (affRelu (m ((c.tc : Thread nD τ).loc main_arg0)) (m ((c.tc : Thread nD τ).loc main_arg7)) (m ((c.tc : Thread nD τ).loc main_arg8))) := (W5_of_ne m ρ c main_v0 (by decide)).trans b4_v0
  have b5_v27 : W5 m ρ c (Proc.devRef .tc main_v27) = (reluCat (w := 64) (W := 128) rfl (spmm1_64 (affRelu (m ((c.tc : Thread nD τ).loc main_arg0)) (m ((c.tc : Thread nD τ).loc main_arg7)) (m ((c.tc : Thread nD τ).loc main_arg8))) (m ((c.tc : Thread nD τ).loc main_arg1)) (m ((c.tc : Thread nD τ).loc main_arg2)) (m ((c.tc : Thread nD τ).loc main_arg3))) (spmm2_64 (affRelu (m ((c.tc : Thread nD τ).loc main_arg0)) (m ((c.tc : Thread nD τ).loc main_arg7)) (m ((c.tc : Thread nD τ).loc main_arg8))) (m ((c.tc : Thread nD τ).loc main_arg4)) (m ((c.tc : Thread nD τ).loc main_arg5)) (m ((c.tc : Thread nD τ).loc main_arg6)))) := (W5_of_ne m ρ c main_v27 (by decide)).trans b4_v27
  have b5_a9 : W5 m ρ c (Proc.devRef .tc main_arg9) = (m ((c.tc : Thread nD τ).loc main_arg9)) := (W5_of_ne m ρ c main_arg9 (by decide)).trans b4_a9
  have b5_a10 : W5 m ρ c (Proc.devRef .tc main_arg10) = (m ((c.tc : Thread nD τ).loc main_arg10)) := (W5_of_ne m ρ c main_arg10 (by decide)).trans b4_a10
  -- region 3: the read-out of the three arrays
  refine ((W6_arr m ρ c 5).trans (A3 (V5 m ρ) c)).trans ?_
  show readout (K0 := 64) (K1 := 128) (K2 := 256) (K := 448) rfl (W5 m ρ c (Proc.devRef .tc main_v0)) (W5 m ρ c (Proc.devRef .tc main_v27)) (W5 m ρ c (Proc.devRef .tc main_v54)) (W5 m ρ c (Proc.devRef .tc main_arg9)) (W5 m ρ c (Proc.devRef .tc main_arg10)) = _
  rw [b5_v0, b5_v27, b5_v54, b5_a9, b5_a10]
  rfl

end Cert.KernelIdeal.Fold

end
-- ==== Proof.LibRowBlocks.lean ====
/-
  The rows of a matrix product.

  Entry (r, c) of A·B depends on row r of A only: it is the sum over k of A (r, k) · B (k, c). So if a block Ab of
  Mb rows holds rows base … base + Mb − 1 of A, then row r of Ab·B is row base + r of A·B. This is what lets a
  product computed block of rows by block of rows be read as one product of the whole arrays.
-/
import proofs.«110650_j45028437131743_1_alg».proof.Proof.LibPlainDot

noncomputable section

open scoped BigOperators

namespace Idealize.ShloMosaic.RowBlocks

open Idealize.ShloMosaic Idealize.ShloMosaic.ValueIdx Idealize.ShloMosaic.PlainDot

/-- If row `j 0` of the block `Ab` is row `i 0` of `A` and the two indices name the same column, the block's product
    with `B` at `j` is the whole product at `i`. -/
theorem mm_block_entry {M Mb K N : Nat} (A : (⟨2, ![M, K]⟩ : Shape).Idx → EReal) (Ab : (⟨2, ![Mb, K]⟩ : Shape).Idx → EReal)
    (B : (⟨2, ![K, N]⟩ : Shape).Idx → EReal) (i : (⟨2, ![M, N]⟩ : Shape).Idx) (j : (⟨2, ![Mb, N]⟩ : Shape).Idx)
    (hrow : ∀ k : Fin K, Ab (ix2 (j 0) k) = A (ix2 (i 0) k)) (hcol : (j 1).val = (i 1).val) :
    mm Ab B j = mm A B i := by
  unfold mm
  refine Finset.sum_congr rfl fun k _ => ?_
  rw [hrow k]
  refine congrArg (A (ix2 (i 0) k) * B ·) ?_
  funext a
  match a with
  | ⟨0, _⟩ => rfl
  | ⟨1, _⟩ => exact Fin.ext hcol

end Idealize.ShloMosaic.RowBlocks

end
-- ==== Proof.KRegion0.lean ====
/-
  The first layer, block of rows by block of rows.

  The grid has 25 points; point t holds rows 2000·t … 2000·t + 1999 of the input, the whole weight matrix and the
  whole bias, and writes rows 2000·t … 2000·t + 1999 of the result. On a block the body computes
  max (x·w + b, 0). Entry (r, c) of a product depends on row r of the left factor only, so the block's result is
  that block of rows of the layer applied to the whole input; the 25 blocks tile the 50000 rows, so the array the
  region leaves is the layer of the whole input.
-/
import proofs.«110650_j45028437131743_1_alg».proof.Proof.KernelIdealFrameP
import proofs.«110650_j45028437131743_1_alg».proof.Proof.Spec
import proofs.«110650_j45028437131743_1_alg».proof.Proof.LibPlainDot
import proofs.«110650_j45028437131743_1_alg».proof.Proof.LibRowBlocks
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Cert.KernelIdeal Cert.KernelIdeal.Gen Cert.KernelIdeal.GenP Cert.Spec Idealize.ShloMosaic Idealize.ShloMosaic.TcCoe Idealize.SL.Sem
open Idealize.ShloMosaic.Pipeline (Dat)
open Idealize.ShloMosaic.ValueIdx Idealize.ShloMosaic.PlainDot Idealize.ShloMosaic.RowBlocks

/-! ## The body's arithmetic on one block -/

/-- The bias, cast to one row and repeated down the block, reads the bias at the column. -/
theorem bias_at (b : Vec Ideal S64 .f32) (p : Fin 2000) (q : Fin 64) :
    broadcastTo S2000x64 (shapeCast S1x64 (shapeCast S1x64 b shapeCasts_S64_S1x64) shapeCasts_S1x64_S1x64)
      broadcasts_S1x64_S2000x64 (ix2 p q) = b (ix1 q) := by
  rw [shapeCast_self]
  exact (broadcastTo_1b_ab_apply _ broadcasts_S1x64_S2000x64 p q).trans
    (shapeCast_a_1a_apply b shapeCasts_S64_S1x64 0 q)

/-- The printed dimension numbers are those of the plain 2000×512 by 512×64 product. -/
theorem dims_plain : dot_S2000x512_S512x64_S2000x64_1_0_0_1_n_n = DotDims.plain 2000 512 64 := rfl

/-- The product into the zero accumulator, at the narrowed operands (narrowing is the identity on extended reals). -/
theorem dot_at (x0 : Vec Ideal S2000x512 .f32) (x1 : Vec Ideal S512x64 .f32) (j : S2000x64.Idx) :
    matmul dot_S2000x512_S512x64_S2000x64_1_0_0_1_n_n none (truncf .bf16 x0 bitsLt_bf16_f32 : FVec Ideal S2000x512 .bf16)
      (truncf .bf16 x1 bitsLt_bf16_f32 : FVec Ideal S512x64 .bf16) (constant S2000x64 .f32 0x00000000#32) j
      = mm (M := 2000) (K := 512) (N := 64) x0 x1 j := by
  rw [dims_plain]
  exact congrFun (matmul_zero_eq_mm none (truncf .bf16 x0 bitsLt_bf16_f32 : FVec Ideal S2000x512 .bf16)
    (truncf .bf16 x1 bitsLt_bf16_f32 : FVec Ideal S512x64 .bf16)) j

/-- The body's arithmetic on a block of 2000 rows is the rectified affine layer of that block. -/
theorem pay_eq (x0 : Vec Ideal S2000x512 .f32) (x1 : Vec Ideal S512x64 .f32) (x2 : Vec Ideal S64 .f32) :
    k0_pay1 x0 x1 x2 = affRelu (M := 2000) (K := 512) (N := 64) x0 x1 x2 := by
  funext j
  obtain ⟨p, q, rfl⟩ : ∃ (p : Fin 2000) (q : Fin 64), j = ix2 p q := ⟨j 0, j 1, eq_ix2 j⟩
  unfold k0_pay1 affRelu
  exact congrArg₂ max (congrArg₂ (· + ·) (dot_at x0 x1 (ix2 p q)) (bias_at x2 p q)) rfl

/-! ## A block's layer is a block of the whole layer -/

/-- If row `j 0` of the block `xb` is row `i 0` of `X`, the block carries the whole weights and bias, and `j`, `i` name
    the same column, then the layer of the block at `j` is the layer of `X` at `i`: an entry of a product depends on
    one row of the left factor only. -/
theorem affRelu_block {M : ℕ} (X : Arr M 512) (W : Arr 512 64) (B : Row 64)
    (xb : Arr 2000 512) (wb : Arr 512 64) (bb : Row 64)
    (i : (⟨2, ![M, 64]⟩ : Shape).Idx) (j : (⟨2, ![2000, 64]⟩ : Shape).Idx)
    (hx : ∀ k : Fin 512, xb (ix2 (j 0) k) = X (ix2 (i 0) k)) (hw : wb = W) (hb : bb = B)
    (hcol : (j 1).val = (i 1).val) :
    affRelu xb wb bb j = affRelu X W B i := by
  subst hw hb
  unfold affRelu
  rw [mm_block_entry X xb wb i j hx hcol]
  exact congrArg (fun z : Fin 64 => max (mm X wb i + bb (ix1 z)) zw) (Fin.ext hcol)

/-! ## The blocks at a point -/

theorem hz : (![0, 0] : Fin 2 → Nat) = fun _ => 0 := funext fun a => by fin_cases a <;> rfl
theorem hz1 : (![0] : Fin 1 → Nat) = fun _ => 0 := funext fun a => by fin_cases a; rfl

/-- The printed index maps, decided over the 25 points: the input's and the result's blocks move with the point
    along the rows (block index t on the row axis, 0 on the column axis); the weights' and the bias's stay at 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The input's block at point `t`, row `j 0`, is the input's row under the result's block at `j`. -/
theorem blk_x (c : Dev nD) (t : Fin cfg0.N) (j : S2000x64.Idx) (k : Fin 512) :
    (iblk0 V c 0 t : Vec Ideal S2000x512 .f32) (ix2 (j 0) k)
      = (V c main_arg0 : Arr 50000 512) (ix2 ((((cfg0.win 3).blk t).view.emb j) 0) k) := by
  obtain ⟨e00, e01, -, -, -, e30, -⟩ := idx_facts t
  show V c main_arg0 (((cfg0.win 0).blk t).view.emb (ix2 (j 0) k)) = V c main_arg0 (ix2 ((((cfg0.win 3).blk t).view.emb j) 0) k)
  refine congrArg (V c main_arg0) (funext fun a => Fin.ext ?_)
  match a with
  | ⟨0, _⟩ =>
    show win0_0.index t (0 : Fin 2) * 2000 + 1 * (j 0).val = win0_3.index t (0 : Fin 2) * 2000 + 1 * (j 0).val
    rw [e00, e30]
  | ⟨1, _⟩ =>
    show win0_0.index t (1 : Fin 2) * 512 + 1 * k.val = k.val
    rw [e01]; omega

/-- The weights' block at every point is the whole weight matrix (block index 0 on both axes). -/
theorem blk_w (c : Dev nD) (t : Fin cfg0.N) : (iblk0 V c 1 t : Vec Ideal S512x64 .f32) = (V c main_arg7 : Arr 512 64) := by
  obtain ⟨-, -, e10, e11, -, -, -⟩ := idx_facts t
  funext y
  show V c main_arg7 (((cfg0.win 1).blk t).view.emb y) = V c main_arg7 y
  refine congrArg (V c main_arg7) (funext fun a => Fin.ext ?_)
  match a with
  | ⟨0, _⟩ =>
    show win0_1.index t (0 : Fin 2) * 512 + 1 * (y 0).val = (y 0).val
    rw [e10]; omega
  | ⟨1, _⟩ =>
    show win0_1.index t (1 : Fin 2) * 64 + 1 * (y 1).val = (y 1).val
    rw [e11]; omega

/-- The bias's block at every point is the whole bias. -/
theorem blk_b (c : Dev nD) (t : Fin cfg0.N) : (iblk0 V c 2 t : Vec Ideal S64 .f32) = (V c main_arg8 : Row 64) := by
  obtain ⟨-, -, -, -, e20, -, -⟩ := idx_facts t
  funext y
  show V c main_arg8 (((cfg0.win 2).blk t).view.emb y) = V c main_arg8 y
  refine congrArg (V c main_arg8) (funext fun a => Fin.ext ?_)
  match a with
  | ⟨0, _⟩ =>
    show win0_2.index t (0 : Fin 1) * 64 + 1 * (y 0).val = (y 0).val
    rw [e20]; omega

/-- An entry of the result's block keeps its column in the array (block index 0 on the column axis). -/
theorem blk_col (t : Fin cfg0.N) (j : S2000x64.Idx) : (j 1).val = ((((cfg0.win 3).blk t).view.emb j) 1).val := by
  obtain ⟨-, -, -, -, -, -, e31⟩ := idx_facts t
  show (j 1).val = win0_3.index t (1 : Fin 2) * 64 + 1 * (j 1).val
  rw [e31]; omega

/-! ## What a point writes back -/

/-- Point `t` writes back block `t` of the layer of the whole arrays: the body's one store leaves its payload, the
    payload is the layer of the three blocks, and the three blocks are the input's rows under the result's block,
    the whole weights and the whole bias. -/
theorem flushed_eq (c : Dev nD) (t : Fin cfg0.N) :
    (dat0 (F := Ideal) V c).flushed 3 t = ((cfg0.win 3).blk t).view.read (Elt Ideal)
      (affRelu (V c main_arg0) (V c main_arg7) (V c main_arg8)) := by
  show (cfg0.win 3).cut (grid0.coords t) ((dat0 V c).after 3 t) = _
  rw [after0_3]
  unfold out0_3
  rw [View.canon_unit_zero hz]
  simp only [View.ld_unit_zero (S := S2000x512) hz, View.ld_unit_zero (S := S512x64) hz, View.ld_unit_zero (S := S64) hz1]
  rw [pay_eq]
  funext j
  show affRelu (M := 2000) (K := 512) (N := 64) (iblk0 V c 0 t) (iblk0 V c 1 t) (iblk0 V c 2 t) j
    = affRelu (M := 50000) (K := 512) (N := 64) (V c main_arg0) (V c main_arg7) (V c main_arg8) (((cfg0.win 3).blk t).view.emb j)
  exact affRelu_block (V c main_arg0) (V c main_arg7) (V c main_arg8) (iblk0 V c 0 t) (iblk0 V c 1 t) (iblk0 V c 2 t)
    (((cfg0.win 3).blk t).view.emb j) j (blk_x V c t j) (blk_w V c t) (blk_b V c t) (blk_col t j)

/-! ## The blocks tile the rows -/

/-- An index of the result is in point `t`'s block iff each coordinate is in the block's range on its axis. -/
theorem mem_blk (t : Fin cfg0.N) (i : S50000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v0).slice (win0_3.rect t)).set ↔ _
  rw [View.set_slice_whole, Rect.mem_set_unit]
  exact Iff.rfl

/-- Every index is in some point's block: row `r` lies in the block of point `r / 2000`. -/
theorem cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : grid0.N = 25 := N_0
  obtain ⟨t, ht⟩ : ∃ t : Fin cfg0.N, t.val = (i 0).val / 2000 :=
    ⟨⟨(i 0).val / 2000, by show (i 0).val / 2000 < grid0.N; rw [hN]; omega⟩, rfl⟩
  obtain ⟨-, -, -, -, -, e30, e31⟩ := idx_facts t
  refine ⟨t, flush0_3 t, ?_⟩
  rw [mem_blk]
  intro a
  match a with
  | ⟨0, _⟩ =>
    show win0_3.index t (0 : Fin 2) * 2000 ≤ (i 0).val ∧ (i 0).val < win0_3.index t (0 : Fin 2) * 2000 + 2000
    rw [e30, ht]; omega
  | ⟨1, _⟩ =>
    show win0_3.index t (1 : Fin 2) * 64 ≤ (i 1).val ∧ (i 1).val < win0_3.index t (1 : Fin 2) * 64 + 64
    rw [e31]; omega

/-! ## The array the region leaves -/

/-- The result array after the region is the rectified affine layer of the input, the weights and the bias as the
    region found them. -/
theorem arr0 (c : Dev nD) : (dat0 (F := Ideal) V c).arrAt 3 cfg0.N = affRelu (V c main_arg0) (V c main_arg7) (V c main_arg8) :=
  (dat0 (F := Ideal) V c).arrAt_eq_of_cover 3 _ (fun t _ => flushed_eq V c t) cover

end Cert.KernelIdeal.Region0

end
-- ==== Proof.KRegion1.lean ====
/-
  The first join region: two arrays of 50000 rows and 64 columns set side by side, every entry rectified.

  The region walks the 25 blocks of 2000 rows. At a block it stores max (b, 0) of the second input's block into
  columns 64–127 and max (a, 0) of the first input's block into columns 0–63 of the result's block; the two column
  rectangles tile the block, so the block is the join of the two input blocks, entry by entry. A block of rows of the
  join of two arrays is the join of their blocks of rows, and the 25 row blocks cover the array (row r lies in block
  r / 2000), so the result array is the join of the two whole arrays.
-/
import proofs.«110650_j45028437131743_1_alg».proof.Proof.KernelIdealFrameP
import proofs.«110650_j45028437131743_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.KernelIdeal.GenP Cert.Spec Idealize.ShloMosaic Idealize.ShloMosaic.TcCoe Idealize.SL.Sem
open Idealize.ShloMosaic.Pipeline (Dat)
open Idealize.ShloMosaic.ValueIdx

/-- The zero offsets of a whole-block access, as the constant function. -/
theorem hz : (![0, 0] : Fin 2 → Nat) = fun _ => 0 := funext fun a => by fin_cases a <;> rfl

/-- An index in the right half of the joined array reads the second array, rectified, at the column shifted back by the
    width. -/
theorem reluCat_right {M w W : ℕ} (hW : W = w + w) (a b : Arr M w) (j : (⟨2, ![M, W]⟩ : Shape).Idx)
    (i : (⟨2, ![M, w]⟩ : Shape).Idx) (h0 : (j 0).val = (i 0).val) (h1 : (j 1).val = w + (i 1).val) :
    reluCat hW a b j = max (b i) zw := by
  unfold reluCat
  have hn : ¬ (j 1).val < w := by omega
  rw [dif_neg hn]
  congr 2
  funext d
  match d with
  | ⟨0, _⟩ => exact Fin.ext h0
  | ⟨1, _⟩ => exact Fin.ext (by show (j 1).val - w = (i 1).val; omega)

/-- An index in the left half of the joined array reads the first array, rectified, at the same column. -/
theorem reluCat_left {M w W : ℕ} (hW : W = w + w) (a b : Arr M w) (j : (⟨2, ![M, W]⟩ : Shape).Idx)
    (i : (⟨2, ![M, w]⟩ : Shape).Idx) (h0 : (j 0).val = (i 0).val) (h1 : (j 1).val = (i 1).val) :
    reluCat hW a b j = max (a i) zw := by
  unfold reluCat
  have hi : (i 1).val < w := (i 1).isLt
  have hp : (j 1).val < w := by omega
  rw [dif_pos hp]
  congr 2
  funext d
  match d with
  | ⟨0, _⟩ => exact Fin.ext h0
  | ⟨1, _⟩ => exact Fin.ext h1

/-- The first store's payload at an index: the loaded entry rectified against the zero word. -/
theorem pay1_apply (x : Vec Ideal S2000x64 .f32) (j : S2000x64.Idx) : k1_pay1 x j = max (x j) zw := by
  unfold k1_pay1
  rw [shapeCast_self]
  rfl

/-- The second store's payload at an index: the loaded entry rectified against the zero word. -/
theorem pay2_apply (x : Vec Ideal S2000x64 .f32) (j : S2000x64.Idx) : k1_pay2 x j = max (x j) zw := by
  unfold k1_pay2
  rw [shapeCast_self]
  rfl

/-- The block the body leaves: its two stores are the two halves of the join of the two input blocks, and the halves
    tile the block. -/
theorem block_eq (x0 x1 : Vec Ideal S2000x64 .f32) :
    out1_2 x0 x1 = reluCat (M := 2000) (w := 64) (W := 128) rfl x0 x1 := by
  funext y
  unfold out1_2
  refine View.canon_apply_of_pieces (Val := Elt Ideal) (S := S2000x128) (e := .f32) (reluCat (M := 2000) (w := 64) (W := 128) rfl x0 x1) _ ?_ y (cover1_2 _ _ y)
  intro p hp x
  rcases List.mem_cons.mp hp with rfl | hp
  · show k1_pay2 (View.ld x1 r1_0) x = reluCat (M := 2000) (w := 64) (W := 128) rfl x0 x1 (r1_2.emb x)
    rw [View.ld_unit_zero (S := S2000x64) hz, pay2_apply]
    refine (reluCat_right (M := 2000) (w := 64) (W := 128) rfl x0 x1 (r1_2.emb x) x ?_ ?_).symm
    · show 0 + 1 * (x 0).val = (x 0).val; omega
    · show 64 + 1 * (x 1).val = 64 + (x 1).val; omega
  · obtain rfl : p = ⟨r1_1, k1_pay1 (View.ld x0 r1_0)⟩ := List.mem_singleton.mp hp
    show k1_pay1 (View.ld x0 r1_0) x = reluCat (M := 2000) (w := 64) (W := 128) rfl x0 x1 (r1_1.emb x)
    rw [View.ld_unit_zero (S := S2000x64) hz, pay1_apply]
    refine (reluCat_left (M := 2000) (w := 64) (W := 128) rfl x0 x1 (r1_1.emb x) x ?_ ?_).symm
    · show 0 + 1 * (x 0).val = (x 0).val; omega
    · show 0 + 1 * (x 1).val = (x 1).val; omega

/-- A block of rows of the joined array is the joined array of the matching blocks of rows: when a and b are rows
    o, o + 1, … of A and B, entry (r, c) of the block's join is entry (o + r, c) of the whole join. -/
theorem reluCat_rows {M m w W : ℕ} (hW : W = w + w) (A B : Arr M w) (a b : Arr m w) (o : ℕ)
    (ha : ∀ (i : (⟨2, ![m, w]⟩ : Shape).Idx) (k : (⟨2, ![M, w]⟩ : Shape).Idx),
      (k 0).val = o + (i 0).val → (k 1).val = (i 1).val → a i = A k)
    (hb : ∀ (i : (⟨2, ![m, w]⟩ : Shape).Idx) (k : (⟨2, ![M, w]⟩ : Shape).Idx),
      (k 0).val = o + (i 0).val → (k 1).val = (i 1).val → b i = B k)
    (j : (⟨2, ![m, W]⟩ : Shape).Idx) (J : (⟨2, ![M, W]⟩ : Shape).Idx)
    (h0 : (J 0).val = o + (j 0).val) (h1 : (J 1).val = (j 1).val) :
    reluCat hW a b j = reluCat hW A B J := by
  by_cases h : (j 1).val < w
  · have hJ : (J 1).val < w := by omega
    rw [reluCat_left hW a b j (ix2 (j 0) ⟨(j 1).val, h⟩) rfl rfl,
      reluCat_left hW A B J (ix2 (J 0) ⟨(J 1).val, hJ⟩) rfl rfl,
      ha (ix2 (j 0) ⟨(j 1).val, h⟩) (ix2 (J 0) ⟨(J 1).val, hJ⟩) h0 h1]
  · have hj : (j 1).val < W := (j 1).isLt
    have hJ' : (J 1).val < W := (J 1).isLt
    rw [reluCat_right hW a b j (ix2 (j 0) ⟨(j 1).val - w, by omega⟩) rfl (by show (j 1).val = w + ((j 1).val - w); omega),
      reluCat_right hW A B J (ix2 (J 0) ⟨(J 1).val - w, by omega⟩) rfl (by show (J 1).val = w + ((J 1).val - w); omega),
      hb (ix2 (j 0) ⟨(j 1).val - w, by omega⟩) (ix2 (J 0) ⟨(J 1).val - w, by omega⟩) h0 (by show (J 1).val - w = (j 1).val - w; omega)]

variable (V : (c : Dev nD) → (b : Ref sig .tc) → Buf (Elt Ideal) ((c : Thread nD τ).loc b))

/-- The three index maps over the grid: at point t every window's block is row block t and column block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is rows 2000·t, …, 2000·t + 1999 of the joined, rectified array of the two whole inputs. -/
theorem flushed_eq (c : Dev nD) (t : Fin cfg1.N) :
    (dat1 (F := Ideal) V c).flushed 2 t = ((cfg1.win 2).blk t).view.read (Elt Ideal)
      (reluCat (w := 64) (W := 128) rfl (V c main_v13) (V c main_v26)) := by
  show (cfg1.win 2).cut (grid1.coords t) ((dat1 V c).after 2 t) = _
  rw [after1_2, block_eq]
  obtain ⟨e0, e1, e2, e3, e4, e5⟩ := idx_facts t
  funext j
  refine reluCat_rows (M := 50000) (m := 2000) (w := 64) (W := 128) rfl (V c main_v13) (V c main_v26)
    (iblk1 V c 0 t) (iblk1 V c 1 t) (t.val * 2000) ?_ ?_ ((cfg1.win 2).xinj (grid1.coords t) j)
    (((cfg1.win 2).blk t).view.emb j) ?_ ?_
  · intro i k hk0 hk1
    show V c main_v13 (((cfg1.win 0).blk t).view.emb i) = V c main_v13 k
    refine congrArg (V c main_v13) (funext fun a => Fin.ext ?_)
    match a with
    | ⟨0, _⟩ => show win1_0.index t (0 : Fin 2) * 2000 + 1 * (i 0).val = (k 0).val; rw [hk0, e0]; omega
    | ⟨1, _⟩ => show win1_0.index t (1 : Fin 2) * 64 + 1 * (i 1).val = (k 1).val; rw [hk1, e1]; omega
  · intro i k hk0 hk1
    show V c main_v26 (((cfg1.win 1).blk t).view.emb i) = V c main_v26 k
    refine congrArg (V c main_v26) (funext fun a => Fin.ext ?_)
    match a with
    | ⟨0, _⟩ => show win1_1.index t (0 : Fin 2) * 2000 + 1 * (i 0).val = (k 0).val; rw [hk0, e2]; omega
    | ⟨1, _⟩ => show win1_1.index t (1 : Fin 2) * 64 + 1 * (i 1).val = (k 1).val; rw [hk1, e3]; omega
  · show win1_2.index t (0 : Fin 2) * 2000 + 1 * (j 0).val = t.val * 2000 + (j 0).val; rw [e4]; omega
  · show win1_2.index t (1 : Fin 2) * 128 + 1 * (j 1).val = (j 1).val; rw [e5]; omega

/-- An index of the result array is in point t's block iff each coordinate is in the block's range on its axis. -/
theorem mem_blk (t : Fin cfg1.N) (i : S50000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v27).slice (win1_2.rect t)).set ↔ _
  rw [View.set_slice_whole, Rect.mem_set_unit]
  exact Iff.rfl

/-- Every index of the result array is in the block of the point its row falls in: row r is in row block r / 2000. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 25 := N_1
  let t : Fin cfg1.N := ⟨(i 0).val / 2000, by show (i 0).val / 2000 < grid1.N; rw [hN]; omega⟩
  obtain ⟨e0, e1, e2, e3, e4, e5⟩ := idx_facts t
  have ht : t.val = (i 0).val / 2000 := rfl
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; rw [e4, ht]; omega
  | ⟨1, _⟩ => show win1_2.index t (1 : Fin 2) * 128 ≤ (i 1).val ∧ (i 1).val < win1_2.index t (1 : Fin 2) * 128 + 128; rw [e5]; omega

/-- The result array of the region: the two input arrays side by side, every entry rectified. -/
theorem arr1 (c : Dev nD) : (dat1 (F := Ideal) V c).arrAt 2 cfg1.N = reluCat (w := 64) (W := 128) rfl (V c main_v13) (V c main_v26) :=
  (dat1 (F := Ideal) V c).arrAt_eq_of_cover 2 _ (fun t _ => flushed_eq V c t) covered

end Cert.KernelIdeal.Region1
end
-- ==== Proof.KRegion2.lean ====
/-
  The second join region: two arrays of 50000 rows and 128 columns set side by side, every entry rectified.

  The region walks the 25 blocks of 2000 rows. At a block it stores max (b, 0) of the second input's block into
  columns 128–255 and max (a, 0) of the first input's block into columns 0–127 of the result's block; the two column
  rectangles tile the block, so the block is the join of the two input blocks, entry by entry. A block of rows of the
  join of two arrays is the join of their blocks of rows, and the 25 row blocks cover the array (row r lies in block
  r / 2000), so the result array is the join of the two whole arrays.
-/
import proofs.«110650_j45028437131743_1_alg».proof.Proof.KernelIdealFrameP
import proofs.«110650_j45028437131743_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Cert.KernelIdeal.GenP Cert.Spec Idealize.ShloMosaic Idealize.ShloMosaic.TcCoe Idealize.SL.Sem
open Idealize.ShloMosaic.Pipeline (Dat)
open Idealize.ShloMosaic.ValueIdx

/-- The zero offsets of a whole-block access, as the constant function. -/
theorem hz : (![0, 0] : Fin 2 → Nat) = fun _ => 0 := funext fun a => by fin_cases a <;> rfl

/-- An index in the right half of the joined array reads the second array, rectified, at the column shifted back by the
    width. -/
theorem reluCat_right {M w W : ℕ} (hW : W = w + w) (a b : Arr M w) (j : (⟨2, ![M, W]⟩ : Shape).Idx)
    (i : (⟨2, ![M, w]⟩ : Shape).Idx) (h0 : (j 0).val = (i 0).val) (h1 : (j 1).val = w + (i 1).val) :
    reluCat hW a b j = max (b i) zw := by
  unfold reluCat
  have hn : ¬ (j 1).val < w := by omega
  rw [dif_neg hn]
  congr 2
  funext d
  match d with
  | ⟨0, _⟩ => exact Fin.ext h0
  | ⟨1, _⟩ => exact Fin.ext (by show (j 1).val - w = (i 1).val; omega)

/-- An index in the left half of the joined array reads the first array, rectified, at the same column. -/
theorem reluCat_left {M w W : ℕ} (hW : W = w + w) (a b : Arr M w) (j : (⟨2, ![M, W]⟩ : Shape).Idx)
    (i : (⟨2, ![M, w]⟩ : Shape).Idx) (h0 : (j 0).val = (i 0).val) (h1 : (j 1).val = (i 1).val) :
    reluCat hW a b j = max (a i) zw := by
  unfold reluCat
  have hi : (i 1).val < w := (i 1).isLt
  have hp : (j 1).val < w := by omega
  rw [dif_pos hp]
  congr 2
  funext d
  match d with
  | ⟨0, _⟩ => exact Fin.ext h0
  | ⟨1, _⟩ => exact Fin.ext h1

/-- The first store's payload at an index: the loaded entry rectified against the zero word. -/
theorem pay1_apply (x : Vec Ideal S2000x128 .f32) (j : S2000x128.Idx) : k2_pay1 x j = max (x j) zw := by
  unfold k2_pay1
  rw [shapeCast_self]
  rfl

/-- The second store's payload at an index: the loaded entry rectified against the zero word. -/
theorem pay2_apply (x : Vec Ideal S2000x128 .f32) (j : S2000x128.Idx) : k2_pay2 x j = max (x j) zw := by
  unfold k2_pay2
  rw [shapeCast_self]
  rfl

/-- The block the body leaves: its two stores are the two halves of the join of the two input blocks, and the halves
    tile the block. -/
theorem block_eq (x0 x1 : Vec Ideal S2000x128 .f32) :
    out2_2 x0 x1 = reluCat (M := 2000) (w := 128) (W := 256) rfl x0 x1 := by
  funext y
  unfold out2_2
  refine View.canon_apply_of_pieces (Val := Elt Ideal) (S := S2000x256) (e := .f32) (reluCat (M := 2000) (w := 128) (W := 256) rfl x0 x1) _ ?_ y (cover2_2 _ _ y)
  intro p hp x
  rcases List.mem_cons.mp hp with rfl | hp
  · show k2_pay2 (View.ld x1 r2_0) x = reluCat (M := 2000) (w := 128) (W := 256) rfl x0 x1 (r2_2.emb x)
    rw [View.ld_unit_zero (S := S2000x128) hz, pay2_apply]
    refine (reluCat_right (M := 2000) (w := 128) (W := 256) rfl x0 x1 (r2_2.emb x) x ?_ ?_).symm
    · show 0 + 1 * (x 0).val = (x 0).val; omega
    · show 128 + 1 * (x 1).val = 128 + (x 1).val; omega
  · obtain rfl : p = ⟨r2_1, k2_pay1 (View.ld x0 r2_0)⟩ := List.mem_singleton.mp hp
    show k2_pay1 (View.ld x0 r2_0) x = reluCat (M := 2000) (w := 128) (W := 256) rfl x0 x1 (r2_1.emb x)
    rw [View.ld_unit_zero (S := S2000x128) hz, pay1_apply]
    refine (reluCat_left (M := 2000) (w := 128) (W := 256) rfl x0 x1 (r2_1.emb x) x ?_ ?_).symm
    · show 0 + 1 * (x 0).val = (x 0).val; omega
    · show 0 + 1 * (x 1).val = (x 1).val; omega

/-- A block of rows of the joined array is the joined array of the matching blocks of rows: when a and b are rows
    o, o + 1, … of A and B, entry (r, c) of the block's join is entry (o + r, c) of the whole join. -/
theorem reluCat_rows {M m w W : ℕ} (hW : W = w + w) (A B : Arr M w) (a b : Arr m w) (o : ℕ)
    (ha : ∀ (i : (⟨2, ![m, w]⟩ : Shape).Idx) (k : (⟨2, ![M, w]⟩ : Shape).Idx),
      (k 0).val = o + (i 0).val → (k 1).val = (i 1).val → a i = A k)
    (hb : ∀ (i : (⟨2, ![m, w]⟩ : Shape).Idx) (k : (⟨2, ![M, w]⟩ : Shape).Idx),
      (k 0).val = o + (i 0).val → (k 1).val = (i 1).val → b i = B k)
    (j : (⟨2, ![m, W]⟩ : Shape).Idx) (J : (⟨2, ![M, W]⟩ : Shape).Idx)
    (h0 : (J 0).val = o + (j 0).val) (h1 : (J 1).val = (j 1).val) :
    reluCat hW a b j = reluCat hW A B J := by
  by_cases h : (j 1).val < w
  · have hJ : (J 1).val < w := by omega
    rw [reluCat_left hW a b j (ix2 (j 0) ⟨(j 1).val, h⟩) rfl rfl,
      reluCat_left hW A B J (ix2 (J 0) ⟨(J 1).val, hJ⟩) rfl rfl,
      ha (ix2 (j 0) ⟨(j 1).val, h⟩) (ix2 (J 0) ⟨(J 1).val, hJ⟩) h0 h1]
  · have hj : (j 1).val < W := (j 1).isLt
    have hJ' : (J 1).val < W := (J 1).isLt
    rw [reluCat_right hW a b j (ix2 (j 0) ⟨(j 1).val - w, by omega⟩) rfl (by show (j 1).val = w + ((j 1).val - w); omega),
      reluCat_right hW A B J (ix2 (J 0) ⟨(J 1).val - w, by omega⟩) rfl (by show (J 1).val = w + ((J 1).val - w); omega),
      hb (ix2 (j 0) ⟨(j 1).val - w, by omega⟩) (ix2 (J 0) ⟨(J 1).val - w, by omega⟩) h0 (by show (J 1).val - w = (j 1).val - w; omega)]

variable (V : (c : Dev nD) → (b : Ref sig .tc) → Buf (Elt Ideal) ((c : Thread nD τ).loc b))

/-- The three index maps over the grid: at point t every window's block is row block t and column block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is rows 2000·t, …, 2000·t + 1999 of the joined, rectified array of the two whole inputs. -/
theorem flushed_eq (c : Dev nD) (t : Fin cfg2.N) :
    (dat2 (F := Ideal) V c).flushed 2 t = ((cfg2.win 2).blk t).view.read (Elt Ideal)
      (reluCat (w := 128) (W := 256) rfl (V c main_v40) (V c main_v53)) := by
  show (cfg2.win 2).cut (grid2.coords t) ((dat2 V c).after 2 t) = _
  rw [after2_2, block_eq]
  obtain ⟨e0, e1, e2, e3, e4, e5⟩ := idx_facts t
  funext j
  refine reluCat_rows (M := 50000) (m := 2000) (w := 128) (W := 256) rfl (V c main_v40) (V c main_v53)
    (iblk2 V c 0 t) (iblk2 V c 1 t) (t.val * 2000) ?_ ?_ ((cfg2.win 2).xinj (grid2.coords t) j)
    (((cfg2.win 2).blk t).view.emb j) ?_ ?_
  · intro i k hk0 hk1
    show V c main_v40 (((cfg2.win 0).blk t).view.emb i) = V c main_v40 k
    refine congrArg (V c main_v40) (funext fun a => Fin.ext ?_)
    match a with
    | ⟨0, _⟩ => show win2_0.index t (0 : Fin 2) * 2000 + 1 * (i 0).val = (k 0).val; rw [hk0, e0]; omega
    | ⟨1, _⟩ => show win2_0.index t (1 : Fin 2) * 128 + 1 * (i 1).val = (k 1).val; rw [hk1, e1]; omega
  · intro i k hk0 hk1
    show V c main_v53 (((cfg2.win 1).blk t).view.emb i) = V c main_v53 k
    refine congrArg (V c main_v53) (funext fun a => Fin.ext ?_)
    match a with
    | ⟨0, _⟩ => show win2_1.index t (0 : Fin 2) * 2000 + 1 * (i 0).val = (k 0).val; rw [hk0, e2]; omega
    | ⟨1, _⟩ => show win2_1.index t (1 : Fin 2) * 128 + 1 * (i 1).val = (k 1).val; rw [hk1, e3]; omega
  · show win2_2.index t (0 : Fin 2) * 2000 + 1 * (j 0).val = t.val * 2000 + (j 0).val; rw [e4]; omega
  · show win2_2.index t (1 : Fin 2) * 256 + 1 * (j 1).val = (j 1).val; rw [e5]; omega

/-- An index of the result array is in point t's block iff each coordinate is in the block's range on its axis. -/
theorem mem_blk (t : Fin cfg2.N) (i : S50000x256.Idx) :
    i ∈ ((cfg2.win 2).blk t).view.set ↔ ∀ a : Fin 2, win2_2.index t a * S2000x256.size a ≤ (i a).val
      ∧ (i a).val < win2_2.index t a * S2000x256.size a + S2000x256.size a := by
  show i ∈ ((View.whole main_v54).slice (win2_2.rect t)).set ↔ _
  rw [View.set_slice_whole, Rect.mem_set_unit]
  exact Iff.rfl

/-- Every index of the result array is in the block of the point its row falls in: row r is in row block r / 2000. -/
theorem covered (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have hN : grid2.N = 25 := N_2
  let t : Fin cfg2.N := ⟨(i 0).val / 2000, by show (i 0).val / 2000 < grid2.N; rw [hN]; omega⟩
  obtain ⟨e0, e1, e2, e3, e4, e5⟩ := idx_facts t
  have ht : t.val = (i 0).val / 2000 := rfl
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; rw [e4, ht]; omega
  | ⟨1, _⟩ => show win2_2.index t (1 : Fin 2) * 256 ≤ (i 1).val ∧ (i 1).val < win2_2.index t (1 : Fin 2) * 256 + 256; rw [e5]; omega

/-- The result array of the region: the two input arrays side by side, every entry rectified. -/
theorem arr2 (c : Dev nD) : (dat2 (F := Ideal) V c).arrAt 2 cfg2.N = reluCat (w := 128) (W := 256) rfl (V c main_v40) (V c main_v53) :=
  (dat2 (F := Ideal) V c).arrAt_eq_of_cover 2 _ (fun t _ => flushed_eq V c t) covered

end Cert.KernelIdeal.Region2
end
-- ==== Proof.LibTileDot.lean ====
/-
  A tile product into the zero accumulator, read at one output index, at the ideal values and whatever precision
  the operation names: with the contraction running over one axis of extent `K`, the entry is the sum over
  `k : Fin K` of the left operand times the right operand, each read at the index the dimension numbers assign to
  the output index and `k`. The caller names the two operand indices as functions of `k`.
-/
import Idealize.ShloMosaic.Lib.ValueIdx
import Idealize.ShloMosaic.PureOps.Ideal.Laws

noncomputable section

namespace Cert.LibTileDot

open Idealize.ShloMosaic Idealize.ShloMosaic.ValueIdx

/-- The matrix unit's product of two tiles into a zero accumulator, at output index `j`: the sum over the one
    contracted axis, each factor read where the dimension numbers send `j` and `k`. -/
theorem matmul_zero_at {sl sr so : Shape} {φ₁ φ₂ : FTy} (d : DotDims sl sr so) (prec : Option ContractPrecision) (K : ℕ)
    (hr : d.contr.rank = 1) (hs : d.contr.size ⟨0, by omega⟩ = K)
    (lhs : FVec Ideal sl φ₁) (rhs : FVec Ideal sr φ₂) (j : so.Idx)
    (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    FloatOps.matmul d prec lhs rhs (constant so .f32 0x00000000#32) j = ∑ k : Fin K, lhs (li k) * rhs (ri k) := by
  rw [Ideal.matmul_constant_zero_apply, ← Equiv.sum_comp (contrEquiv1 d K hr hs).symm]
  exact Finset.sum_congr rfl fun k _ => by rw [hl k, hri k]

end Cert.LibTileDot

end
-- ==== Proof.KRegion3.lean ====
/-
  The fourth region (the read-out) as one function of the arrays it finds.

  At each of its 25 grid points the region's body loads a block of 2000 rows of each of the three pieces (widths 64,
  128 and 256), the whole 448×47 weight and the whole bias of 47 entries, and stores into the matching block of 2000
  rows of the output the sum of the three products of the pieces with rows 0–63, 64–191 and 192–447 of the weight,
  added in that order, plus the bias along the rows.  Entry (r, c) of a product depends on row r of its left operand
  only, so the read-out of the blocks of rows is the block of rows of the read-out of the whole arrays; the 25 blocks
  cover the 50000 rows, so the output array ends holding the read-out of the whole arrays.
-/
import proofs.«110650_j45028437131743_1_alg».proof.Proof.KernelIdealFrameP
import proofs.«110650_j45028437131743_1_alg».proof.Proof.Spec
import proofs.«110650_j45028437131743_1_alg».proof.Proof.LibPlainDot
import proofs.«110650_j45028437131743_1_alg».proof.Proof.LibRowBlocks
import proofs.«110650_j45028437131743_1_alg».proof.Proof.LibTileDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region3

open Cert.KernelIdeal Cert.KernelIdeal.Gen Cert.KernelIdeal.GenP Cert.Spec Idealize.ShloMosaic Idealize.ShloMosaic.TcCoe Idealize.SL.Sem
open Idealize.ShloMosaic.Pipeline (Dat)
open Idealize.ShloMosaic.ValueIdx Idealize.ShloMosaic.PlainDot Idealize.ShloMosaic.RowBlocks

/-! ## The body's payload on block-sized variables -/

/-- K1 consecutive rows of a K×N array from row lo on, taken as a unit-stride slice, are rowsFrom. -/
theorem slice_rows {K N K1 : ℕ} (lo : ℕ) (hlo : lo + K1 ≤ K) (w : (⟨2, ![K, N]⟩ : Shape).Idx → EReal)
    (h : (⟨2, ![K, N]⟩ : Shape).Slices ![lo, 0] ⟨2, ![K1, N]⟩) :
    extractStridedSlice ⟨2, ![K1, N]⟩ ![lo, 0] w h = rowsFrom K1 lo hlo w := by
  funext i
  obtain ⟨a, b, rfl⟩ : ∃ (a : Fin K1) (b : Fin N), i = ix2 a b := ⟨i 0, i 1, eq_ix2 i⟩
  exact slice2_axis0_apply lo w h a b ⟨lo + a.val, by omega⟩ rfl

/-- One of the three products of the body: a block of rows (cast to its own shape, a change of format that is the
    identity on extended reals) times K1 rows of the weight taken as a slice, into a zero accumulator, is the
    textbook product of the block with those rows. -/
theorem piece_mm {M K K1 N : ℕ} (lo : ℕ) (hlo : lo + K1 ≤ K)
    (d : DotDims ⟨2, ![M, K1]⟩ ⟨2, ![K1, N]⟩ ⟨2, ![M, N]⟩) (hd : d = DotDims.plain M K1 N)
    (x : Vec Ideal ⟨2, ![M, K1]⟩ .f32) (w : Vec Ideal ⟨2, ![K, N]⟩ .f32)
    (hc : (⟨2, ![M, K1]⟩ : Shape).ShapeCasts ⟨2, ![M, K1]⟩)
    (hs : (⟨2, ![K, N]⟩ : Shape).Slices ![lo, 0] ⟨2, ![K1, N]⟩) (hb : FTy.bf16.bits < FTy.f32.bits) :
    matmul (F := Ideal) d none (truncf .bf16 (shapeCast ⟨2, ![M, K1]⟩ x hc) hb)
        (extractStridedSlice ⟨2, ![K1, N]⟩ ![lo, 0] (truncf .bf16 w hb) hs) (constant ⟨2, ![M, N]⟩ .f32 0x00000000#32)
      = mm x (rowsFrom K1 lo hlo w) := by
  subst hd
  rw [shapeCast_self]
  exact (matmul_zero_eq_mm none _ _).trans (congrArg (mm x) (slice_rows lo hlo w hs))

/-- The bias vector, cast to one row and spread over M rows, reads entry c at (r, c). -/
theorem bias_rows {M N : ℕ} (b : (⟨1, ![N]⟩ : Shape).Idx → EReal)
    (h1 : (⟨1, ![N]⟩ : Shape).ShapeCasts ⟨2, ![1, N]⟩) (h2 : (⟨2, ![1, N]⟩ : Shape).ShapeCasts ⟨2, ![1, N]⟩)
    (h3 : (⟨2, ![1, N]⟩ : Shape).Broadcasts ⟨2, ![M, N]⟩) (r : Fin M) (c : Fin N) :
    broadcastTo ⟨2, ![M, N]⟩ (shapeCast ⟨2, ![1, N]⟩ (shapeCast ⟨2, ![1, N]⟩ b h1) h2) h3 (ix2 r c) = b (ix1 c) := by
  rw [broadcastTo_1b_ab_apply, shapeCast_self, shapeCast_a_1a_apply]

/-- The body's payload is the read-out of its five loaded blocks. -/
theorem pay3_eq (x0 : Vec Ideal S2000x64 .f32) (x1 : Vec Ideal S2000x128 .f32) (x2 : Vec Ideal S2000x256 .f32)
    (x3 : Vec Ideal S448x47 .f32) (x4 : Vec Ideal S47 .f32) :
    k3_pay1 x0 x1 x2 x3 x4
      = readout (M := 2000) (K0 := 64) (K1 := 128) (K2 := 256) (K := 448) rfl x0 x1 x2 x3 x4 := by
  funext j
  obtain ⟨p, q, rfl⟩ : ∃ (p : Fin 2000) (q : Fin 47), j = ix2 p q := ⟨j 0, j 1, eq_ix2 j⟩
  unfold k3_pay1
  rw [addf_apply, addf_apply, addf_apply, bias_rows,
    piece_mm 0 (by omega) dot_S2000x64_S64x47_S2000x47_1_0_0_1_n_n rfl x0 x3,
    piece_mm 64 (by omega) dot_S2000x128_S128x47_S2000x47_1_0_0_1_n_n rfl x1 x3,
    piece_mm 192 (by omega) dot_S2000x256_S256x47_S2000x47_1_0_0_1_n_n rfl x2 x3]
  rfl

/-! ## From a block of rows to the whole arrays -/

theorem hz : (![0, 0] : Fin 2 → Nat) = fun _ => 0 := funext fun a => by fin_cases a <;> rfl

theorem hz1 : (![0] : Fin 1 → Nat) = fun _ => 0 := funext fun a => by fin_cases a <;> rfl

/-- Entry (r, c) of the read-out depends on row r of each of the three pieces only: if row `j 0` of the blocks
    a0, a1, a2 is row `i 0` of A0, A1, A2 and `j`, `i` name the same column, the read-out of the blocks at `j` is the
    read-out of the whole arrays at `i` (the weight and the bias are shared). -/
theorem readout_rows {M Mb : ℕ} (A0 : Arr M 64) (A1 : Arr M 128) (A2 : Arr M 256)
    (a0 : Arr Mb 64) (a1 : Arr Mb 128) (a2 : Arr Mb 256) (w : Arr 448 47) (b : Row 47)
    (i : (⟨2, ![M, 47]⟩ : Shape).Idx) (j : (⟨2, ![Mb, 47]⟩ : Shape).Idx)
    (h0 : ∀ k : Fin 64, a0 (ix2 (j 0) k) = A0 (ix2 (i 0) k))
    (h1 : ∀ k : Fin 128, a1 (ix2 (j 0) k) = A1 (ix2 (i 0) k))
    (h2 : ∀ k : Fin 256, a2 (ix2 (j 0) k) = A2 (ix2 (i 0) k))
    (hcol : (j 1).val = (i 1).val) :
    readout (K0 := 64) (K1 := 128) (K2 := 256) (K := 448) rfl a0 a1 a2 w b j
      = readout (K0 := 64) (K1 := 128) (K2 := 256) (K := 448) rfl A0 A1 A2 w b i := by
  have hb : b (ix1 (j 1)) = b (ix1 (i 1)) :=
    congrArg b (funext fun d => match d with | ⟨0, _⟩ => Fin.ext hcol)
  unfold readout
  rw [mm_block_entry A0 a0 _ i j h0 hcol, mm_block_entry A1 a1 _ i j h1 hcol,
    mm_block_entry A2 a2 _ i j h2 hcol, hb]

/-- The printed index maps, decided over the grid: at point t the three row-block windows sit at the output
    window's row block and at column block 0; the weight's and the bias's windows are the whole arrays. -/
theorem idx_facts3 : ∀ t : Fin cfg3.N, win3_0.index t (0 : Fin 2) = win3_5.index t (0 : Fin 2)
    ∧ win3_0.index t (1 : Fin 2) = 0
    ∧ win3_1.index t (0 : Fin 2) = win3_5.index t (0 : Fin 2)
    ∧ win3_1.index t (1 : Fin 2) = 0
    ∧ win3_2.index t (0 : Fin 2) = win3_5.index t (0 : Fin 2)
    ∧ win3_2.index t (1 : Fin 2) = 0
    ∧ win3_3.index t (0 : Fin 2) = 0
    ∧ win3_3.index t (1 : Fin 2) = 0
    ∧ win3_4.index t (0 : Fin 1) = 0
    ∧ win3_5.index t (1 : Fin 2) = 0
    ∧ win3_5.index t (0 : Fin 2) ≤ 24 :=
  (by decide +kernel : ∀ t : Fin grid3.N, _)

/-- Every row block of the output is some point's. -/
theorem idx_onto3 : ∀ q0 : Fin 25, ∃ t : Fin cfg3.N, win3_5.index t = ![q0.val, 0] :=
  (by decide +kernel : ∀ q0 : Fin 25, ∃ t : Fin grid3.N, win3_5.index t = ![q0.val, 0])

/-- At point t: the read-out of the six windows' blocks of any five arrays is the output window's block of the
    read-out of the arrays.  Row p of the block at t is row (block index)·2000 + p of each array. -/
theorem block_readout (X0 : S50000x64.Idx → EReal) (X1 : S50000x128.Idx → EReal) (X2 : S50000x256.Idx → EReal)
    (X3 : S448x47.Idx → EReal) (X4 : S47.Idx → EReal) (t : Fin cfg3.N) :
    (cfg3.win 5).cut (grid3.coords t) (readout (M := 2000) (K0 := 64) (K1 := 128) (K2 := 256) (K := 448) rfl
        (((cfg3.win 0).blk t).view.read (Elt Ideal) X0) (((cfg3.win 1).blk t).view.read (Elt Ideal) X1)
        (((cfg3.win 2).blk t).view.read (Elt Ideal) X2) (((cfg3.win 3).blk t).view.read (Elt Ideal) X3)
        (((cfg3.win 4).blk t).view.read (Elt Ideal) X4))
      = ((cfg3.win 5).blk t).view.read (Elt Ideal)
          (readout (M := 50000) (K0 := 64) (K1 := 128) (K2 := 256) (K := 448) rfl X0 X1 X2 X3 X4) := by
  obtain ⟨e00, e01, e10, e11, e20, e21, e30, e31, e40, e51, -⟩ := idx_facts3 t
  have e3 : ((cfg3.win 3).blk t).view.read (Elt Ideal) X3 = X3 := by
    funext y
    show X3 (((cfg3.win 3).blk t).view.emb y) = X3 y
    refine congrArg X3 (funext fun a => Fin.ext ?_)
    match a with
    | ⟨0, _⟩ => show win3_3.index t (0 : Fin 2) * 448 + 1 * (y 0).val = (y 0).val; omega
    | ⟨1, _⟩ => show win3_3.index t (1 : Fin 2) * 47 + 1 * (y 1).val = (y 1).val; omega
  have e4 : ((cfg3.win 4).blk t).view.read (Elt Ideal) X4 = X4 := by
    funext y
    show X4 (((cfg3.win 4).blk t).view.emb y) = X4 y
    refine congrArg X4 (funext fun a => Fin.ext ?_)
    match a with
    | ⟨0, _⟩ => show win3_4.index t (0 : Fin 1) * 47 + 1 * (y 0).val = (y 0).val; omega
  rw [e3, e4]
  funext j
  refine readout_rows X0 X1 X2 _ _ _ X3 X4 (((cfg3.win 5).blk t).view.emb j) j (fun k => ?_) (fun k => ?_) (fun k => ?_) ?_
  · show X0 (((cfg3.win 0).blk t).view.emb (ix2 (j 0) k)) = X0 (ix2 ((((cfg3.win 5).blk t).view.emb j) 0) k)
    refine congrArg X0 (funext fun a => Fin.ext ?_)
    match a with
    | ⟨0, _⟩ => show win3_0.index t (0 : Fin 2) * 2000 + 1 * (j 0).val = win3_5.index t (0 : Fin 2) * 2000 + 1 * (j 0).val; omega
    | ⟨1, _⟩ => show win3_0.index t (1 : Fin 2) * 64 + 1 * k.val = k.val; omega
  · show X1 (((cfg3.win 1).blk t).view.emb (ix2 (j 0) k)) = X1 (ix2 ((((cfg3.win 5).blk t).view.emb j) 0) k)
    refine congrArg X1 (funext fun a => Fin.ext ?_)
    match a with
    | ⟨0, _⟩ => show win3_1.index t (0 : Fin 2) * 2000 + 1 * (j 0).val = win3_5.index t (0 : Fin 2) * 2000 + 1 * (j 0).val; omega
    | ⟨1, _⟩ => show win3_1.index t (1 : Fin 2) * 128 + 1 * k.val = k.val; omega
  · show X2 (((cfg3.win 2).blk t).view.emb (ix2 (j 0) k)) = X2 (ix2 ((((cfg3.win 5).blk t).view.emb j) 0) k)
    refine congrArg X2 (funext fun a => Fin.ext ?_)
    match a with
    | ⟨0, _⟩ => show win3_2.index t (0 : Fin 2) * 2000 + 1 * (j 0).val = win3_5.index t (0 : Fin 2) * 2000 + 1 * (j 0).val; omega
    | ⟨1, _⟩ => show win3_2.index t (1 : Fin 2) * 256 + 1 * k.val = k.val; omega
  · show (j 1).val = win3_5.index t (1 : Fin 2) * 47 + 1 * (j 1).val; omega

/-- An index of the output array is in point t's block iff each coordinate is in the block's range on its axis. -/
theorem mem_blk3 (t : Fin cfg3.N) (i : S50000x47.Idx) :
    i ∈ ((cfg3.win 5).blk t).view.set ↔ ∀ a : Fin 2, win3_5.index t a * S2000x47.size a ≤ (i a).val ∧ (i a).val < win3_5.index t a * S2000x47.size a + S2000x47.size a := by
  show i ∈ ((View.whole main_v55).slice (win3_5.rect t)).set ↔ _
  rw [View.set_slice_whole, Rect.mem_set_unit]
  exact Iff.rfl

/-- The 25 blocks of 2000 rows cover the 50000 rows: row r is in the block of the point whose row block is r / 2000. -/
theorem cover3 (i : S50000x47.Idx) :
    ∃ t : Fin cfg3.N, (cfg3.win 5).flush t = true ∧ i ∈ ((cfg3.win 5).blk t).view.set := by
  have hi0 : (i 0).val < 50000 := (i 0).isLt
  have hi1 : (i 1).val < 47 := (i 1).isLt
  obtain ⟨t, ht⟩ := idx_onto3 ⟨(i 0).val / 2000, by omega⟩
  have q0 : win3_5.index t (0 : Fin 2) = (i 0).val / 2000 := congrFun ht 0
  have q1 : win3_5.index t (1 : Fin 2) = 0 := congrFun ht 1
  refine ⟨t, flush3_5 t, ?_⟩
  rw [mem_blk3]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 47 ≤ (i 1).val ∧ (i 1).val < win3_5.index t (1 : Fin 2) * 47 + 47; omega

/-! ## The output array after the region -/

variable (V : (c : Dev nD) → (b : Ref sig .tc) → Buf (Elt Ideal) ((c : Thread nD τ).loc b))

/-- What point t writes back is block t of the read-out of the five arrays as the region finds them: the body's
    one store covers its buffer with the payload of the five loaded blocks, the payload is the read-out of the
    blocks, and the read-out of the blocks is the block of the read-out. -/
theorem flushed3_eq (c : Dev nD) (t : Fin cfg3.N) :
    (dat3 (F := Ideal) V c).flushed 5 t = ((cfg3.win 5).blk t).view.read (Elt Ideal)
      (readout (K0 := 64) (K1 := 128) (K2 := 256) (K := 448) rfl (V c main_v0) (V c main_v27) (V c main_v54)
        (V c main_arg9) (V c main_arg10)) := by
  show (cfg3.win 5).cut (grid3.coords t) ((dat3 (F := Ideal) V c).after 5 t) = _
  rw [after3_5]
  unfold out3_5
  rw [View.canon_unit_zero hz]
  simp only [View.ld_unit_zero (S := S2000x64) hz, View.ld_unit_zero (S := S2000x128) hz,
    View.ld_unit_zero (S := S2000x256) hz, View.ld_unit_zero (S := S448x47) hz, View.ld_unit_zero (S := S47) hz1]
  rw [pay3_eq]
  exact block_readout (V c main_v0) (V c main_v27) (V c main_v54) (V c main_arg9) (V c main_arg10) t

/-- The output array after the region is the read-out of the five arrays the region finds: every point writes
    back its block of it, and the blocks cover the array. -/
theorem arr3 (c : Dev nD) : (dat3 (F := Ideal) V c).arrAt 5 cfg3.N = readout (K0 := 64) (K1 := 128) (K2 := 256) (K := 448) rfl (V c main_v0) (V c main_v27) (V c main_v54) (V c main_arg9) (V c main_arg10) :=
  (dat3 (F := Ideal) V c).arrAt_eq_of_cover 5 _ (fun t _ => flushed3_eq V c t) cover3

end Cert.KernelIdeal.Region3

end
-- ==== Proof.LibJoinedDot.lean ====
/-
  Matrix products over a joined contraction axis.

  If the columns of C are the columns of A followed by the columns of B, and the rows of W are the rows of Wa
  followed by the rows of Wb, then C·W = A·Wa + B·Wb entry by entry: the sum over the joined axis is the sum over
  its first part plus the sum over its second part, which is regrouping a finite sum in a commutative monoid and
  needs nothing of the entries (they may be infinite).  The same with three parts.  Beside it, what "the columns
  of A followed by the columns of B" means for a concatenate along axis 1 of two or three arrays of different
  widths, read at an index written by coordinates.
-/
import proofs.«110650_j45028437131743_1_alg».proof.Proof.LibPlainDot
import Idealize.ShloMosaic.Lib.Pipeline.Value
import Idealize.ShloMosaic.Lib.ValueIdx

noncomputable section

open scoped BigOperators

namespace Cert.LibJoinedDot

open Idealize.ShloMosaic Idealize.ShloMosaic.ValueIdx Idealize.ShloMosaic.PlainDot

/-- A sum of K = K1 + K2 terms is the sum of the first K1 plus the sum of the last K2. -/
theorem sum_split2 {β : Type} [AddCommMonoid β] (K K1 K2 : ℕ) (h : K = K1 + K2) (f : Fin K → β) :
    ∑ k : Fin K, f k = (∑ k : Fin K1, f ⟨k.val, by omega⟩) + ∑ k : Fin K2, f ⟨K1 + k.val, by omega⟩ := by
  subst h
  rw [Fin.sum_univ_add]
  rfl

/-- A sum of K = K1 + K2 + K3 terms, in its three consecutive parts. -/
theorem sum_split3 {β : Type} [AddCommMonoid β] (K K1 K2 K3 : ℕ) (h : K = K1 + K2 + K3) (f : Fin K → β) :
    ∑ k : Fin K, f k = (∑ k : Fin K1, f ⟨k.val, by omega⟩) + (∑ k : Fin K2, f ⟨K1 + k.val, by omega⟩)
      + ∑ k : Fin K3, f ⟨K1 + K2 + k.val, by omega⟩ := by
  rw [sum_split2 K (K1 + K2) K3 h f, sum_split2 (K1 + K2) K1 K2 rfl]

/-- (A | B) · W = A · Wa + B · Wb at entry (r, c), where row r of C is row r of A then row r of B and column c of W
    is column c of Wa above column c of Wb. -/
theorem mm_joined2 {M K K1 K2 N : ℕ} (h : K = K1 + K2)
    (C : (⟨2, ![M, K]⟩ : Shape).Idx → EReal) (W : (⟨2, ![K, N]⟩ : Shape).Idx → EReal)
    (A : (⟨2, ![M, K1]⟩ : Shape).Idx → EReal) (Wa : (⟨2, ![K1, N]⟩ : Shape).Idx → EReal)
    (B : (⟨2, ![M, K2]⟩ : Shape).Idx → EReal) (Wb : (⟨2, ![K2, N]⟩ : Shape).Idx → EReal)
    (r : Fin M) (c : Fin N)
    (hA : ∀ k : Fin K1, C (ix2 r (⟨k.val, by omega⟩ : Fin K)) = A (ix2 r k))
    (hB : ∀ k : Fin K2, C (ix2 r (⟨K1 + k.val, by omega⟩ : Fin K)) = B (ix2 r k))
    (hWa : ∀ k : Fin K1, W (ix2 (⟨k.val, by omega⟩ : Fin K) c) = Wa (ix2 k c))
    (hWb : ∀ k : Fin K2, W (ix2 (⟨K1 + k.val, by omega⟩ : Fin K) c) = Wb (ix2 k c)) :
    mm C W (ix2 r c) = mm A Wa (ix2 r c) + mm B Wb (ix2 r c) := by
  show (∑ k : Fin K, C (ix2 r k) * W (ix2 k c))
    = (∑ k : Fin K1, A (ix2 r k) * Wa (ix2 k c)) + ∑ k : Fin K2, B (ix2 r k) * Wb (ix2 k c)
  rw [sum_split2 K K1 K2 h]
  congr 1
  · exact Finset.sum_congr rfl fun k _ => by rw [hA k, hWa k]
  · exact Finset.sum_congr rfl fun k _ => by rw [hB k, hWb k]

/-- The same with three parts: (A | B | D) · W = A · Wa + B · Wb + D · Wd at entry (r, c). -/
theorem mm_joined3 {M K K1 K2 K3 N : ℕ} (h : K = K1 + K2 + K3)
    (C : (⟨2, ![M, K]⟩ : Shape).Idx → EReal) (W : (⟨2, ![K, N]⟩ : Shape).Idx → EReal)
    (A : (⟨2, ![M, K1]⟩ : Shape).Idx → EReal) (Wa : (⟨2, ![K1, N]⟩ : Shape).Idx → EReal)
    (B : (⟨2, ![M, K2]⟩ : Shape).Idx → EReal) (Wb : (⟨2, ![K2, N]⟩ : Shape).Idx → EReal)
    (D : (⟨2, ![M, K3]⟩ : Shape).Idx → EReal) (Wd : (⟨2, ![K3, N]⟩ : Shape).Idx → EReal)
    (r : Fin M) (c : Fin N)
    (hA : ∀ k : Fin K1, C (ix2 r (⟨k.val, by omega⟩ : Fin K)) = A (ix2 r k))
    (hB : ∀ k : Fin K2, C (ix2 r (⟨K1 + k.val, by omega⟩ : Fin K)) = B (ix2 r k))
    (hD : ∀ k : Fin K3, C (ix2 r (⟨K1 + K2 + k.val, by omega⟩ : Fin K)) = D (ix2 r k))
    (hWa : ∀ k : Fin K1, W (ix2 (⟨k.val, by omega⟩ : Fin K) c) = Wa (ix2 k c))
    (hWb : ∀ k : Fin K2, W (ix2 (⟨K1 + k.val, by omega⟩ : Fin K) c) = Wb (ix2 k c))
    (hWd : ∀ k : Fin K3, W (ix2 (⟨K1 + K2 + k.val, by omega⟩ : Fin K) c) = Wd (ix2 k c)) :
    mm C W (ix2 r c) = mm A Wa (ix2 r c) + mm B Wb (ix2 r c) + mm D Wd (ix2 r c) := by
  show (∑ k : Fin K, C (ix2 r k) * W (ix2 k c))
    = (∑ k : Fin K1, A (ix2 r k) * Wa (ix2 k c)) + (∑ k : Fin K2, B (ix2 r k) * Wb (ix2 k c))
      + ∑ k : Fin K3, D (ix2 r k) * Wd (ix2 k c)
  rw [sum_split3 K K1 K2 K3 h]
  congr 1
  · congr 1
    · exact Finset.sum_congr rfl fun k _ => by rw [hA k, hWa k]
    · exact Finset.sum_congr rfl fun k _ => by rw [hB k, hWb k]
  · exact Finset.sum_congr rfl fun k _ => by rw [hD k, hWd k]

variable {α : Type}

/-- Two arrays side by side, of widths w0 and w1: a column below w0 reads the first piece. -/
theorem concat2_cols_left {n w0 w1 W : ℕ} (x0 : (⟨2, ![n, w0]⟩ : Shape).Idx → α) (x1 : (⟨2, ![n, w1]⟩ : Shape).Idx → α)
    (h : Shape.Concatenates [(⟨2, ![n, w0]⟩ : Shape), ⟨2, ![n, w1]⟩] ⟨2, ![n, W]⟩ 1)
    (r : Fin n) (j : Fin w0) (col : Fin W) (hcol : col.val = j.val) :
    concatenate ⟨2, ![n, W]⟩ 1 [⟨⟨2, ![n, w0]⟩, x0⟩, ⟨⟨2, ![n, w1]⟩, x1⟩] h (ix2 r col) = x0 (ix2 r j) := by
  refine concatenate_apply_piece 1 ([⟨⟨2, ![n, w0]⟩, x0⟩, ⟨⟨2, ![n, w1]⟩, x1⟩] : List ((s : Shape) × (s.Idx → α))) h (ix2 r col) 0 (by simp) ⟨2, ![n, w0]⟩ x0 rfl rfl 0 rfl (ix2 r j) (fun b hb => ?_) ?_
  · match b with
    | ⟨0, _⟩ => rfl
    | ⟨1, _⟩ => exact absurd rfl hb
  · show 0 + j.val = col.val; omega

/-- A column from w0 on reads the second piece. -/
theorem concat2_cols_right {n w0 w1 W : ℕ} (x0 : (⟨2, ![n, w0]⟩ : Shape).Idx → α) (x1 : (⟨2, ![n, w1]⟩ : Shape).Idx → α)
    (h : Shape.Concatenates [(⟨2, ![n, w0]⟩ : Shape), ⟨2, ![n, w1]⟩] ⟨2, ![n, W]⟩ 1)
    (r : Fin n) (j : Fin w1) (col : Fin W) (hcol : col.val = w0 + j.val) :
    concatenate ⟨2, ![n, W]⟩ 1 [⟨⟨2, ![n, w0]⟩, x0⟩, ⟨⟨2, ![n, w1]⟩, x1⟩] h (ix2 r col) = x1 (ix2 r j) := by
  refine concatenate_apply_piece 1 ([⟨⟨2, ![n, w0]⟩, x0⟩, ⟨⟨2, ![n, w1]⟩, x1⟩] : List ((s : Shape) × (s.Idx → α))) h (ix2 r col) 1 (by simp) ⟨2, ![n, w1]⟩ x1 rfl rfl w0 (by simp) (ix2 r j) (fun b hb => ?_) ?_
  · match b with
    | ⟨0, _⟩ => rfl
    | ⟨1, _⟩ => exact absurd rfl hb
  · show w0 + j.val = col.val; omega

/-- Three arrays side by side, of widths w0, w1, w2: the first piece's columns. -/
theorem concat3_cols_first {n w0 w1 w2 W : ℕ} (x0 : (⟨2, ![n, w0]⟩ : Shape).Idx → α) (x1 : (⟨2, ![n, w1]⟩ : Shape).Idx → α)
    (x2 : (⟨2, ![n, w2]⟩ : Shape).Idx → α)
    (h : Shape.Concatenates [(⟨2, ![n, w0]⟩ : Shape), ⟨2, ![n, w1]⟩, ⟨2, ![n, w2]⟩] ⟨2, ![n, W]⟩ 1)
    (r : Fin n) (j : Fin w0) (col : Fin W) (hcol : col.val = j.val) :
    concatenate ⟨2, ![n, W]⟩ 1 [⟨⟨2, ![n, w0]⟩, x0⟩, ⟨⟨2, ![n, w1]⟩, x1⟩, ⟨⟨2, ![n, w2]⟩, x2⟩] h (ix2 r col) = x0 (ix2 r j) := by
  refine concatenate_apply_piece 1 ([⟨⟨2, ![n, w0]⟩, x0⟩, ⟨⟨2, ![n, w1]⟩, x1⟩, ⟨⟨2, ![n, w2]⟩, x2⟩] : List ((s : Shape) × (s.Idx → α))) h (ix2 r col) 0 (by simp) ⟨2, ![n, w0]⟩ x0 rfl rfl 0 rfl (ix2 r j) (fun b hb => ?_) ?_
  · match b with
    | ⟨0, _⟩ => rfl
    | ⟨1, _⟩ => exact absurd rfl hb
  · show 0 + j.val = col.val; omega

/-- The second piece's columns. -/
theorem concat3_cols_second {n w0 w1 w2 W : ℕ} (x0 : (⟨2, ![n, w0]⟩ : Shape).Idx → α) (x1 : (⟨2, ![n, w1]⟩ : Shape).Idx → α)
    (x2 : (⟨2, ![n, w2]⟩ : Shape).Idx → α)
    (h : Shape.Concatenates [(⟨2, ![n, w0]⟩ : Shape), ⟨2, ![n, w1]⟩, ⟨2, ![n, w2]⟩] ⟨2, ![n, W]⟩ 1)
    (r : Fin n) (j : Fin w1) (col : Fin W) (hcol : col.val = w0 + j.val) :
    concatenate ⟨2, ![n, W]⟩ 1 [⟨⟨2, ![n, w0]⟩, x0⟩, ⟨⟨2, ![n, w1]⟩, x1⟩, ⟨⟨2, ![n, w2]⟩, x2⟩] h (ix2 r col) = x1 (ix2 r j) := by
  refine concatenate_apply_piece 1 ([⟨⟨2, ![n, w0]⟩, x0⟩, ⟨⟨2, ![n, w1]⟩, x1⟩, ⟨⟨2, ![n, w2]⟩, x2⟩] : List ((s : Shape) × (s.Idx → α))) h (ix2 r col) 1 (by simp) ⟨2, ![n, w1]⟩ x1 rfl rfl w0 (by simp) (ix2 r j) (fun b hb => ?_) ?_
  · match b with
    | ⟨0, _⟩ => rfl
    | ⟨1, _⟩ => exact absurd rfl hb
  · show w0 + j.val = col.val; omega

/-- The third piece's columns. -/
theorem concat3_cols_third {n w0 w1 w2 W : ℕ} (x0 : (⟨2, ![n, w0]⟩ : Shape).Idx → α) (x1 : (⟨2, ![n, w1]⟩ : Shape).Idx → α)
    (x2 : (⟨2, ![n, w2]⟩ : Shape).Idx → α)
    (h : Shape.Concatenates [(⟨2, ![n, w0]⟩ : Shape), ⟨2, ![n, w1]⟩, ⟨2, ![n, w2]⟩] ⟨2, ![n, W]⟩ 1)
    (r : Fin n) (j : Fin w2) (col : Fin W) (hcol : col.val = w0 + w1 + j.val) :
    concatenate ⟨2, ![n, W]⟩ 1 [⟨⟨2, ![n, w0]⟩, x0⟩, ⟨⟨2, ![n, w1]⟩, x1⟩, ⟨⟨2, ![n, w2]⟩, x2⟩] h (ix2 r col) = x2 (ix2 r j) := by
  refine concatenate_apply_piece 1 ([⟨⟨2, ![n, w0]⟩, x0⟩, ⟨⟨2, ![n, w1]⟩, x1⟩, ⟨⟨2, ![n, w2]⟩, x2⟩] : List ((s : Shape) × (s.Idx → α))) h (ix2 r col) 2 (by simp) ⟨2, ![n, w2]⟩ x2 rfl rfl (w0 + w1) (by simp) (ix2 r j) (fun b hb => ?_) ?_
  · match b with
    | ⟨0, _⟩ => rfl
    | ⟨1, _⟩ => exact absurd rfl hb
  · show w0 + w1 + j.val = col.val; omega

end Cert.LibJoinedDot

end
-- ==== Proof.RefForms.lean ====
/-
  The reference program's three layer forms are the layers of the specification.

  Each layer of the reference is a composition of whole-array operations: a product, a bias set along the rows by
  two broadcasts, a maximum with the scalar zero spread over the array, arrays set side by side.  Read at an entry
  (r, c) each of these depends on one entry of each operand (the product on row r of the left and column c of the
  right operand), so the composition at (r, c) is the specification's formula at (r, c).
-/
import proofs.«110650_j45028437131743_1_alg».proof.ReferenceIdeal
import proofs.«110650_j45028437131743_1_alg».proof.Proof.Spec
import proofs.«110650_j45028437131743_1_alg».proof.Proof.LibPlainDot
import proofs.«110650_j45028437131743_1_alg».proof.Proof.LibJoinedDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Forms

open Cert.ReferenceIdeal Cert.Spec Idealize.ShloMosaic Idealize.ShloMosaic.ValueIdx Idealize.ShloMosaic.PlainDot
open Cert.LibJoinedDot

variable [Facts₀]
open Facts₀

/-! ## The pieces read at an entry -/

/-- The scalar zero spread over an array of any shape reads the zero word at every index. -/
theorem zero_spread_apply {t : Shape} (h : S_.BroadcastsInDim t (![] : Fin 0 → Fin t.rank)) (j : t.Idx) :
    broadcastInDim t ![] h (constant (F := Ideal) S_ .f32 0x00000000#32) j = zw := by
  refine (broadcastInDim_apply _ h _ j ix0 (fun a => a.elim0)).trans ?_
  rfl

/-- A vector of N ≠ 1 entries set along the rows of an M×N array, through the 1×N array: entry (r, c) is entry c. -/
theorem bias_spread_apply {M N : ℕ} (hN : N ≠ 1)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (b : (⟨1, ![N]⟩ : Shape).Idx → EReal) (r : Fin M) (c : Fin N) :
    broadcastInDim ⟨2, ![M, N]⟩ ![0, 1] h2 (broadcastInDim ⟨2, ![1, N]⟩ ![1] h1 b) (ix2 r c) = b (ix1 c) := by
  refine (broadcastInDim_apply _ h2 _ (ix2 r c) (ix2 ⟨0, Nat.one_pos⟩ c) (fun a => ?_)).trans ?_
  · match a with
    | ⟨0, _⟩ => show 0 = if (1 : ℕ) = 1 then 0 else r.val; rw [if_pos rfl]
    | ⟨1, _⟩ => show c.val = if N = 1 then 0 else c.val; rw [if_neg hN]
  · exact broadcastInDim_apply _ h1 b _ (ix1 c) (fun a => match a with
      | ⟨0, _⟩ => by show c.val = if N = 1 then 0 else c.val; rw [if_neg hN])

/-- The rectified pair at a column of the first piece. -/
theorem reluCat_left {M w W : ℕ} (hW : W = w + w) (a b : Arr M w) (r : Fin M) (c : Fin W) (h : c.val < w) :
    reluCat hW a b (ix2 r c) = max (a (ix2 r ⟨c.val, h⟩)) zw := dif_pos h

/-- The rectified pair at a column of the second piece. -/
theorem reluCat_right {M w W : ℕ} (hW : W = w + w) (a b : Arr M w) (r : Fin M) (c : Fin W) (h : ¬ c.val < w) :
    reluCat hW a b (ix2 r c) = max (b (ix2 r ⟨c.val - w, by have := c.isLt; omega⟩)) zw := dif_neg h

/-! ## The three forms -/

/-- The first layer: max (x·w + b, 0). -/
theorem ref_affRelu (x : FVec Ideal S50000x512 .f32) (w : FVec Ideal S512x64 .f32) (b : FVec Ideal S64 .f32) :
    maximumf (addf (Host.dotGeneral dot_S50000x512_S512x64_S50000x64_1_0_0_1_n_n none x w) (broadcastInDim S50000x64 ![0, 1] bcast_S1x64_S50000x64_0_1 (broadcastInDim S1x64 ![1] bcast_S64_S1x64_1 b))) (broadcastInDim S50000x64 ![] bcast_S_S50000x64 (constant (F := Ideal) S_ .f32 0x00000000#32)) = affRelu x w b := by
  funext j
  obtain ⟨r, q, rfl⟩ : ∃ (r : Fin 50000) (q : Fin 64), j = ix2 r q := ⟨j 0, j 1, eq_ix2 j⟩
  rw [maximumf_apply, addf_apply, zero_spread_apply,
    bias_spread_apply (by decide) bcast_S64_S1x64_1 bcast_S1x64_S50000x64_0_1 b r q,
    show Host.dotGeneral dot_S50000x512_S512x64_S50000x64_1_0_0_1_n_n none x w = mm x w from
      dotGeneral_eq_mm none .single x w]
  rfl

/-- Two arrays of width 64 side by side, rectified. -/
theorem ref_reluCat64 (a b : FVec Ideal S50000x64 .f32) :
    maximumf (concatenate S50000x128 1 [⟨S50000x64, a⟩, ⟨S50000x64, b⟩] concatenates_S50000x64_S50000x64_S50000x128_d1) (broadcastInDim S50000x128 ![] bcast_S_S50000x128 (constant (F := Ideal) S_ .f32 0x00000000#32)) = reluCat (w := 64) (W := 128) rfl a b := by
  funext j
  obtain ⟨r, q, rfl⟩ : ∃ (r : Fin 50000) (q : Fin 128), j = ix2 r q := ⟨j 0, j 1, eq_ix2 j⟩
  rw [maximumf_apply, zero_spread_apply]
  by_cases h : q.val < 64
  · rw [reluCat_left _ _ _ _ _ h,
      concat2_cols_left a b concatenates_S50000x64_S50000x64_S50000x128_d1 r ⟨q.val, h⟩ q rfl]
  · rw [reluCat_right _ _ _ _ _ h,
      concat2_cols_right a b concatenates_S50000x64_S50000x64_S50000x128_d1 r
        ⟨q.val - 64, by have := q.isLt; omega⟩ q (by show q.val = 64 + (q.val - 64); omega)]

/-- Two arrays of width 128 side by side, rectified. -/
theorem ref_reluCat128 (a b : FVec Ideal S50000x128 .f32) :
    maximumf (concatenate S50000x256 1 [⟨S50000x128, a⟩, ⟨S50000x128, b⟩] concatenates_S50000x128_S50000x128_S50000x256_d1) (broadcastInDim S50000x256 ![] bcast_S_S50000x256 (constant (F := Ideal) S_ .f32 0x00000000#32)) = reluCat (w := 128) (W := 256) rfl a b := by
  funext j
  obtain ⟨r, q, rfl⟩ : ∃ (r : Fin 50000) (q : Fin 256), j = ix2 r q := ⟨j 0, j 1, eq_ix2 j⟩
  rw [maximumf_apply, zero_spread_apply]
  by_cases h : q.val < 128
  · rw [reluCat_left _ _ _ _ _ h,
      concat2_cols_left a b concatenates_S50000x128_S50000x128_S50000x256_d1 r ⟨q.val, h⟩ q rfl]
  · rw [reluCat_right _ _ _ _ _ h,
      concat2_cols_right a b concatenates_S50000x128_S50000x128_S50000x256_d1 r
        ⟨q.val - 128, by have := q.isLt; omega⟩ q (by show q.val = 128 + (q.val - 128); omega)]

/-- The read-out: the product of the three pieces side by side with w is the sum of the three products of the
    pieces with the matching rows of w (the contraction's sum regrouped; nothing is assumed finite), then the bias. -/
theorem ref_readout (h0 : FVec Ideal S50000x64 .f32) (h1 : FVec Ideal S50000x128 .f32) (h2 : FVec Ideal S50000x256 .f32) (w : FVec Ideal S448x47 .f32) (b : FVec Ideal S47 .f32) :
    addf (Host.dotGeneral dot_S50000x448_S448x47_S50000x47_1_0_0_1_n_n none (concatenate S50000x448 1 [⟨S50000x64, h0⟩, ⟨S50000x128, h1⟩, ⟨S50000x256, h2⟩] concatenates_S50000x64_S50000x128_S50000x256_S50000x448_d1) w) (broadcastInDim S50000x47 ![0, 1] bcast_S1x47_S50000x47_0_1 (broadcastInDim S1x47 ![1] bcast_S47_S1x47_1 b)) = readout (K0 := 64) (K1 := 128) (K2 := 256) (K := 448) rfl h0 h1 h2 w b := by
  funext j
  obtain ⟨r, q, rfl⟩ : ∃ (r : Fin 50000) (q : Fin 47), j = ix2 r q := ⟨j 0, j 1, eq_ix2 j⟩
  rw [addf_apply, bias_spread_apply (by decide) bcast_S47_S1x47_1 bcast_S1x47_S50000x47_0_1 b r q,
    show Host.dotGeneral dot_S50000x448_S448x47_S50000x47_1_0_0_1_n_n none
        (concatenate S50000x448 1 [⟨S50000x64, h0⟩, ⟨S50000x128, h1⟩, ⟨S50000x256, h2⟩] concatenates_S50000x64_S50000x128_S50000x256_S50000x448_d1) w
      = mm (concatenate S50000x448 1 [⟨S50000x64, h0⟩, ⟨S50000x128, h1⟩, ⟨S50000x256, h2⟩] concatenates_S50000x64_S50000x128_S50000x256_S50000x448_d1) w from
      dotGeneral_eq_mm none .single _ w,
    mm_joined3 (K := 448) (K1 := 64) (K2 := 128) (K3 := 256) rfl _ w
      h0 (rowsFrom 64 0 (by omega) w) h1 (rowsFrom 128 64 (by omega) w) h2 (rowsFrom 256 (64 + 128) (by omega) w) r q
      (fun k => concat3_cols_first h0 h1 h2 concatenates_S50000x64_S50000x128_S50000x256_S50000x448_d1 r k ⟨k.val, by omega⟩ rfl)
      (fun k => concat3_cols_second h0 h1 h2 concatenates_S50000x64_S50000x128_S50000x256_S50000x448_d1 r k ⟨64 + k.val, by omega⟩ rfl)
      (fun k => concat3_cols_third h0 h1 h2 concatenates_S50000x64_S50000x128_S50000x256_S50000x448_d1 r k ⟨64 + 128 + k.val, by omega⟩ rfl)
      (fun k => congrArg (fun i => w (ix2 i q)) (Fin.ext (Nat.zero_add k.val).symm))
      (fun k => rfl)
      (fun k => rfl)]
  rfl

end Cert.ReferenceIdeal.Forms

end
-- ==== Proof.RefRun.lean ====
/-
  The reference program's run, read stage by stage.

  The reference is a straight line of host operations. Its run ends with every buffer at the fold of the operations'
  results over the launch contents; the fold is read here in four stages, each from ANY contents X at its start:
  the first layer (a product, the bias set along the rows, the maximum with zero); the two sparse products of that
  layer, concatenated and rectified; the same once more; the three arrays concatenated, multiplied by the read-out
  weights, the bias added. Each stage's result is the specification's function of what the stage found, the sparse
  products being the same host operations as the kernel program's, and an array no operation of a stage writes is
  what it was. Composed, the result array ends at the network of the arguments and the arguments end as launched.
-/
import proofs.«110650_j45028437131743_1_alg».proof.Proof.Gen.ReferenceIdeal
import proofs.«110650_j45028437131743_1_alg».proof.Proof.Gen.KernelIdeal
import proofs.«110650_j45028437131743_1_alg».proof.Proof.RefForms
import proofs.«110650_j45028437131743_1_alg».proof.Proof.HostChain
import Idealize.ShloMosaic.Lib.StableHlo.Run

noncomputable section

namespace Cert.ReferenceIdeal.HandRun

open Cert.ReferenceIdeal Cert.ReferenceIdeal.Gen Cert.ReferenceIdeal.Forms Cert.Spec Cert.Chain
open Idealize.ShloMosaic Idealize.ShloMosaic.TcCoe Idealize.SL.Sem Idealize.ShloMosaic.StableHlo

variable {F : FTy → Type} [FloatOps F]

/-- @main's 84 operations, in order (a called function's operations stand in its call's place, spelt `TRef.…`). -/
abbrev ops : List (HloOp τ sig (Elt F)) :=
  [ binary main_arg0 main_arg7 main_v0 ((fun l r => Host.dotGeneral dot_S50000x512_S512x64_S50000x64_1_0_0_1_n_n none l r) : (⟨S50000x512, .f32⟩ : BufTy).Contents (Elt F) → (⟨S512x64, .f32⟩ : BufTy).Contents (Elt F) → (⟨S50000x64, .f32⟩ : BufTy).Contents (Elt F)),
    unary main_arg8 main_v1 (broadcastInDim S1x64 ![1] bcast_S64_S1x64_1 : (⟨S64, .f32⟩ : BufTy).Contents (Elt F) → (⟨S1x64, .f32⟩ : BufTy).Contents (Elt F)),
    unary main_v1 main_v2 (broadcastInDim S50000x64 ![0, 1] bcast_S1x64_S50000x64_0_1 : (⟨S1x64, .f32⟩ : BufTy).Contents (Elt F) → (⟨S50000x64, .f32⟩ : BufTy).Contents (Elt F)),
    binary main_v0 main_v2 main_v3 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v3) (TRef.of (T := ⟨S50000x64, .f32⟩) main_call0_v0) (TRef.of (T := ⟨S50000x64, .f32⟩) main_v4) maximumf,
    unary main_arg3 main_v5 (broadcastInDim S800000x1 ![0] bcast_S800000_S800000x1_0 : (⟨S800000, .f32⟩ : BufTy).Contents (Elt F) → (⟨S800000x1, .f32⟩ : BufTy).Contents (Elt F)),
    nullary main_c (constantI S_ 32 0#32),
    unary main_c main_v6 (broadcastInDim S800000 ![] bcast_S_S800000 : (⟨S_, .i32⟩ : BufTy).Contents (Elt F) → (⟨S800000, .i32⟩ : BufTy).Contents (Elt F)),
    binary main_arg1 main_v6 main_v7 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v8 (broadcastInDim S800000 ![] bcast_S_S800000 : (⟨S_, .i32⟩ : BufTy).Contents (Elt F) → (⟨S800000, .i32⟩ : BufTy).Contents (Elt F)),
    binary main_arg1 main_v8 main_v9 (addi : (⟨S800000, .i32⟩ : BufTy).Contents (Elt F) → (⟨S800000, .i32⟩ : BufTy).Contents (Elt F) → (⟨S800000, .i32⟩ : BufTy).Contents (Elt F)),
    ternary main_v7 main_v9 main_arg1 main_v10 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v10 main_v11 (broadcastInDim S800000x1 ![0] bcast_S800000_S800000x1_0 : (⟨S800000, .i32⟩ : BufTy).Contents (Elt F) → (⟨S800000x1, .i32⟩ : BufTy).Contents (Elt F)),
    binary main_v4 main_v11 main_v12 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v5 main_v13 (broadcastInDim S800000x64 ![0, 1] bcast_S800000x1_S800000x64_0_1 : (⟨S800000x1, .f32⟩ : BufTy).Contents (Elt F) → (⟨S800000x64, .f32⟩ : BufTy).Contents (Elt F)),
    binary main_v13 main_v12 main_v14 (mulf : (⟨S800000x64, .f32⟩ : BufTy).Contents (Elt F) → (⟨S800000x64, .f32⟩ : BufTy).Contents (Elt F) → (⟨S800000x64, .f32⟩ : BufTy).Contents (Elt F)),
    nullary main_cst (constant S_ .f32 0x00000000#32),
    unary main_cst main_v15 (broadcastInDim S50000x64 ![] bcast_S_S50000x64 : (⟨S_, .f32⟩ : BufTy).Contents (Elt F) → (⟨S50000x64, .f32⟩ : BufTy).Contents (Elt F)),
    unary main_arg2 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg6 main_v18 (broadcastInDim S1200000x1 ![0] bcast_S1200000_S1200000x1_0 : (⟨S1200000, .f32⟩ : BufTy).Contents (Elt F) → (⟨S1200000x1, .f32⟩ : BufTy).Contents (Elt F)),
    nullary main_c_1 (constantI S_ 32 0#32),
    unary main_c_1 main_v19 (broadcastInDim S1200000 ![] bcast_S_S1200000 : (⟨S_, .i32⟩ : BufTy).Contents (Elt F) → (⟨S1200000, .i32⟩ : BufTy).Contents (Elt F)),
    binary main_arg4 main_v19 main_v20 (cmpi .slt : (⟨S1200000, .i32⟩ : BufTy).Contents (Elt F) → (⟨S1200000, .i32⟩ : BufTy).Contents (Elt F) → (⟨S1200000, .i1⟩ : BufTy).Contents (Elt F)),
    nullary main_c_2 (constantI S_ 32 50000#32),
    unary main_c_2 main_v21 (broadcastInDim S1200000 ![] bcast_S_S1200000 : (⟨S_, .i32⟩ : BufTy).Contents (Elt F) → (⟨S1200000, .i32⟩ : BufTy).Contents (Elt F)),
    binary main_arg4 main_v21 main_v22 (addi : (⟨S1200000, .i32⟩ : BufTy).Contents (Elt F) → (⟨S1200000, .i32⟩ : BufTy).Contents (Elt F) → (⟨S1200000, .i32⟩ : BufTy).Contents (Elt F)),
    ternary main_v20 main_v22 main_arg4 main_v23 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v23 main_v24 (broadcastInDim S1200000x1 ![0] bcast_S1200000_S1200000x1_0 : (⟨S1200000, .i32⟩ : BufTy).Contents (Elt F) → (⟨S1200000x1, .i32⟩ : BufTy).Contents (Elt F)),
    binary main_v4 main_v24 main_v25 ((fun x i => Host.gather gather_S50000x64_S1200000x1_S1200000x64_1_0_n_n_0_1_164 x i) : (⟨S50000x64, .f32⟩ : BufTy).Contents (Elt F) → (⟨S1200000x1, .i32⟩ : BufTy).Contents (Elt F) → (⟨S1200000x64, .f32⟩ : BufTy).Contents (Elt F)),
    unary main_v18 main_v26 (broadcastInDim S1200000x64 ![0, 1] bcast_S1200000x1_S1200000x64_0_1 : (⟨S1200000x1, .f32⟩ : BufTy).Contents (Elt F) → (⟨S1200000x64, .f32⟩ : BufTy).Contents (Elt F)),
    binary main_v26 main_v25 main_v27 (mulf : (⟨S1200000x64, .f32⟩ : BufTy).Contents (Elt F) → (⟨S1200000x64, .f32⟩ : BufTy).Contents (Elt F) → (⟨S1200000x64, .f32⟩ : BufTy).Contents (Elt F)),
    nullary main_cst_3 (constant S_ .f32 0x00000000#32),
    unary main_cst_3 main_v28 (broadcastInDim S50000x64 ![] bcast_S_S50000x64 : (⟨S_, .f32⟩ : BufTy).Contents (Elt F) → (⟨S50000x64, .f32⟩ : BufTy).Contents (Elt F)),
    unary main_arg5 main_v29 (broadcastInDim S1200000x1 ![0] bcast_S1200000_S1200000x1_0 : (⟨S1200000, .i32⟩ : BufTy).Contents (Elt F) → (⟨S1200000x1, .i32⟩ : BufTy).Contents (Elt F)),
    ternary main_v28 main_v29 main_v27 main_v30 ((fun x i u => Host.scatterAdd scatter_S50000x64_S1200000x1_S1200000x64_1_0_0_1 x i u) : (⟨S50000x64, .f32⟩ : BufTy).Contents (Elt F) → (⟨S1200000x1, .i32⟩ : BufTy).Contents (Elt F) → (⟨S1200000x64, .f32⟩ : BufTy).Contents (Elt F) → (⟨S50000x64, .f32⟩ : BufTy).Contents (Elt F)),
    binary main_v17 main_v30 main_v31 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v31) (TRef.of (T := ⟨S50000x128, .f32⟩) main_call1_v0) (TRef.of (T := ⟨S50000x128, .f32⟩) main_v32) maximumf,
    unary main_arg3 main_v33 (broadcastInDim S800000x1 ![0] bcast_S800000_S800000x1_0 : (⟨S800000, .f32⟩ : BufTy).Contents (Elt F) → (⟨S800000x1, .f32⟩ : BufTy).Contents (Elt F)),
    nullary main_c_4 (constantI S_ 32 0#32),
    unary main_c_4 main_v34 (broadcastInDim S800000 ![] bcast_S_S800000 : (⟨S_, .i32⟩ : BufTy).Contents (Elt F) → (⟨S800000, .i32⟩ : BufTy).Contents (Elt F)),
    binary main_arg1 main_v34 main_v35 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v36 (broadcastInDim S800000 ![] bcast_S_S800000 : (⟨S_, .i32⟩ : BufTy).Contents (Elt F) → (⟨S800000, .i32⟩ : BufTy).Contents (Elt F)),
    binary main_arg1 main_v36 main_v37 (addi : (⟨S800000, .i32⟩ : BufTy).Contents (Elt F) → (⟨S800000, .i32⟩ : BufTy).Contents (Elt F) → (⟨S800000, .i32⟩ : BufTy).Contents (Elt F)),
    ternary main_v35 main_v37 main_arg1 main_v38 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v38 main_v39 (broadcastInDim S800000x1 ![0] bcast_S800000_S800000x1_0 : (⟨S800000, .i32⟩ : BufTy).Contents (Elt F) → (⟨S800000x1, .i32⟩ : BufTy).Contents (Elt F)),
    binary main_v32 main_v39 main_v40 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v33 main_v41 (broadcastInDim S800000x128 ![0, 1] bcast_S800000x1_S800000x128_0_1 : (⟨S800000x1, .f32⟩ : BufTy).Contents (Elt F) → (⟨S800000x128, .f32⟩ : BufTy).Contents (Elt F)),
    binary main_v41 main_v40 main_v42 (mulf : (⟨S800000x128, .f32⟩ : BufTy).Contents (Elt F) → (⟨S800000x128, .f32⟩ : BufTy).Contents (Elt F) → (⟨S800000x128, .f32⟩ : BufTy).Contents (Elt F)),
    nullary main_cst_6 (constant S_ .f32 0x00000000#32),
    unary main_cst_6 main_v43 (broadcastInDim S50000x128 ![] bcast_S_S50000x128 : (⟨S_, .f32⟩ : BufTy).Contents (Elt F) → (⟨S50000x128, .f32⟩ : BufTy).Contents (Elt F)),
    unary main_arg2 main_v44 (broadcastInDim S800000x1 ![0] bcast_S800000_S800000x1_0 : (⟨S800000, .i32⟩ : BufTy).Contents (Elt F) → (⟨S800000x1, .i32⟩ : BufTy).Contents (Elt F)),
    ternary main_v43 main_v44 main_v42 main_v45 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg6 main_v46 (broadcastInDim S1200000x1 ![0] bcast_S1200000_S1200000x1_0 : (⟨S1200000, .f32⟩ : BufTy).Contents (Elt F) → (⟨S1200000x1, .f32⟩ : BufTy).Contents (Elt F)),
    nullary main_c_7 (constantI S_ 32 0#32),
    unary main_c_7 main_v47 (broadcastInDim S1200000 ![] bcast_S_S1200000 : (⟨S_, .i32⟩ : BufTy).Contents (Elt F) → (⟨S1200000, .i32⟩ : BufTy).Contents (Elt F)),
    binary main_arg4 main_v47 main_v48 (cmpi .slt : (⟨S1200000, .i32⟩ : BufTy).Contents (Elt F) → (⟨S1200000, .i32⟩ : BufTy).Contents (Elt F) → (⟨S1200000, .i1⟩ : BufTy).Contents (Elt F)),
    nullary main_c_8 (constantI S_ 32 50000#32),
    unary main_c_8 main_v49 (broadcastInDim S1200000 ![] bcast_S_S1200000 : (⟨S_, .i32⟩ : BufTy).Contents (Elt F) → (⟨S1200000, .i32⟩ : BufTy).Contents (Elt F)),
    binary main_arg4 main_v49 main_v50 (addi : (⟨S1200000, .i32⟩ : BufTy).Contents (Elt F) → (⟨S1200000, .i32⟩ : BufTy).Contents (Elt F) → (⟨S1200000, .i32⟩ : BufTy).Contents (Elt F)),
    ternary main_v48 main_v50 main_arg4 main_v51 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v51 main_v52 (broadcastInDim S1200000x1 ![0] bcast_S1200000_S1200000x1_0 : (⟨S1200000, .i32⟩ : BufTy).Contents (Elt F) → (⟨S1200000x1, .i32⟩ : BufTy).Contents (Elt F)),
    binary main_v32 main_v52 main_v53 ((fun x i => Host.gather gather_S50000x128_S1200000x1_S1200000x128_1_0_n_n_0_1_1128 x i) : (⟨S50000x128, .f32⟩ : BufTy).Contents (Elt F) → (⟨S1200000x1, .i32⟩ : BufTy).Contents (Elt F) → (⟨S1200000x128, .f32⟩ : BufTy).Contents (Elt F)),
    unary main_v46 main_v54 (broadcastInDim S1200000x128 ![0, 1] bcast_S1200000x1_S1200000x128_0_1 : (⟨S1200000x1, .f32⟩ : BufTy).Contents (Elt F) → (⟨S1200000x128, .f32⟩ : BufTy).Contents (Elt F)),
    binary main_v54 main_v53 main_v55 (mulf : (⟨S1200000x128, .f32⟩ : BufTy).Contents (Elt F) → (⟨S1200000x128, .f32⟩ : BufTy).Contents (Elt F) → (⟨S1200000x128, .f32⟩ : BufTy).Contents (Elt F)),
    nullary main_cst_9 (constant S_ .f32 0x00000000#32),
    unary main_cst_9 main_v56 (broadcastInDim S50000x128 ![] bcast_S_S50000x128 : (⟨S_, .f32⟩ : BufTy).Contents (Elt F) → (⟨S50000x128, .f32⟩ : BufTy).Contents (Elt F)),
    unary main_arg5 main_v57 (broadcastInDim S1200000x1 ![0] bcast_S1200000_S1200000x1_0 : (⟨S1200000, .i32⟩ : BufTy).Contents (Elt F) → (⟨S1200000x1, .i32⟩ : BufTy).Contents (Elt F)),
    ternary main_v56 main_v57 main_v55 main_v58 ((fun x i u => Host.scatterAdd scatter_S50000x128_S1200000x1_S1200000x128_1_0_0_1 x i u) : (⟨S50000x128, .f32⟩ : BufTy).Contents (Elt F) → (⟨S1200000x1, .i32⟩ : BufTy).Contents (Elt F) → (⟨S1200000x128, .f32⟩ : BufTy).Contents (Elt F) → (⟨S50000x128, .f32⟩ : BufTy).Contents (Elt F)),
    binary main_v45 main_v58 main_v59 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v59) (TRef.of (T := ⟨S50000x256, .f32⟩) main_call2_v0) (TRef.of (T := ⟨S50000x256, .f32⟩) main_v60) maximumf,
    nary ![main_v4, main_v32, main_v60] main_v61 (fun u => concatenate S50000x448 1 [⟨S50000x64, u 0⟩, ⟨S50000x128, u 1⟩, ⟨S50000x256, u 2⟩] concatenates_S50000x64_S50000x128_S50000x256_S50000x448_d1),
    binary main_v61 main_arg9 main_v62 ((fun l r => Host.dotGeneral dot_S50000x448_S448x47_S50000x47_1_0_0_1_n_n none l r) : (⟨S50000x448, .f32⟩ : BufTy).Contents (Elt F) → (⟨S448x47, .f32⟩ : BufTy).Contents (Elt F) → (⟨S50000x47, .f32⟩ : BufTy).Contents (Elt F)),
    unary main_arg10 main_v63 (broadcastInDim S1x47 ![1] bcast_S47_S1x47_1 : (⟨S47, .f32⟩ : BufTy).Contents (Elt F) → (⟨S1x47, .f32⟩ : BufTy).Contents (Elt F)),
    unary main_v63 main_v64 (broadcastInDim S50000x47 ![0, 1] bcast_S1x47_S50000x47_0_1 : (⟨S1x47, .f32⟩ : BufTy).Contents (Elt F) → (⟨S50000x47, .f32⟩ : BufTy).Contents (Elt F)),
    binary main_v62 main_v64 main_v65 (addf : (⟨S50000x47, .f32⟩ : BufTy).Contents (Elt F) → (⟨S50000x47, .f32⟩ : BufTy).Contents (Elt F) → (⟨S50000x47, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., unary_bufs_sub .., binary_bufs_sub .., nary_bufs_sub .., binary_bufs_sub .., unary_bufs_sub .., unary_bufs_sub .., binary_bufs_sub ..⟩

/-! ## The four stages -/

/-- The first layer's operations. -/
abbrev opsA : List (HloOp τ sig (Elt F)) :=
  [ binary main_arg0 main_arg7 main_v0 ((fun l r => Host.dotGeneral dot_S50000x512_S512x64_S50000x64_1_0_0_1_n_n none l r) : (⟨S50000x512, .f32⟩ : BufTy).Contents (Elt F) → (⟨S512x64, .f32⟩ : BufTy).Contents (Elt F) → (⟨S50000x64, .f32⟩ : BufTy).Contents (Elt F)),
    unary main_arg8 main_v1 (broadcastInDim S1x64 ![1] bcast_S64_S1x64_1 : (⟨S64, .f32⟩ : BufTy).Contents (Elt F) → (⟨S1x64, .f32⟩ : BufTy).Contents (Elt F)),
    unary main_v1 main_v2 (broadcastInDim S50000x64 ![0, 1] bcast_S1x64_S50000x64_0_1 : (⟨S1x64, .f32⟩ : BufTy).Contents (Elt F) → (⟨S50000x64, .f32⟩ : BufTy).Contents (Elt F)),
    binary main_v0 main_v2 main_v3 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v3) (TRef.of (T := ⟨S50000x64, .f32⟩) main_call0_v0) (TRef.of (T := ⟨S50000x64, .f32⟩) main_v4) maximumf ]

/-- The first round: the two sparse products, their concatenation, the maximum with zero. -/
abbrev opsB : List (HloOp τ sig (Elt F)) :=
  [ unary main_arg3 main_v5 (broadcastInDim S800000x1 ![0] bcast_S800000_S800000x1_0 : (⟨S800000, .f32⟩ : BufTy).Contents (Elt F) → (⟨S800000x1, .f32⟩ : BufTy).Contents (Elt F)),
    nullary main_c (constantI S_ 32 0#32),
    unary main_c main_v6 (broadcastInDim S800000 ![] bcast_S_S800000 : (⟨S_, .i32⟩ : BufTy).Contents (Elt F) → (⟨S800000, .i32⟩ : BufTy).Contents (Elt F)),
    binary main_arg1 main_v6 main_v7 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v8 (broadcastInDim S800000 ![] bcast_S_S800000 : (⟨S_, .i32⟩ : BufTy).Contents (Elt F) → (⟨S800000, .i32⟩ : BufTy).Contents (Elt F)),
    binary main_arg1 main_v8 main_v9 (addi : (⟨S800000, .i32⟩ : BufTy).Contents (Elt F) → (⟨S800000, .i32⟩ : BufTy).Contents (Elt F) → (⟨S800000, .i32⟩ : BufTy).Contents (Elt F)),
    ternary main_v7 main_v9 main_arg1 main_v10 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v10 main_v11 (broadcastInDim S800000x1 ![0] bcast_S800000_S800000x1_0 : (⟨S800000, .i32⟩ : BufTy).Contents (Elt F) → (⟨S800000x1, .i32⟩ : BufTy).Contents (Elt F)),
    binary main_v4 main_v11 main_v12 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v5 main_v13 (broadcastInDim S800000x64 ![0, 1] bcast_S800000x1_S800000x64_0_1 : (⟨S800000x1, .f32⟩ : BufTy).Contents (Elt F) → (⟨S800000x64, .f32⟩ : BufTy).Contents (Elt F)),
    binary main_v13 main_v12 main_v14 (mulf : (⟨S800000x64, .f32⟩ : BufTy).Contents (Elt F) → (⟨S800000x64, .f32⟩ : BufTy).Contents (Elt F) → (⟨S800000x64, .f32⟩ : BufTy).Contents (Elt F)),
    nullary main_cst (constant S_ .f32 0x00000000#32),
    unary main_cst main_v15 (broadcastInDim S50000x64 ![] bcast_S_S50000x64 : (⟨S_, .f32⟩ : BufTy).Contents (Elt F) → (⟨S50000x64, .f32⟩ : BufTy).Contents (Elt F)),
    unary main_arg2 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg6 main_v18 (broadcastInDim S1200000x1 ![0] bcast_S1200000_S1200000x1_0 : (⟨S1200000, .f32⟩ : BufTy).Contents (Elt F) → (⟨S1200000x1, .f32⟩ : BufTy).Contents (Elt F)),
    nullary main_c_1 (constantI S_ 32 0#32),
    unary main_c_1 main_v19 (broadcastInDim S1200000 ![] bcast_S_S1200000 : (⟨S_, .i32⟩ : BufTy).Contents (Elt F) → (⟨S1200000, .i32⟩ : BufTy).Contents (Elt F)),
    binary main_arg4 main_v19 main_v20 (cmpi .slt : (⟨S1200000, .i32⟩ : BufTy).Contents (Elt F) → (⟨S1200000, .i32⟩ : BufTy).Contents (Elt F) → (⟨S1200000, .i1⟩ : BufTy).Contents (Elt F)),
    nullary main_c_2 (constantI S_ 32 50000#32),
    unary main_c_2 main_v21 (broadcastInDim S1200000 ![] bcast_S_S1200000 : (⟨S_, .i32⟩ : BufTy).Contents (Elt F) → (⟨S1200000, .i32⟩ : BufTy).Contents (Elt F)),
    binary main_arg4 main_v21 main_v22 (addi : (⟨S1200000, .i32⟩ : BufTy).Contents (Elt F) → (⟨S1200000, .i32⟩ : BufTy).Contents (Elt F) → (⟨S1200000, .i32⟩ : BufTy).Contents (Elt F)),
    ternary main_v20 main_v22 main_arg4 main_v23 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v23 main_v24 (broadcastInDim S1200000x1 ![0] bcast_S1200000_S1200000x1_0 : (⟨S1200000, .i32⟩ : BufTy).Contents (Elt F) → (⟨S1200000x1, .i32⟩ : BufTy).Contents (Elt F)),
    binary main_v4 main_v24 main_v25 ((fun x i => Host.gather gather_S50000x64_S1200000x1_S1200000x64_1_0_n_n_0_1_164 x i) : (⟨S50000x64, .f32⟩ : BufTy).Contents (Elt F) → (⟨S1200000x1, .i32⟩ : BufTy).Contents (Elt F) → (⟨S1200000x64, .f32⟩ : BufTy).Contents (Elt F)),
    unary main_v18 main_v26 (broadcastInDim S1200000x64 ![0, 1] bcast_S1200000x1_S1200000x64_0_1 : (⟨S1200000x1, .f32⟩ : BufTy).Contents (Elt F) → (⟨S1200000x64, .f32⟩ : BufTy).Contents (Elt F)),
    binary main_v26 main_v25 main_v27 (mulf : (⟨S1200000x64, .f32⟩ : BufTy).Contents (Elt F) → (⟨S1200000x64, .f32⟩ : BufTy).Contents (Elt F) → (⟨S1200000x64, .f32⟩ : BufTy).Contents (Elt F)),
    nullary main_cst_3 (constant S_ .f32 0x00000000#32),
    unary main_cst_3 main_v28 (broadcastInDim S50000x64 ![] bcast_S_S50000x64 : (⟨S_, .f32⟩ : BufTy).Contents (Elt F) → (⟨S50000x64, .f32⟩ : BufTy).Contents (Elt F)),
    unary main_arg5 main_v29 (broadcastInDim S1200000x1 ![0] bcast_S1200000_S1200000x1_0 : (⟨S1200000, .i32⟩ : BufTy).Contents (Elt F) → (⟨S1200000x1, .i32⟩ : BufTy).Contents (Elt F)),
    ternary main_v28 main_v29 main_v27 main_v30 ((fun x i u => Host.scatterAdd scatter_S50000x64_S1200000x1_S1200000x64_1_0_0_1 x i u) : (⟨S50000x64, .f32⟩ : BufTy).Contents (Elt F) → (⟨S1200000x1, .i32⟩ : BufTy).Contents (Elt F) → (⟨S1200000x64, .f32⟩ : BufTy).Contents (Elt F) → (⟨S50000x64, .f32⟩ : BufTy).Contents (Elt F)),
    binary main_v17 main_v30 main_v31 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v31) (TRef.of (T := ⟨S50000x128, .f32⟩) main_call1_v0) (TRef.of (T := ⟨S50000x128, .f32⟩) main_v32) maximumf ]

/-- The second round. -/
abbrev opsC : List (HloOp τ sig (Elt F)) :=
  [ unary main_arg3 main_v33 (broadcastInDim S800000x1 ![0] bcast_S800000_S800000x1_0 : (⟨S800000, .f32⟩ : BufTy).Contents (Elt F) → (⟨S800000x1, .f32⟩ : BufTy).Contents (Elt F)),
    nullary main_c_4 (constantI S_ 32 0#32),
    unary main_c_4 main_v34 (broadcastInDim S800000 ![] bcast_S_S800000 : (⟨S_, .i32⟩ : BufTy).Contents (Elt F) → (⟨S800000, .i32⟩ : BufTy).Contents (Elt F)),
    binary main_arg1 main_v34 main_v35 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v36 (broadcastInDim S800000 ![] bcast_S_S800000 : (⟨S_, .i32⟩ : BufTy).Contents (Elt F) → (⟨S800000, .i32⟩ : BufTy).Contents (Elt F)),
    binary main_arg1 main_v36 main_v37 (addi : (⟨S800000, .i32⟩ : BufTy).Contents (Elt F) → (⟨S800000, .i32⟩ : BufTy).Contents (Elt F) → (⟨S800000, .i32⟩ : BufTy).Contents (Elt F)),
    ternary main_v35 main_v37 main_arg1 main_v38 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v38 main_v39 (broadcastInDim S800000x1 ![0] bcast_S800000_S800000x1_0 : (⟨S800000, .i32⟩ : BufTy).Contents (Elt F) → (⟨S800000x1, .i32⟩ : BufTy).Contents (Elt F)),
    binary main_v32 main_v39 main_v40 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v33 main_v41 (broadcastInDim S800000x128 ![0, 1] bcast_S800000x1_S800000x128_0_1 : (⟨S800000x1, .f32⟩ : BufTy).Contents (Elt F) → (⟨S800000x128, .f32⟩ : BufTy).Contents (Elt F)),
    binary main_v41 main_v40 main_v42 (mulf : (⟨S800000x128, .f32⟩ : BufTy).Contents (Elt F) → (⟨S800000x128, .f32⟩ : BufTy).Contents (Elt F) → (⟨S800000x128, .f32⟩ : BufTy).Contents (Elt F)),
    nullary main_cst_6 (constant S_ .f32 0x00000000#32),
    unary main_cst_6 main_v43 (broadcastInDim S50000x128 ![] bcast_S_S50000x128 : (⟨S_, .f32⟩ : BufTy).Contents (Elt F) → (⟨S50000x128, .f32⟩ : BufTy).Contents (Elt F)),
    unary main_arg2 main_v44 (broadcastInDim S800000x1 ![0] bcast_S800000_S800000x1_0 : (⟨S800000, .i32⟩ : BufTy).Contents (Elt F) → (⟨S800000x1, .i32⟩ : BufTy).Contents (Elt F)),
    ternary main_v43 main_v44 main_v42 main_v45 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg6 main_v46 (broadcastInDim S1200000x1 ![0] bcast_S1200000_S1200000x1_0 : (⟨S1200000, .f32⟩ : BufTy).Contents (Elt F) → (⟨S1200000x1, .f32⟩ : BufTy).Contents (Elt F)),
    nullary main_c_7 (constantI S_ 32 0#32),
    unary main_c_7 main_v47 (broadcastInDim S1200000 ![] bcast_S_S1200000 : (⟨S_, .i32⟩ : BufTy).Contents (Elt F) → (⟨S1200000, .i32⟩ : BufTy).Contents (Elt F)),
    binary main_arg4 main_v47 main_v48 (cmpi .slt : (⟨S1200000, .i32⟩ : BufTy).Contents (Elt F) → (⟨S1200000, .i32⟩ : BufTy).Contents (Elt F) → (⟨S1200000, .i1⟩ : BufTy).Contents (Elt F)),
    nullary main_c_8 (constantI S_ 32 50000#32),
    unary main_c_8 main_v49 (broadcastInDim S1200000 ![] bcast_S_S1200000 : (⟨S_, .i32⟩ : BufTy).Contents (Elt F) → (⟨S1200000, .i32⟩ : BufTy).Contents (Elt F)),
    binary main_arg4 main_v49 main_v50 (addi : (⟨S1200000, .i32⟩ : BufTy).Contents (Elt F) → (⟨S1200000, .i32⟩ : BufTy).Contents (Elt F) → (⟨S1200000, .i32⟩ : BufTy).Contents (Elt F)),
    ternary main_v48 main_v50 main_arg4 main_v51 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v51 main_v52 (broadcastInDim S1200000x1 ![0] bcast_S1200000_S1200000x1_0 : (⟨S1200000, .i32⟩ : BufTy).Contents (Elt F) → (⟨S1200000x1, .i32⟩ : BufTy).Contents (Elt F)),
    binary main_v32 main_v52 main_v53 ((fun x i => Host.gather gather_S50000x128_S1200000x1_S1200000x128_1_0_n_n_0_1_1128 x i) : (⟨S50000x128, .f32⟩ : BufTy).Contents (Elt F) → (⟨S1200000x1, .i32⟩ : BufTy).Contents (Elt F) → (⟨S1200000x128, .f32⟩ : BufTy).Contents (Elt F)),
    unary main_v46 main_v54 (broadcastInDim S1200000x128 ![0, 1] bcast_S1200000x1_S1200000x128_0_1 : (⟨S1200000x1, .f32⟩ : BufTy).Contents (Elt F) → (⟨S1200000x128, .f32⟩ : BufTy).Contents (Elt F)),
    binary main_v54 main_v53 main_v55 (mulf : (⟨S1200000x128, .f32⟩ : BufTy).Contents (Elt F) → (⟨S1200000x128, .f32⟩ : BufTy).Contents (Elt F) → (⟨S1200000x128, .f32⟩ : BufTy).Contents (Elt F)),
    nullary main_cst_9 (constant S_ .f32 0x00000000#32),
    unary main_cst_9 main_v56 (broadcastInDim S50000x128 ![] bcast_S_S50000x128 : (⟨S_, .f32⟩ : BufTy).Contents (Elt F) → (⟨S50000x128, .f32⟩ : BufTy).Contents (Elt F)),
    unary main_arg5 main_v57 (broadcastInDim S1200000x1 ![0] bcast_S1200000_S1200000x1_0 : (⟨S1200000, .i32⟩ : BufTy).Contents (Elt F) → (⟨S1200000x1, .i32⟩ : BufTy).Contents (Elt F)),
    ternary main_v56 main_v57 main_v55 main_v58 ((fun x i u => Host.scatterAdd scatter_S50000x128_S1200000x1_S1200000x128_1_0_0_1 x i u) : (⟨S50000x128, .f32⟩ : BufTy).Contents (Elt F) → (⟨S1200000x1, .i32⟩ : BufTy).Contents (Elt F) → (⟨S1200000x128, .f32⟩ : BufTy).Contents (Elt F) → (⟨S50000x128, .f32⟩ : BufTy).Contents (Elt F)),
    binary main_v45 main_v58 main_v59 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v59) (TRef.of (T := ⟨S50000x256, .f32⟩) main_call2_v0) (TRef.of (T := ⟨S50000x256, .f32⟩) main_v60) maximumf ]

/-- The read-out. -/
abbrev opsD : List (HloOp τ sig (Elt F)) :=
  [ nary ![main_v4, main_v32, main_v60] main_v61 (fun u => concatenate S50000x448 1 [⟨S50000x64, u 0⟩, ⟨S50000x128, u 1⟩, ⟨S50000x256, u 2⟩] concatenates_S50000x64_S50000x128_S50000x256_S50000x448_d1),
    binary main_v61 main_arg9 main_v62 ((fun l r => Host.dotGeneral dot_S50000x448_S448x47_S50000x47_1_0_0_1_n_n none l r) : (⟨S50000x448, .f32⟩ : BufTy).Contents (Elt F) → (⟨S448x47, .f32⟩ : BufTy).Contents (Elt F) → (⟨S50000x47, .f32⟩ : BufTy).Contents (Elt F)),
    unary main_arg10 main_v63 (broadcastInDim S1x47 ![1] bcast_S47_S1x47_1 : (⟨S47, .f32⟩ : BufTy).Contents (Elt F) → (⟨S1x47, .f32⟩ : BufTy).Contents (Elt F)),
    unary main_v63 main_v64 (broadcastInDim S50000x47 ![0, 1] bcast_S1x47_S50000x47_0_1 : (⟨S1x47, .f32⟩ : BufTy).Contents (Elt F) → (⟨S50000x47, .f32⟩ : BufTy).Contents (Elt F)),
    binary main_v62 main_v64 main_v65 (addf : (⟨S50000x47, .f32⟩ : BufTy).Contents (Elt F) → (⟨S50000x47, .f32⟩ : BufTy).Contents (Elt F) → (⟨S50000x47, .f32⟩ : BufTy).Contents (Elt F)) ]

/-- The line is its four stages in order. -/
theorem ops_stages : (ops : List (HloOp τ sig (Elt F))) = opsA ++ (opsB ++ (opsC ++ opsD)) := rfl

/-- The fold over a line cut in two is the second part's fold over the first part's. -/
theorem after_append {τ' : Topo} {sig' : RefSig} {Val : EltTy → Type} (a b : List (HloOp τ' sig' Val)) :
    ∀ V : Valuation τ' sig' Val, after (a ++ b) V = after b (after a V) := by
  induction a with
  | nil => intro V; rfl
  | cons op a ih => intro V; exact ih _

/-! ## Each stage from any contents X -/

/-- The first layer. -/
theorem opsA_v4 (X : Valuation τ sig (Elt Ideal)) :
    after (opsA (F := Ideal)) X (Proc.devRef .tc main_v4) = affRelu (X (Proc.devRef .tc main_arg0)) (X (Proc.devRef .tc main_arg7)) (X (Proc.devRef .tc main_arg8)) := by
  after_results_simp
  exact ref_affRelu _ _ _
/-- The first round: the two sparse products of the first layer side by side, rectified. -/
theorem opsB_v32 (X : Valuation τ sig (Elt Ideal)) :
    after (opsB (F := Ideal)) X (Proc.devRef .tc main_v32)
      = reluCat (w := 64) (W := 128) rfl (spmm1_64 (X (Proc.devRef .tc main_v4)) (X (Proc.devRef .tc main_arg1)) (X (Proc.devRef .tc main_arg2)) (X (Proc.devRef .tc main_arg3)))
          (spmm2_64 (X (Proc.devRef .tc main_v4)) (X (Proc.devRef .tc main_arg4)) (X (Proc.devRef .tc main_arg5)) (X (Proc.devRef .tc main_arg6))) := by
  after_results_simp
  refine (ref_reluCat64 _ _).trans ?_
  rfl
/-- The second round. -/
theorem opsC_v60 (X : Valuation τ sig (Elt Ideal)) :
    after (opsC (F := Ideal)) X (Proc.devRef .tc main_v60)
      = reluCat (w := 128) (W := 256) rfl (spmm1_128 (X (Proc.devRef .tc main_v32)) (X (Proc.devRef .tc main_arg1)) (X (Proc.devRef .tc main_arg2)) (X (Proc.devRef .tc main_arg3)))
          (spmm2_128 (X (Proc.devRef .tc main_v32)) (X (Proc.devRef .tc main_arg4)) (X (Proc.devRef .tc main_arg5)) (X (Proc.devRef .tc main_arg6))) := by
  after_results_simp
  refine (ref_reluCat128 _ _).trans ?_
  rfl
/-- The read-out. -/
theorem opsD_v65 (X : Valuation τ sig (Elt Ideal)) :
    after (opsD (F := Ideal)) X (Proc.devRef .tc main_v65)
      = readout (K0 := 64) (K1 := 128) (K2 := 256) (K := 448) rfl (X (Proc.devRef .tc main_v4)) (X (Proc.devRef .tc main_v32)) (X (Proc.devRef .tc main_v60)) (X (Proc.devRef .tc main_arg9)) (X (Proc.devRef .tc main_arg10)) := by
  after_results_simp
  exact ref_readout _ _ _ _ _

/-! An array no operation of a stage writes is what it was. -/
theorem opsA_keep_main_arg0 (X : Valuation τ sig (Elt Ideal)) : after (opsA (F := Ideal)) X (Proc.devRef .tc main_arg0) = X (Proc.devRef .tc main_arg0) := by
  after_results_simp <;> rfl
theorem opsA_keep_main_arg1 (X : Valuation τ sig (Elt Ideal)) : after (opsA (F := Ideal)) X (Proc.devRef .tc main_arg1) = X (Proc.devRef .tc main_arg1) := by
  after_results_simp <;> rfl
theorem opsA_keep_main_arg2 (X : Valuation τ sig (Elt Ideal)) : after (opsA (F := Ideal)) X (Proc.devRef .tc main_arg2) = X (Proc.devRef .tc main_arg2) := by
  after_results_simp <;> rfl
theorem opsA_keep_main_arg3 (X : Valuation τ sig (Elt Ideal)) : after (opsA (F := Ideal)) X (Proc.devRef .tc main_arg3) = X (Proc.devRef .tc main_arg3) := by
  after_results_simp <;> rfl
theorem opsA_keep_main_arg4 (X : Valuation τ sig (Elt Ideal)) : after (opsA (F := Ideal)) X (Proc.devRef .tc main_arg4) = X (Proc.devRef .tc main_arg4) := by
  after_results_simp <;> rfl
theorem opsA_keep_main_arg5 (X : Valuation τ sig (Elt Ideal)) : after (opsA (F := Ideal)) X (Proc.devRef .tc main_arg5) = X (Proc.devRef .tc main_arg5) := by
  after_results_simp <;> rfl
theorem opsA_keep_main_arg6 (X : Valuation τ sig (Elt Ideal)) : after (opsA (F := Ideal)) X (Proc.devRef .tc main_arg6) = X (Proc.devRef .tc main_arg6) := by
  after_results_simp <;> rfl
theorem opsA_keep_main_arg7 (X : Valuation τ sig (Elt Ideal)) : after (opsA (F := Ideal)) X (Proc.devRef .tc main_arg7) = X (Proc.devRef .tc main_arg7) := by
  after_results_simp <;> rfl
theorem opsA_keep_main_arg8 (X : Valuation τ sig (Elt Ideal)) : after (opsA (F := Ideal)) X (Proc.devRef .tc main_arg8) = X (Proc.devRef .tc main_arg8) := by
  after_results_simp <;> rfl
theorem opsA_keep_main_arg9 (X : Valuation τ sig (Elt Ideal)) : after (opsA (F := Ideal)) X (Proc.devRef .tc main_arg9) = X (Proc.devRef .tc main_arg9) := by
  after_results_simp <;> rfl
theorem opsA_keep_main_arg10 (X : Valuation τ sig (Elt Ideal)) : after (opsA (F := Ideal)) X (Proc.devRef .tc main_arg10) = X (Proc.devRef .tc main_arg10) := by
  after_results_simp <;> rfl
theorem opsB_keep_main_v4 (X : Valuation τ sig (Elt Ideal)) : after (opsB (F := Ideal)) X (Proc.devRef .tc main_v4) = X (Proc.devRef .tc main_v4) := by
  after_results_simp <;> rfl
theorem opsB_keep_main_arg0 (X : Valuation τ sig (Elt Ideal)) : after (opsB (F := Ideal)) X (Proc.devRef .tc main_arg0) = X (Proc.devRef .tc main_arg0) := by
  after_results_simp <;> rfl
theorem opsB_keep_main_arg1 (X : Valuation τ sig (Elt Ideal)) : after (opsB (F := Ideal)) X (Proc.devRef .tc main_arg1) = X (Proc.devRef .tc main_arg1) := by
  after_results_simp <;> rfl
theorem opsB_keep_main_arg2 (X : Valuation τ sig (Elt Ideal)) : after (opsB (F := Ideal)) X (Proc.devRef .tc main_arg2) = X (Proc.devRef .tc main_arg2) := by
  after_results_simp <;> rfl
theorem opsB_keep_main_arg3 (X : Valuation τ sig (Elt Ideal)) : after (opsB (F := Ideal)) X (Proc.devRef .tc main_arg3) = X (Proc.devRef .tc main_arg3) := by
  after_results_simp <;> rfl
theorem opsB_keep_main_arg4 (X : Valuation τ sig (Elt Ideal)) : after (opsB (F := Ideal)) X (Proc.devRef .tc main_arg4) = X (Proc.devRef .tc main_arg4) := by
  after_results_simp <;> rfl
theorem opsB_keep_main_arg5 (X : Valuation τ sig (Elt Ideal)) : after (opsB (F := Ideal)) X (Proc.devRef .tc main_arg5) = X (Proc.devRef .tc main_arg5) := by
  after_results_simp <;> rfl
theorem opsB_keep_main_arg6 (X : Valuation τ sig (Elt Ideal)) : after (opsB (F := Ideal)) X (Proc.devRef .tc main_arg6) = X (Proc.devRef .tc main_arg6) := by
  after_results_simp <;> rfl
theorem opsB_keep_main_arg7 (X : Valuation τ sig (Elt Ideal)) : after (opsB (F := Ideal)) X (Proc.devRef .tc main_arg7) = X (Proc.devRef .tc main_arg7) := by
  after_results_simp <;> rfl
theorem opsB_keep_main_arg8 (X : Valuation τ sig (Elt Ideal)) : after (opsB (F := Ideal)) X (Proc.devRef .tc main_arg8) = X (Proc.devRef .tc main_arg8) := by
  after_results_simp <;> rfl
theorem opsB_keep_main_arg9 (X : Valuation τ sig (Elt Ideal)) : after (opsB (F := Ideal)) X (Proc.devRef .tc main_arg9) = X (Proc.devRef .tc main_arg9) := by
  after_results_simp <;> rfl
theorem opsB_keep_main_arg10 (X : Valuation τ sig (Elt Ideal)) : after (opsB (F := Ideal)) X (Proc.devRef .tc main_arg10) = X (Proc.devRef .tc main_arg10) := by
  after_results_simp <;> rfl
theorem opsC_keep_main_v4 (X : Valuation τ sig (Elt Ideal)) : after (opsC (F := Ideal)) X (Proc.devRef .tc main_v4) = X (Proc.devRef .tc main_v4) := by
  after_results_simp <;> rfl
theorem opsC_keep_main_v32 (X : Valuation τ sig (Elt Ideal)) : after (opsC (F := Ideal)) X (Proc.devRef .tc main_v32) = X (Proc.devRef .tc main_v32) := by
  after_results_simp <;> rfl
theorem opsC_keep_main_arg0 (X : Valuation τ sig (Elt Ideal)) : after (opsC (F := Ideal)) X (Proc.devRef .tc main_arg0) = X (Proc.devRef .tc main_arg0) := by
  after_results_simp <;> rfl
theorem opsC_keep_main_arg1 (X : Valuation τ sig (Elt Ideal)) : after (opsC (F := Ideal)) X (Proc.devRef .tc main_arg1) = X (Proc.devRef .tc main_arg1) := by
  after_results_simp <;> rfl
theorem opsC_keep_main_arg2 (X : Valuation τ sig (Elt Ideal)) : after (opsC (F := Ideal)) X (Proc.devRef .tc main_arg2) = X (Proc.devRef .tc main_arg2) := by
  after_results_simp <;> rfl
theorem opsC_keep_main_arg3 (X : Valuation τ sig (Elt Ideal)) : after (opsC (F := Ideal)) X (Proc.devRef .tc main_arg3) = X (Proc.devRef .tc main_arg3) := by
  after_results_simp <;> rfl
theorem opsC_keep_main_arg4 (X : Valuation τ sig (Elt Ideal)) : after (opsC (F := Ideal)) X (Proc.devRef .tc main_arg4) = X (Proc.devRef .tc main_arg4) := by
  after_results_simp <;> rfl
theorem opsC_keep_main_arg5 (X : Valuation τ sig (Elt Ideal)) : after (opsC (F := Ideal)) X (Proc.devRef .tc main_arg5) = X (Proc.devRef .tc main_arg5) := by
  after_results_simp <;> rfl
theorem opsC_keep_main_arg6 (X : Valuation τ sig (Elt Ideal)) : after (opsC (F := Ideal)) X (Proc.devRef .tc main_arg6) = X (Proc.devRef .tc main_arg6) := by
  after_results_simp <;> rfl
theorem opsC_keep_main_arg7 (X : Valuation τ sig (Elt Ideal)) : after (opsC (F := Ideal)) X (Proc.devRef .tc main_arg7) = X (Proc.devRef .tc main_arg7) := by
  after_results_simp <;> rfl
theorem opsC_keep_main_arg8 (X : Valuation τ sig (Elt Ideal)) : after (opsC (F := Ideal)) X (Proc.devRef .tc main_arg8) = X (Proc.devRef .tc main_arg8) := by
  after_results_simp <;> rfl
theorem opsC_keep_main_arg9 (X : Valuation τ sig (Elt Ideal)) : after (opsC (F := Ideal)) X (Proc.devRef .tc main_arg9) = X (Proc.devRef .tc main_arg9) := by
  after_results_simp <;> rfl
theorem opsC_keep_main_arg10 (X : Valuation τ sig (Elt Ideal)) : after (opsC (F := Ideal)) X (Proc.devRef .tc main_arg10) = X (Proc.devRef .tc main_arg10) := by
  after_results_simp <;> rfl
theorem opsD_keep_main_arg0 (X : Valuation τ sig (Elt Ideal)) : after (opsD (F := Ideal)) X (Proc.devRef .tc main_arg0) = X (Proc.devRef .tc main_arg0) := by
  after_results_simp <;> rfl
theorem opsD_keep_main_arg1 (X : Valuation τ sig (Elt Ideal)) : after (opsD (F := Ideal)) X (Proc.devRef .tc main_arg1) = X (Proc.devRef .tc main_arg1) := by
  after_results_simp <;> rfl
theorem opsD_keep_main_arg2 (X : Valuation τ sig (Elt Ideal)) : after (opsD (F := Ideal)) X (Proc.devRef .tc main_arg2) = X (Proc.devRef .tc main_arg2) := by
  after_results_simp <;> rfl
theorem opsD_keep_main_arg3 (X : Valuation τ sig (Elt Ideal)) : after (opsD (F := Ideal)) X (Proc.devRef .tc main_arg3) = X (Proc.devRef .tc main_arg3) := by
  after_results_simp <;> rfl
theorem opsD_keep_main_arg4 (X : Valuation τ sig (Elt Ideal)) : after (opsD (F := Ideal)) X (Proc.devRef .tc main_arg4) = X (Proc.devRef .tc main_arg4) := by
  after_results_simp <;> rfl
theorem opsD_keep_main_arg5 (X : Valuation τ sig (Elt Ideal)) : after (opsD (F := Ideal)) X (Proc.devRef .tc main_arg5) = X (Proc.devRef .tc main_arg5) := by
  after_results_simp <;> rfl
theorem opsD_keep_main_arg6 (X : Valuation τ sig (Elt Ideal)) : after (opsD (F := Ideal)) X (Proc.devRef .tc main_arg6) = X (Proc.devRef .tc main_arg6) := by
  after_results_simp <;> rfl
theorem opsD_keep_main_arg7 (X : Valuation τ sig (Elt Ideal)) : after (opsD (F := Ideal)) X (Proc.devRef .tc main_arg7) = X (Proc.devRef .tc main_arg7) := by
  after_results_simp <;> rfl
theorem opsD_keep_main_arg8 (X : Valuation τ sig (Elt Ideal)) : after (opsD (F := Ideal)) X (Proc.devRef .tc main_arg8) = X (Proc.devRef .tc main_arg8) := by
  after_results_simp <;> rfl
theorem opsD_keep_main_arg9 (X : Valuation τ sig (Elt Ideal)) : after (opsD (F := Ideal)) X (Proc.devRef .tc main_arg9) = X (Proc.devRef .tc main_arg9) := by
  after_results_simp <;> rfl
theorem opsD_keep_main_arg10 (X : Valuation τ sig (Elt Ideal)) : after (opsD (F := Ideal)) X (Proc.devRef .tc main_arg10) = X (Proc.devRef .tc main_arg10) := by
  after_results_simp <;> rfl

/-! ## The whole line -/

/-- The result array after the line, from any contents X: the network of the argument arrays in X. -/
theorem ops_v65 (X : Valuation τ sig (Elt Ideal)) :
    after (ops (F := Ideal)) X (Proc.devRef .tc main_v65) = net (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg10)) := by
  rw [ops_stages, after_append, after_append, after_append, opsD_v65]
  rw [opsC_v60, opsC_keep_main_v4, opsC_keep_main_v32, opsC_keep_main_arg9, opsC_keep_main_arg10]
  rw [opsB_v32, opsB_keep_main_v4, opsB_keep_main_arg1, opsB_keep_main_arg2, opsB_keep_main_arg3, opsB_keep_main_arg4, opsB_keep_main_arg5, opsB_keep_main_arg6, opsB_keep_main_arg9, opsB_keep_main_arg10]
  rw [opsA_v4, opsA_keep_main_arg1, opsA_keep_main_arg2, opsA_keep_main_arg3, opsA_keep_main_arg4, opsA_keep_main_arg5, opsA_keep_main_arg6, opsA_keep_main_arg9, opsA_keep_main_arg10]
  rfl

/-- An argument array is not written by the line. -/
theorem ops_keep_main_arg0 (X : Valuation τ sig (Elt Ideal)) : after (ops (F := Ideal)) X (Proc.devRef .tc main_arg0) = X (Proc.devRef .tc main_arg0) := by
  rw [ops_stages, after_append, after_append, after_append, opsD_keep_main_arg0, opsC_keep_main_arg0, opsB_keep_main_arg0, opsA_keep_main_arg0]
theorem ops_keep_main_arg1 (X : Valuation τ sig (Elt Ideal)) : after (ops (F := Ideal)) X (Proc.devRef .tc main_arg1) = X (Proc.devRef .tc main_arg1) := by
  rw [ops_stages, after_append, after_append, after_append, opsD_keep_main_arg1, opsC_keep_main_arg1, opsB_keep_main_arg1, opsA_keep_main_arg1]
theorem ops_keep_main_arg2 (X : Valuation τ sig (Elt Ideal)) : after (ops (F := Ideal)) X (Proc.devRef .tc main_arg2) = X (Proc.devRef .tc main_arg2) := by
  rw [ops_stages, after_append, after_append, after_append, opsD_keep_main_arg2, opsC_keep_main_arg2, opsB_keep_main_arg2, opsA_keep_main_arg2]
theorem ops_keep_main_arg3 (X : Valuation τ sig (Elt Ideal)) : after (ops (F := Ideal)) X (Proc.devRef .tc main_arg3) = X (Proc.devRef .tc main_arg3) := by
  rw [ops_stages, after_append, after_append, after_append, opsD_keep_main_arg3, opsC_keep_main_arg3, opsB_keep_main_arg3, opsA_keep_main_arg3]
theorem ops_keep_main_arg4 (X : Valuation τ sig (Elt Ideal)) : after (ops (F := Ideal)) X (Proc.devRef .tc main_arg4) = X (Proc.devRef .tc main_arg4) := by
  rw [ops_stages, after_append, after_append, after_append, opsD_keep_main_arg4, opsC_keep_main_arg4, opsB_keep_main_arg4, opsA_keep_main_arg4]
theorem ops_keep_main_arg5 (X : Valuation τ sig (Elt Ideal)) : after (ops (F := Ideal)) X (Proc.devRef .tc main_arg5) = X (Proc.devRef .tc main_arg5) := by
  rw [ops_stages, after_append, after_append, after_append, opsD_keep_main_arg5, opsC_keep_main_arg5, opsB_keep_main_arg5, opsA_keep_main_arg5]
theorem ops_keep_main_arg6 (X : Valuation τ sig (Elt Ideal)) : after (ops (F := Ideal)) X (Proc.devRef .tc main_arg6) = X (Proc.devRef .tc main_arg6) := by
  rw [ops_stages, after_append, after_append, after_append, opsD_keep_main_arg6, opsC_keep_main_arg6, opsB_keep_main_arg6, opsA_keep_main_arg6]
theorem ops_keep_main_arg7 (X : Valuation τ sig (Elt Ideal)) : after (ops (F := Ideal)) X (Proc.devRef .tc main_arg7) = X (Proc.devRef .tc main_arg7) := by
  rw [ops_stages, after_append, after_append, after_append, opsD_keep_main_arg7, opsC_keep_main_arg7, opsB_keep_main_arg7, opsA_keep_main_arg7]
theorem ops_keep_main_arg8 (X : Valuation τ sig (Elt Ideal)) : after (ops (F := Ideal)) X (Proc.devRef .tc main_arg8) = X (Proc.devRef .tc main_arg8) := by
  rw [ops_stages, after_append, after_append, after_append, opsD_keep_main_arg8, opsC_keep_main_arg8, opsB_keep_main_arg8, opsA_keep_main_arg8]
theorem ops_keep_main_arg9 (X : Valuation τ sig (Elt Ideal)) : after (ops (F := Ideal)) X (Proc.devRef .tc main_arg9) = X (Proc.devRef .tc main_arg9) := by
  rw [ops_stages, after_append, after_append, after_append, opsD_keep_main_arg9, opsC_keep_main_arg9, opsB_keep_main_arg9, opsA_keep_main_arg9]
theorem ops_keep_main_arg10 (X : Valuation τ sig (Elt Ideal)) : after (ops (F := Ideal)) X (Proc.devRef .tc main_arg10) = X (Proc.devRef .tc main_arg10) := by
  rw [ops_stages, after_append, after_append, after_append, opsD_keep_main_arg10, opsC_keep_main_arg10, opsB_keep_main_arg10, opsA_keep_main_arg10]

set_option maxHeartbeats 2000000 in
/-- On every device, from any memory with zero counters: every weakly fair execution of the reference terminates
    with the result array at the network of the arguments' launch contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v65).trans (ops_v65 _),
      (h c main_arg0).trans (ops_keep_main_arg0 _),
      (h c main_arg1).trans (ops_keep_main_arg1 _),
      (h c main_arg2).trans (ops_keep_main_arg2 _),
      (h c main_arg3).trans (ops_keep_main_arg3 _),
      (h c main_arg4).trans (ops_keep_main_arg4 _),
      (h c main_arg5).trans (ops_keep_main_arg5 _),
      (h c main_arg6).trans (ops_keep_main_arg6 _),
      (h c main_arg7).trans (ops_keep_main_arg7 _),
      (h c main_arg8).trans (ops_keep_main_arg8 _),
      (h c main_arg9).trans (ops_keep_main_arg9 _),
      (h c main_arg10).trans (ops_keep_main_arg10 _)⟩)
    (run_seq scopedRefs_eq scopedSems_eq defs main (fun _ => ops) main_eq (fun _ => ops_sub) m ρ)

end Cert.ReferenceIdeal.HandRun

end
-- ==== Proof.lean ====
/-
  The certificate: the kernel program, read at the extended reals, and the reference compute the same network.

  Both programs are  out = (h0 | r1 | r2)·Wc + bc  with  h0 = max (x·We + be, 0),  r1 = max ((A1·h0 | A2·h0), 0),
  r2 = max ((A1·r1 | A2·r1), 0),  A1 and A2 the sparse matrices the two edge lists give. The kernel program computes
  h0, the two rectified pairs and the read-out in four regions tiled over blocks of 2000 rows, the read-out as the sum
  of three products with the matching rows of Wc; the sparse products are the same host operations in both programs.
  The laws used: a product of a block of rows is that block of rows of the product; a sum over 448 terms is the sum of
  its three consecutive parts (addition of extended reals is commutative and associative, so nothing needs to be
  finite); a change of float format is the identity; the maximum with zero commutes with setting arrays side by side.
  The precondition is not used for the values.

  The three frames: the two kernel programs' are their frame certificates; the reference's is its run with the
  result dropped. The idealization rewrote nothing, so its conjunct is trivial.
-/
import proofs.«110650_j45028437131743_1_alg».proof.Defs
import proofs.«110650_j45028437131743_1_alg».proof.Proof.Gen.Kernel
import proofs.«110650_j45028437131743_1_alg».proof.Proof.Gen.Kernel.Skeleton
import proofs.«110650_j45028437131743_1_alg».proof.Proof.Gen.Kernel.Points
import proofs.«110650_j45028437131743_1_alg».proof.Proof.KernelFrameP
import proofs.«110650_j45028437131743_1_alg».proof.Proof.Gen.KernelIdeal
import proofs.«110650_j45028437131743_1_alg».proof.Proof.Gen.KernelIdeal.Skeleton
import proofs.«110650_j45028437131743_1_alg».proof.Proof.Gen.KernelIdeal.Points
import proofs.«110650_j45028437131743_1_alg».proof.Proof.KernelIdealFrameP
import proofs.«110650_j45028437131743_1_alg».proof.Proof.Gen.ReferenceIdeal
import proofs.«110650_j45028437131743_1_alg».proof.Proof.Gen.Pre_finite_inputs
import proofs.«110650_j45028437131743_1_alg».proof.Proof.KRun
import proofs.«110650_j45028437131743_1_alg».proof.Proof.KFold
import proofs.«110650_j45028437131743_1_alg».proof.Proof.KRegion0
import proofs.«110650_j45028437131743_1_alg».proof.Proof.KRegion1
import proofs.«110650_j45028437131743_1_alg».proof.Proof.KRegion2
import proofs.«110650_j45028437131743_1_alg».proof.Proof.KRegion3
import proofs.«110650_j45028437131743_1_alg».proof.Proof.RefRun
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.GenP.frame m ρ

theorem frame_ki : Cert.frame_KernelIdeal (hKernelIdeal := Cert.KernelIdeal.Gen.facts) (hPre_finite_inputs := Cert.Pre_finite_inputs.Gen.facts) :=
  fun m ρ _ => Cert.KernelIdeal.GenP.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.HandRun.run m ρ)

/-- Both runs end with the result at the network of the arguments; the memories agree on the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Chain.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Fold.result_eq m ρ c Cert.KernelIdeal.Region0.arr0 Cert.KernelIdeal.Region1.arr1
        Cert.KernelIdeal.Region2.arr2 Cert.KernelIdeal.Region3.arr3), (h c).2⟩)
      (Cert.KernelIdeal.KRun.run_result (F := Ideal) m ρ)
  · refine (θ_run Cert.ReferenceIdeal.defs _ _).mono (fun _ h c => ⟨(h c).1.trans ?_, (h c).2⟩)
      (Cert.ReferenceIdeal.HandRun.run m' ρ')
    obtain ⟨e0, e1, e2, e3, e4, e5, e6, e7, e8, e9, e10⟩ := hagree c
    rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
